-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part7 {F : FTy → Type} [FloatOps F] (main_arg26 : FVec F S64 .f32) (main_arg27 : FVec F S64 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg26
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64 .f32 := Host.absf main_arg27
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  main_v133

def fn_part6 {F : FTy → Type} [FloatOps F] (main_arg22 : FVec F S128 .f32) (main_arg23 : FVec F S128 .f32) (main_arg24 : FVec F S64 .f32) (main_arg25 : FVec F S64 .f32) (main_arg26 : FVec F S64 .f32) (main_arg27 : FVec F S64 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S64 .f32 := Host.absf main_arg24
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64 .f32 := Host.absf main_arg25
  fn_part7 (F := F) main_arg26 main_arg27 main_v118 main_v119

def fn_part5 {F : FTy → Type} [FloatOps F] (main_arg19 : FVec F S128 .f32) (main_arg20 : FVec F S128 .f32) (main_arg21 : FVec F S128 .f32) (main_arg22 : FVec F S128 .f32) (main_arg23 : FVec F S128 .f32) (main_arg24 : FVec F S64 .f32) (main_arg25 : FVec F S64 .f32) (main_arg26 : FVec F S64 .f32) (main_arg27 : FVec F S64 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_arg26 main_arg27 main_v98 main_v101 main_c_39

def fn_part4 {F : FTy → Type} [FloatOps F] (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S64 .f32) (main_arg25 : FVec F S64 .f32) (main_arg26 : FVec F S64 .f32) (main_arg27 : FVec F S64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S64 .f32) (main_arg25 : FVec F S64 .f32) (main_arg26 : FVec F S64 .f32) (main_arg27 : FVec F S64 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_arg25 main_arg26 main_arg27 main_v63 main_v67

def fn_part2 {F : FTy → Type} [FloatOps F] (main_arg8 : FVec F S128x64 .f32) (main_arg9 : FVec F S64 .f32) (main_arg10 : FVec F S64x2 .f32) (main_arg11 : FVec F S2 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S64 .f32) (main_arg25 : FVec F S64 .f32) (main_arg26 : FVec F S64 .f32) (main_arg27 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_arg10 : FVec F S64x2 .f32) (main_arg11 : FVec F S2 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S64 .f32) (main_arg25 : FVec F S64 .f32) (main_arg26 : FVec F S64 .f32) (main_arg27 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S64x2 .f32) (main_arg11 : FVec F S2 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S64 .f32) (main_arg25 : FVec F S64 .f32) (main_arg26 : FVec F S64 .f32) (main_arg27 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S100000x2 : Shape := ⟨2, ![100000, 2]⟩
abbrev S5000x2 : Shape := ⟨2, ![5000, 2]⟩
abbrev S1600000x2 : Shape := ⟨2, ![1600000, 2]⟩
abbrev S1x2 : Shape := ⟨2, ![1, 2]⟩

abbrev nBuf : Space → Nat
  | .hbm => 269
  | .vmem => 66
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S64x2, .f32⟩
  | 11 => ⟨S2, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S64, .f32⟩
  | 25 => ⟨S64, .f32⟩
  | 26 => ⟨S64, .f32⟩
  | 27 => ⟨S64, .f32⟩
  | 28 => ⟨S1x1600000, .i32⟩
  | 29 => ⟨S1600000, .i32⟩
  | 30 => ⟨S1x1600000, .i32⟩
  | 31 => ⟨S1600000, .i32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000, .f32⟩
  | 42 => ⟨S100000, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S1600000x1, .f32⟩
  | 73 => ⟨S1600000x128, .f32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S100000x1, .f32⟩
  | 80 => ⟨S100000x128, .f32⟩
  | 81 => ⟨S100000x128, .f32⟩
  | 82 => ⟨S100000x128, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S1600000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S1600000x1, .f32⟩
  | 119 => ⟨S1600000x128, .f32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S100000x128, .f32⟩
  | 7 => ⟨S100000x128, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000, .f32⟩
  | 26 => ⟨S1600000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S1600000x1, .f32⟩
  | 37 => ⟨S1600000x128, .f32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x1, .f32⟩
  | 44 => ⟨S100000x128, .f32⟩
  | 45 => ⟨S100000x128, .f32⟩
  | 46 => ⟨S100000x128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S100000x128, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S1600000, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x1, .f32⟩
  | 83 => ⟨S1600000x64, .f32⟩
  | 84 => ⟨S1600000x64, .f32⟩
  | 85 => ⟨S_, .f32⟩
  | 86 => ⟨S100000x64, .f32⟩
  | 87 => ⟨S1600000x1, .i32⟩
  | 88 => ⟨S100000x64, .f32⟩
  | 89 => ⟨S100000x1, .f32⟩
  | 90 => ⟨S100000x64, .f32⟩
  | 91 => ⟨S100000x64, .f32⟩
  | 92 => ⟨S100000x64, .f32⟩
  | 93 => ⟨S1x64, .f32⟩
  | 94 => ⟨S1x64, .f32⟩
  | 95 => ⟨S1x64, .f32⟩
  | 96 => ⟨S1x64, .f32⟩
  | 97 => ⟨S1x64, .f32⟩
  | 98 => ⟨S100000x64, .f32⟩
  | 99 => ⟨S100000x2, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000, .f32⟩
  | 118 => ⟨S1600000, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x2, .f32⟩
  | _ => ⟨S100000x128, .f32⟩

abbrev hbmTy0_2 (i : Nat) : BufTy := match i % 128 with
  | 0 => ⟨S1600000x1, .f32⟩
  | 1 => ⟨S1600000x2, .f32⟩
  | 2 => ⟨S1600000x2, .f32⟩
  | 3 => ⟨S_, .f32⟩
  | 4 => ⟨S100000x2, .f32⟩
  | 5 => ⟨S1600000x1, .i32⟩
  | 6 => ⟨S100000x2, .f32⟩
  | 7 => ⟨S100000x1, .f32⟩
  | 8 => ⟨S100000x2, .f32⟩
  | 9 => ⟨S100000x2, .f32⟩
  | 10 => ⟨S100000x2, .f32⟩
  | 11 => ⟨S1x2, .f32⟩
  | 12 => ⟨S100000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x2, .f32⟩
  | .local _ .vmem, ⟨59, _⟩ => ⟨S5000x2, .f32⟩
  | .local _ .vmem, ⟨60, _⟩ => ⟨S5000x2, .f32⟩
  | .local _ .vmem, ⟨61, _⟩ => ⟨S5000x2, .f32⟩
  | .local _ .vmem, ⟨62, _⟩ => ⟨S5000x2, .f32⟩
  | .local _ .vmem, ⟨63, _⟩ => ⟨S1x2, .f32⟩
  | .local _ .vmem, ⟨64, _⟩ => ⟨S5000x2, .f32⟩
  | .local _ .vmem, ⟨65, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_c : Ref sig .tc := ⟨.hbm, 44, rfl⟩
abbrev main_v13 : Ref sig .tc := ⟨.hbm, 45, rfl⟩
abbrev main_v14 : Ref sig .tc := ⟨.hbm, 46, rfl⟩
abbrev main_c_2 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_3 : Ref sig .tc := ⟨.hbm, 53, rfl⟩
abbrev main_v20 : Ref sig .tc := ⟨.hbm, 54, rfl⟩
abbrev main_v21 : Ref sig .tc := ⟨.hbm, 55, rfl⟩
abbrev main_c_4 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_5 : Ref sig .tc := ⟨.hbm, 63, rfl⟩
abbrev main_v28 : Ref sig .tc := ⟨.hbm, 64, rfl⟩
abbrev main_v29 : Ref sig .tc := ⟨.hbm, 65, rfl⟩
abbrev main_c_6 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_7 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_c_8 : Ref sig .tc := ⟨.hbm, 90, rfl⟩
abbrev main_v52 : Ref sig .tc := ⟨.hbm, 91, rfl⟩
abbrev main_v53 : Ref sig .tc := ⟨.hbm, 92, rfl⟩
abbrev main_c_9 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_10 : Ref sig .tc := ⟨.hbm, 99, rfl⟩
abbrev main_v59 : Ref sig .tc := ⟨.hbm, 100, rfl⟩
abbrev main_v60 : Ref sig .tc := ⟨.hbm, 101, rfl⟩
abbrev main_c_11 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_12 : Ref sig .tc := ⟨.hbm, 109, rfl⟩
abbrev main_v67 : Ref sig .tc := ⟨.hbm, 110, rfl⟩
abbrev main_v68 : Ref sig .tc := ⟨.hbm, 111, rfl⟩
abbrev main_c_13 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_14 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_15 : Ref sig .tc := ⟨.hbm, 136, rfl⟩
abbrev main_v91 : Ref sig .tc := ⟨.hbm, 137, rfl⟩
abbrev main_v92 : Ref sig .tc := ⟨.hbm, 138, rfl⟩
abbrev main_c_16 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_17 : Ref sig .tc := ⟨.hbm, 145, rfl⟩
abbrev main_v98 : Ref sig .tc := ⟨.hbm, 146, rfl⟩
abbrev main_v99 : Ref sig .tc := ⟨.hbm, 147, rfl⟩
abbrev main_c_18 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_c_19 : Ref sig .tc := ⟨.hbm, 155, rfl⟩
abbrev main_v106 : Ref sig .tc := ⟨.hbm, 156, rfl⟩
abbrev main_v107 : Ref sig .tc := ⟨.hbm, 157, rfl⟩
abbrev main_c_20 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_21 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_c_22 : Ref sig .tc := ⟨.hbm, 182, rfl⟩
abbrev main_v130 : Ref sig .tc := ⟨.hbm, 183, rfl⟩
abbrev main_v131 : Ref sig .tc := ⟨.hbm, 184, rfl⟩
abbrev main_c_23 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_c_24 : Ref sig .tc := ⟨.hbm, 191, rfl⟩
abbrev main_v137 : Ref sig .tc := ⟨.hbm, 192, rfl⟩
abbrev main_v138 : Ref sig .tc := ⟨.hbm, 193, rfl⟩
abbrev main_c_25 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_c_26 : Ref sig .tc := ⟨.hbm, 201, rfl⟩
abbrev main_v145 : Ref sig .tc := ⟨.hbm, 202, rfl⟩
abbrev main_v146 : Ref sig .tc := ⟨.hbm, 203, rfl⟩
abbrev main_c_27 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_28 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_c_29 : Ref sig .tc := ⟨.hbm, 228, rfl⟩
abbrev main_v169 : Ref sig .tc := ⟨.hbm, 229, rfl⟩
abbrev main_v170 : Ref sig .tc := ⟨.hbm, 230, rfl⟩
abbrev main_c_30 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_c_31 : Ref sig .tc := ⟨.hbm, 237, rfl⟩
abbrev main_v176 : Ref sig .tc := ⟨.hbm, 238, rfl⟩
abbrev main_v177 : Ref sig .tc := ⟨.hbm, 239, rfl⟩
abbrev main_c_32 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_c_33 : Ref sig .tc := ⟨.hbm, 247, rfl⟩
abbrev main_v184 : Ref sig .tc := ⟨.hbm, 248, rfl⟩
abbrev main_v185 : Ref sig .tc := ⟨.hbm, 249, rfl⟩
abbrev main_c_34 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_cst_35 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg5_0 : Ref sig .tc := ⟨.vmem, 53, rfl⟩
abbrev cc7_stg6_0 : Ref sig .tc := ⟨.vmem, 54, rfl⟩
abbrev cc7_stg6_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg2_0 : Ref sig .tc := ⟨.vmem, 64, rfl⟩
abbrev cc9_stg2_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem3_0 : DmaSem sig := 51
abbrev cc7_sem4_0 : DmaSem sig := 52
abbrev cc7_sem5_0 : DmaSem sig := 53
abbrev cc7_sem6_0 : DmaSem sig := 54
abbrev cc7_sem6_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc9_sem0_0 : DmaSem sig := 61
abbrev cc9_sem0_1 : DmaSem sig := 62
abbrev cc9_sem1_0 : DmaSem sig := 63
abbrev cc9_sem2_0 : DmaSem sig := 64
abbrev cc9_sem2_1 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x2 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x2 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x2 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x2 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x2 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x2_S5000x2_1_0_0_1_n_n_wf : DotDims.WF S5000x64 S64x2 S5000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S100000x64.size a
  hwx7_6 : ∀ i : grid7.Coords, EltTy.bits .f32 = 32 ∨ (Rect.block (s := S100000x64) S5000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x2.size a ≤ S64x2.size a
  hwx8_1 : ∀ i : grid8.Coords, EltTy.bits .f32 = 32 ∨ (Rect.block (s := S64x2) S64x2.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x2.size a ≤ S100000x2.size a
  hwx8_2 : ∀ i : grid8.Coords, EltTy.bits .f32 = 32 ∨ (Rect.block (s := S100000x2) S5000x2.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x2.size a ≤ S100000x2.size a
  hwx9_0 : ∀ i : grid9.Coords, EltTy.bits .f32 = 32 ∨ (Rect.block (s := S100000x2) S5000x2.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x2.size a ≤ S1x2.size a
  hwx9_1 : ∀ i : grid9.Coords, EltTy.bits .f32 = 32 ∨ (Rect.block (s := S1x2) S1x2.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x2.size a ≤ S100000x2.size a
  hwx9_2 : ∀ i : grid9.Coords, EltTy.bits .f32 = 32 ∨ (Rect.block (s := S100000x2) S5000x2.size (cc9_transform_2 i) (hinb9_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v89) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v89) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v122) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v123) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v124) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v125) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v126) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v128) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v128) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v129) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v161) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v162) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v163) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v164) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v165) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v166) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v167) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v167) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S64x2.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v168) S5000x2.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v200) S5000x2.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v201) S1x2.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v202) S5000x2.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S100000x2 : Shape := ⟨2, ![100000, 2]⟩
abbrev S1600000x2 : Shape := ⟨2, ![1600000, 2]⟩
abbrev S1x2 : Shape := ⟨2, ![1, 2]⟩

abbrev nBuf : Space → Nat
  | .hbm => 338
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S64x2, .f32⟩
  | 11 => ⟨S2, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S64, .f32⟩
  | 25 => ⟨S64, .f32⟩
  | 26 => ⟨S64, .f32⟩
  | 27 => ⟨S64, .f32⟩
  | 28 => ⟨S1x1600000, .i32⟩
  | 29 => ⟨S1600000, .i32⟩
  | 30 => ⟨S1x1600000, .i32⟩
  | 31 => ⟨S1600000, .i32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000, .f32⟩
  | 42 => ⟨S100000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S1600000x1, .f32⟩
  | 72 => ⟨S1600000x128, .f32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000, .f32⟩
  | 79 => ⟨S100000x1, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000, .f32⟩
  | 124 => ⟨S1600000, .f32⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S1600000x1, .f32⟩
  | 7 => ⟨S1600000x128, .f32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S100000, .f32⟩
  | 14 => ⟨S100000x1, .f32⟩
  | 15 => ⟨S100000x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S1600000x1, .f32⟩
  | 70 => ⟨S1600000x128, .f32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S100000, .f32⟩
  | 77 => ⟨S100000x1, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S128, .f32⟩
  | 89 => ⟨S128, .f32⟩
  | 90 => ⟨S128, .f32⟩
  | 91 => ⟨S1x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000, .f32⟩
  | 122 => ⟨S1600000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_2 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S1600000x1, .f32⟩
  | 5 => ⟨S1600000x64, .f32⟩
  | 6 => ⟨S1600000x64, .f32⟩
  | 7 => ⟨S_, .f32⟩
  | 8 => ⟨S100000x64, .f32⟩
  | 9 => ⟨S1600000x1, .i32⟩
  | 10 => ⟨S100000x64, .f32⟩
  | 11 => ⟨S100000, .f32⟩
  | 12 => ⟨S100000x1, .f32⟩
  | 13 => ⟨S100000x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S64, .f32⟩
  | 24 => ⟨S64, .f32⟩
  | 25 => ⟨S64, .f32⟩
  | 26 => ⟨S1x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S100000x2, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x2, .f32⟩
  | 67 => ⟨S1600000x1, .f32⟩
  | 68 => ⟨S1600000x2, .f32⟩
  | 69 => ⟨S1600000x2, .f32⟩
  | 70 => ⟨S_, .f32⟩
  | 71 => ⟨S100000x2, .f32⟩
  | 72 => ⟨S1600000x1, .i32⟩
  | 73 => ⟨S100000x2, .f32⟩
  | 74 => ⟨S100000, .f32⟩
  | 75 => ⟨S100000x1, .f32⟩
  | 76 => ⟨S100000x2, .f32⟩
  | 77 => ⟨S100000x2, .f32⟩
  | 78 => ⟨S100000x2, .f32⟩
  | 79 => ⟨S1x2, .f32⟩
  | 80 => ⟨S100000x2, .f32⟩
  | 81 => ⟨S100000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_c : Ref sig .tc := ⟨.hbm, 43, rfl⟩
abbrev main_v12 : Ref sig .tc := ⟨.hbm, 44, rfl⟩
abbrev main_v13 : Ref sig .tc := ⟨.hbm, 45, rfl⟩
abbrev main_c_2 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_3 : Ref sig .tc := ⟨.hbm, 52, rfl⟩
abbrev main_v19 : Ref sig .tc := ⟨.hbm, 53, rfl⟩
abbrev main_v20 : Ref sig .tc := ⟨.hbm, 54, rfl⟩
abbrev main_c_4 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_5 : Ref sig .tc := ⟨.hbm, 62, rfl⟩
abbrev main_v27 : Ref sig .tc := ⟨.hbm, 63, rfl⟩
abbrev main_v28 : Ref sig .tc := ⟨.hbm, 64, rfl⟩
abbrev main_c_6 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call0_cst : Ref sig .tc := ⟨.hbm, 102, rfl⟩
abbrev main_call0_v0 : Ref sig .tc := ⟨.hbm, 103, rfl⟩
abbrev main_v63 : Ref sig .tc := ⟨.hbm, 104, rfl⟩
abbrev main_v64 : Ref sig .tc := ⟨.hbm, 105, rfl⟩
abbrev main_c_9 : Ref sig .tc := ⟨.hbm, 106, rfl⟩
abbrev main_v65 : Ref sig .tc := ⟨.hbm, 107, rfl⟩
abbrev main_v66 : Ref sig .tc := ⟨.hbm, 108, rfl⟩
abbrev main_c_10 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_11 : Ref sig .tc := ⟨.hbm, 115, rfl⟩
abbrev main_v72 : Ref sig .tc := ⟨.hbm, 116, rfl⟩
abbrev main_v73 : Ref sig .tc := ⟨.hbm, 117, rfl⟩
abbrev main_c_12 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_13 : Ref sig .tc := ⟨.hbm, 125, rfl⟩
abbrev main_v80 : Ref sig .tc := ⟨.hbm, 126, rfl⟩
abbrev main_v81 : Ref sig .tc := ⟨.hbm, 127, rfl⟩
abbrev main_c_14 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_15 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_16 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_call1_cst : Ref sig .tc := ⟨.hbm, 165, rfl⟩
abbrev main_call1_v0 : Ref sig .tc := ⟨.hbm, 166, rfl⟩
abbrev main_v116 : Ref sig .tc := ⟨.hbm, 167, rfl⟩
abbrev main_v117 : Ref sig .tc := ⟨.hbm, 168, rfl⟩
abbrev main_c_17 : Ref sig .tc := ⟨.hbm, 169, rfl⟩
abbrev main_v118 : Ref sig .tc := ⟨.hbm, 170, rfl⟩
abbrev main_v119 : Ref sig .tc := ⟨.hbm, 171, rfl⟩
abbrev main_c_18 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_19 : Ref sig .tc := ⟨.hbm, 178, rfl⟩
abbrev main_v125 : Ref sig .tc := ⟨.hbm, 179, rfl⟩
abbrev main_v126 : Ref sig .tc := ⟨.hbm, 180, rfl⟩
abbrev main_c_20 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_c_21 : Ref sig .tc := ⟨.hbm, 188, rfl⟩
abbrev main_v133 : Ref sig .tc := ⟨.hbm, 189, rfl⟩
abbrev main_v134 : Ref sig .tc := ⟨.hbm, 190, rfl⟩
abbrev main_c_22 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_23 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_24 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_call2_cst : Ref sig .tc := ⟨.hbm, 228, rfl⟩
abbrev main_call2_v0 : Ref sig .tc := ⟨.hbm, 229, rfl⟩
abbrev main_v169 : Ref sig .tc := ⟨.hbm, 230, rfl⟩
abbrev main_v170 : Ref sig .tc := ⟨.hbm, 231, rfl⟩
abbrev main_c_25 : Ref sig .tc := ⟨.hbm, 232, rfl⟩
abbrev main_v171 : Ref sig .tc := ⟨.hbm, 233, rfl⟩
abbrev main_v172 : Ref sig .tc := ⟨.hbm, 234, rfl⟩
abbrev main_c_26 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_c_27 : Ref sig .tc := ⟨.hbm, 241, rfl⟩
abbrev main_v178 : Ref sig .tc := ⟨.hbm, 242, rfl⟩
abbrev main_v179 : Ref sig .tc := ⟨.hbm, 243, rfl⟩
abbrev main_c_28 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_c_29 : Ref sig .tc := ⟨.hbm, 251, rfl⟩
abbrev main_v186 : Ref sig .tc := ⟨.hbm, 252, rfl⟩
abbrev main_v187 : Ref sig .tc := ⟨.hbm, 253, rfl⟩
abbrev main_c_30 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_cst_31 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_cst_32 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_call3_cst : Ref sig .tc := ⟨.hbm, 291, rfl⟩
abbrev main_call3_v0 : Ref sig .tc := ⟨.hbm, 292, rfl⟩
abbrev main_v222 : Ref sig .tc := ⟨.hbm, 293, rfl⟩
abbrev main_v223 : Ref sig .tc := ⟨.hbm, 294, rfl⟩
abbrev main_c_33 : Ref sig .tc := ⟨.hbm, 295, rfl⟩
abbrev main_v224 : Ref sig .tc := ⟨.hbm, 296, rfl⟩
abbrev main_v225 : Ref sig .tc := ⟨.hbm, 297, rfl⟩
abbrev main_c_34 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_c_35 : Ref sig .tc := ⟨.hbm, 304, rfl⟩
abbrev main_v231 : Ref sig .tc := ⟨.hbm, 305, rfl⟩
abbrev main_v232 : Ref sig .tc := ⟨.hbm, 306, rfl⟩
abbrev main_c_36 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_c_37 : Ref sig .tc := ⟨.hbm, 314, rfl⟩
abbrev main_v239 : Ref sig .tc := ⟨.hbm, 315, rfl⟩
abbrev main_v240 : Ref sig .tc := ⟨.hbm, 316, rfl⟩
abbrev main_c_38 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_cst_39 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x2_S100000x2_1_0_0_1_n_n_wf : DotDims.WF S100000x64 S64x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

class Facts : Prop extends Facts₀ where

variable [Facts]
-- ==== Proof.Named.lean ====
/-
  The idealized kernel's run with its RESULT named.

  The program is ten tiled kernels among stretches of host operations.  Its buffers' contents at each boundary are a
  fold from the launch memory: a host stretch applies its operations, a tiled kernel leaves each of its output arrays at
  what its write-backs build and every other buffer as it was.  The frame of the program says that every weakly fair
  execution terminates without a fault with the argument arrays unchanged; the same launch over the same segments
  also leaves the result buffer at the LAST boundary's contents, and that is what this module states: the final state
  read against the last boundary, at the result as well as at the arguments.
-/
import proofs.«108039_j29265907155154_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    every argument array as launched. -/
theorem run_result : θ_run defs (onTc (τ := τ) (main (F := F))) ⟨m, fun _ => 0, ρ⟩ (fun r => ∀ c : Dev nD,
      r.2.mem ((c.tc : Thread nD τ).loc main_v202) = W16 m ρ c (Proc.devRef .tc main_v202)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v202 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c),
       (h c _ (mem_uc main_arg21 (by decide))).trans (W16_main_arg21 m ρ c),
       (h c _ (mem_uc main_arg22 (by decide))).trans (W16_main_arg22 m ρ c),
       (h c _ (mem_uc main_arg23 (by decide))).trans (W16_main_arg23 m ρ c),
       (h c _ (mem_uc main_arg24 (by decide))).trans (W16_main_arg24 m ρ c),
       (h c _ (mem_uc main_arg25 (by decide))).trans (W16_main_arg25 m ρ c),
       (h c _ (mem_uc main_arg26 (by decide))).trans (W16_main_arg26 m ρ c),
       (h c _ (mem_uc main_arg27 (by decide))).trans (W16_main_arg27 m ρ c)⟩)

end Cert.KernelIdeal.Named

end
-- ==== Proof.Args.lean ====
/-
  The argument arrays as launched, named.
-/
import proofs.«108039_j29265907155154_1_alg».proof.Proof.Gen.KernelIdeal.Frame
import Idealize.ShloMosaic.PureOps.Ideal

set_option maxRecDepth 16384

noncomputable section

namespace Cert.KernelIdeal.Args

open Cert.KernelIdeal Idealize.ShloMosaic Idealize.ShloMosaic.TcCoe Idealize.SL.Sem

variable (m : (ℓ : Loc nD τ sig) → Buf (Elt Ideal) ℓ) (c : Dev nD)

/-- Argument 0 on device `c`, as launched. -/
abbrev a0 : (⟨S100000x128, .f32⟩ : BufTy).Contents (Elt Ideal) := m ((c : Thread nD τ).loc main_arg0)
/-- Argument 1 on device `c`, as launched. -/
abbrev a1 : (⟨S2x1600000, .i32⟩ : BufTy).Contents (Elt Ideal) := m ((c : Thread nD τ).loc main_arg1)
/-- Argument 2 on device `c`, as launched. -/
abbrev a2 : (⟨S128x128, .f32⟩ : BufTy).Contents (Elt Ideal) := m ((c : Thread nD τ).loc main_arg2)
/-- Argument 3 on device `c`, as launched. -/
abbrev a3 : (⟨S128, .f32⟩ : BufTy).Contents (Elt Ideal) := m ((c : Thread nD τ).loc main_arg3)
/-- Argument 4 on device `c`, as launched. -/
abbrev a4 : (⟨S128x128, .f32⟩ : BufTy).Contents (Elt Ideal) := m ((c : Thread nD τ).loc main_arg4)
/-- Argument 5 on device `c`, as launched. -/
abbrev a5 : (⟨S128, .f32⟩ : BufTy).Contents (Elt Ideal) := m ((c : Thread nD τ).loc main_arg5)
/-- Argument 6 on device `c`, as launched. -/
abbrev a6 : (⟨S128x128, .f32⟩ : BufTy).Contents (Elt Ideal) := m ((c : Thread nD τ).loc main_arg6)
/-- Argument 7 on device `c`, as launched. -/
abbrev a7 : (⟨S128, .f32⟩ : BufTy).Contents (Elt Ideal) := m ((c : Thread nD τ).loc main_arg7)
/-- Argument 8 on device `c`, as launched. -/
abbrev a8 : (⟨S128x64, .f32⟩ : BufTy).Contents (Elt Ideal) := m ((c : Thread nD τ).loc main_arg8)
/-- Argument 9 on device `c`, as launched. -/
abbrev a9 : (⟨S64, .f32⟩ : BufTy).Contents (Elt Ideal) := m ((c : Thread nD τ).loc main_arg9)
/-- Argument 10 on device `c`, as launched. -/
abbrev a10 : (⟨S64x2, .f32⟩ : BufTy).Contents (Elt Ideal) := m ((c : Thread nD τ).loc main_arg10)
/-- Argument 11 on device `c`, as launched. -/
abbrev a11 : (⟨S2, .f32⟩ : BufTy).Contents (Elt Ideal) := m ((c : Thread nD τ).loc main_arg11)
/-- Argument 12 on device `c`, as launched. -/
abbrev a12 : (⟨S128, .f32⟩ : BufTy).Contents (Elt Ideal) := m ((c : Thread nD τ).loc main_arg12)
/-- Argument 13 on device `c`, as launched. -/
abbrev a13 : (⟨S128, .f32⟩ : BufTy).Contents (Elt Ideal) := m ((c : Thread nD τ).loc main_arg13)
/-- Argument 14 on device `c`, as launched. -/
abbrev a14 : (⟨S128, .f32⟩ : BufTy).Contents (Elt Ideal) := m ((c : Thread nD τ).loc main_arg14)
/-- Argument 15 on device `c`, as launched. -/
abbrev a15 : (⟨S128, .f32⟩ : BufTy).Contents (Elt Ideal) := m ((c : Thread nD τ).loc main_arg15)
/-- Argument 16 on device `c`, as launched. -/
abbrev a16 : (⟨S128, .f32⟩ : BufTy).Contents (Elt Ideal) := m ((c : Thread nD τ).loc main_arg16)
/-- Argument 17 on device `c`, as launched. -/
abbrev a17 : (⟨S128, .f32⟩ : BufTy).Contents (Elt Ideal) := m ((c : Thread nD τ).loc main_arg17)
/-- Argument 18 on device `c`, as launched. -/
abbrev a18 : (⟨S128, .f32⟩ : BufTy).Contents (Elt Ideal) := m ((c : Thread nD τ).loc main_arg18)
/-- Argument 19 on device `c`, as launched. -/
abbrev a19 : (⟨S128, .f32⟩ : BufTy).Contents (Elt Ideal) := m ((c : Thread nD τ).loc main_arg19)
/-- Argument 20 on device `c`, as launched. -/
abbrev a20 : (⟨S128, .f32⟩ : BufTy).Contents (Elt Ideal) := m ((c : Thread nD τ).loc main_arg20)
/-- Argument 21 on device `c`, as launched. -/
abbrev a21 : (⟨S128, .f32⟩ : BufTy).Contents (Elt Ideal) := m ((c : Thread nD τ).loc main_arg21)
/-- Argument 22 on device `c`, as launched. -/
abbrev a22 : (⟨S128, .f32⟩ : BufTy).Contents (Elt Ideal) := m ((c : Thread nD τ).loc main_arg22)
/-- Argument 23 on device `c`, as launched. -/
abbrev a23 : (⟨S128, .f32⟩ : BufTy).Contents (Elt Ideal) := m ((c : Thread nD τ).loc main_arg23)
/-- Argument 24 on device `c`, as launched. -/
abbrev a24 : (⟨S64, .f32⟩ : BufTy).Contents (Elt Ideal) := m ((c : Thread nD τ).loc main_arg24)
/-- Argument 25 on device `c`, as launched. -/
abbrev a25 : (⟨S64, .f32⟩ : BufTy).Contents (Elt Ideal) := m ((c : Thread nD τ).loc main_arg25)
/-- Argument 26 on device `c`, as launched. -/
abbrev a26 : (⟨S64, .f32⟩ : BufTy).Contents (Elt Ideal) := m ((c : Thread nD τ).loc main_arg26)
/-- Argument 27 on device `c`, as launched. -/
abbrev a27 : (⟨S64, .f32⟩ : BufTy).Contents (Elt Ideal) := m ((c : Thread nD τ).loc main_arg27)

end Cert.KernelIdeal.Args

end
-- ==== Proof.Keep0.lean ====
/-
  The buffers a stretch of host operations leaves alone.

  A host operation writes its own result buffer and nothing else, so a buffer that is the result of none of the
  stretch's operations holds after the stretch what it held before.  Stated for any contents `V` at the stretch's
  start, once per buffer that a later part of the program still reads.
-/
import proofs.«108039_j29265907155154_1_alg».proof.Proof.Gen.KernelIdeal.Launch
import Idealize.ShloMosaic.Lib.StableHlo.Run
import Idealize.ShloMosaic.PureOps.Ideal

set_option maxRecDepth 16384

noncomputable section

namespace Cert.KernelIdeal.Keep0

open Cert.KernelIdeal Cert.KernelIdeal.Gen Idealize.ShloMosaic Idealize.ShloMosaic.TcCoe Idealize.SL.Sem Idealize.ShloMosaic.StableHlo

variable (V : Valuation τ sig (Elt Ideal))

theorem main_arg0 : after (hostOps0 (F := Ideal)) V (Proc.devRef .tc main_arg0) = V (Proc.devRef .tc main_arg0) := by after_results_simp
theorem main_arg2 : after (hostOps0 (F := Ideal)) V (Proc.devRef .tc main_arg2) = V (Proc.devRef .tc main_arg2) := by after_results_simp
theorem main_arg3 : after (hostOps0 (F := Ideal)) V (Proc.devRef .tc main_arg3) = V (Proc.devRef .tc main_arg3) := by after_results_simp
theorem main_arg4 : after (hostOps0 (F := Ideal)) V (Proc.devRef .tc main_arg4) = V (Proc.devRef .tc main_arg4) := by after_results_simp
theorem main_arg5 : after (hostOps0 (F := Ideal)) V (Proc.devRef .tc main_arg5) = V (Proc.devRef .tc main_arg5) := by after_results_simp
theorem main_arg6 : after (hostOps0 (F := Ideal)) V (Proc.devRef .tc main_arg6) = V (Proc.devRef .tc main_arg6) := by after_results_simp
theorem main_arg7 : after (hostOps0 (F := Ideal)) V (Proc.devRef .tc main_arg7) = V (Proc.devRef .tc main_arg7) := by after_results_simp
theorem main_arg8 : after (hostOps0 (F := Ideal)) V (Proc.devRef .tc main_arg8) = V (Proc.devRef .tc main_arg8) := by after_results_simp
theorem main_arg9 : after (hostOps0 (F := Ideal)) V (Proc.devRef .tc main_arg9) = V (Proc.devRef .tc main_arg9) := by after_results_simp
theorem main_arg10 : after (hostOps0 (F := Ideal)) V (Proc.devRef .tc main_arg10) = V (Proc.devRef .tc main_arg10) := by after_results_simp
theorem main_arg11 : after (hostOps0 (F := Ideal)) V (Proc.devRef .tc main_arg11) = V (Proc.devRef .tc main_arg11) := by after_results_simp
theorem main_arg12 : after (hostOps0 (F := Ideal)) V (Proc.devRef .tc main_arg12) = V (Proc.devRef .tc main_arg12) := by after_results_simp
theorem main_arg13 : after (hostOps0 (F := Ideal)) V (Proc.devRef .tc main_arg13) = V (Proc.devRef .tc main_arg13) := by after_results_simp
theorem main_arg14 : after (hostOps0 (F := Ideal)) V (Proc.devRef .tc main_arg14) = V (Proc.devRef .tc main_arg14) := by after_results_simp
theorem main_arg15 : after (hostOps0 (F := Ideal)) V (Proc.devRef .tc main_arg15) = V (Proc.devRef .tc main_arg15) := by after_results_simp
theorem main_arg16 : after (hostOps0 (F := Ideal)) V (Proc.devRef .tc main_arg16) = V (Proc.devRef .tc main_arg16) := by after_results_simp
theorem main_arg17 : after (hostOps0 (F := Ideal)) V (Proc.devRef .tc main_arg17) = V (Proc.devRef .tc main_arg17) := by after_results_simp
theorem main_arg18 : after (hostOps0 (F := Ideal)) V (Proc.devRef .tc main_arg18) = V (Proc.devRef .tc main_arg18) := by after_results_simp
theorem main_arg19 : after (hostOps0 (F := Ideal)) V (Proc.devRef .tc main_arg19) = V (Proc.devRef .tc main_arg19) := by after_results_simp
theorem main_arg20 : after (hostOps0 (F := Ideal)) V (Proc.devRef .tc main_arg20) = V (Proc.devRef .tc main_arg20) := by after_results_simp
theorem main_arg21 : after (hostOps0 (F := Ideal)) V (Proc.devRef .tc main_arg21) = V (Proc.devRef .tc main_arg21) := by after_results_simp
theorem main_arg22 : after (hostOps0 (F := Ideal)) V (Proc.devRef .tc main_arg22) = V (Proc.devRef .tc main_arg22) := by after_results_simp
theorem main_arg23 : after (hostOps0 (F := Ideal)) V (Proc.devRef .tc main_arg23) = V (Proc.devRef .tc main_arg23) := by after_results_simp
theorem main_arg24 : after (hostOps0 (F := Ideal)) V (Proc.devRef .tc main_arg24) = V (Proc.devRef .tc main_arg24) := by after_results_simp
theorem main_arg25 : after (hostOps0 (F := Ideal)) V (Proc.devRef .tc main_arg25) = V (Proc.devRef .tc main_arg25) := by after_results_simp
theorem main_arg26 : after (hostOps0 (F := Ideal)) V (Proc.devRef .tc main_arg26) = V (Proc.devRef .tc main_arg26) := by after_results_simp
theorem main_arg27 : after (hostOps0 (F := Ideal)) V (Proc.devRef .tc main_arg27) = V (Proc.devRef .tc main_arg27) := by after_results_simp

end Cert.KernelIdeal.Keep0

end
-- ==== Proof.Keep1.lean ====
/-
  The buffers a stretch of host operations leaves alone.

  A host operation writes its own result buffer and nothing else, so a buffer that is the result of none of the
  stretch's operations holds after the stretch what it held before.  Stated for any contents `V` at the stretch's
  start, once per buffer that a later part of the program still reads.
-/
import proofs.«108039_j29265907155154_1_alg».proof.Proof.Gen.KernelIdeal.Launch
import Idealize.ShloMosaic.Lib.StableHlo.Run
import Idealize.ShloMosaic.PureOps.Ideal

set_option maxRecDepth 16384

noncomputable section

namespace Cert.KernelIdeal.Keep1

open Cert.KernelIdeal Cert.KernelIdeal.Gen Idealize.ShloMosaic Idealize.ShloMosaic.TcCoe Idealize.SL.Sem Idealize.ShloMosaic.StableHlo

variable (V : Valuation τ sig (Elt Ideal))

theorem main_v1 : after (hostOps1 (F := Ideal)) V (Proc.devRef .tc main_v1) = V (Proc.devRef .tc main_v1) := by after_results_simp
theorem main_v3 : after (hostOps1 (F := Ideal)) V (Proc.devRef .tc main_v3) = V (Proc.devRef .tc main_v3) := by after_results_simp
theorem main_v10 : after (hostOps1 (F := Ideal)) V (Proc.devRef .tc main_v10) = V (Proc.devRef .tc main_v10) := by after_results_simp
theorem main_v11 : after (hostOps1 (F := Ideal)) V (Proc.devRef .tc main_v11) = V (Proc.devRef .tc main_v11) := by after_results_simp
theorem main_arg4 : after (hostOps1 (F := Ideal)) V (Proc.devRef .tc main_arg4) = V (Proc.devRef .tc main_arg4) := by after_results_simp
theorem main_arg5 : after (hostOps1 (F := Ideal)) V (Proc.devRef .tc main_arg5) = V (Proc.devRef .tc main_arg5) := by after_results_simp
theorem main_arg6 : after (hostOps1 (F := Ideal)) V (Proc.devRef .tc main_arg6) = V (Proc.devRef .tc main_arg6) := by after_results_simp
theorem main_arg7 : after (hostOps1 (F := Ideal)) V (Proc.devRef .tc main_arg7) = V (Proc.devRef .tc main_arg7) := by after_results_simp
theorem main_arg8 : after (hostOps1 (F := Ideal)) V (Proc.devRef .tc main_arg8) = V (Proc.devRef .tc main_arg8) := by after_results_simp
theorem main_arg9 : after (hostOps1 (F := Ideal)) V (Proc.devRef .tc main_arg9) = V (Proc.devRef .tc main_arg9) := by after_results_simp
theorem main_arg10 : after (hostOps1 (F := Ideal)) V (Proc.devRef .tc main_arg10) = V (Proc.devRef .tc main_arg10) := by after_results_simp
theorem main_arg11 : after (hostOps1 (F := Ideal)) V (Proc.devRef .tc main_arg11) = V (Proc.devRef .tc main_arg11) := by after_results_simp
theorem main_arg16 : after (hostOps1 (F := Ideal)) V (Proc.devRef .tc main_arg16) = V (Proc.devRef .tc main_arg16) := by after_results_simp
theorem main_arg17 : after (hostOps1 (F := Ideal)) V (Proc.devRef .tc main_arg17) = V (Proc.devRef .tc main_arg17) := by after_results_simp
theorem main_arg18 : after (hostOps1 (F := Ideal)) V (Proc.devRef .tc main_arg18) = V (Proc.devRef .tc main_arg18) := by after_results_simp
theorem main_arg19 : after (hostOps1 (F := Ideal)) V (Proc.devRef .tc main_arg19) = V (Proc.devRef .tc main_arg19) := by after_results_simp
theorem main_arg20 : after (hostOps1 (F := Ideal)) V (Proc.devRef .tc main_arg20) = V (Proc.devRef .tc main_arg20) := by after_results_simp
theorem main_arg21 : after (hostOps1 (F := Ideal)) V (Proc.devRef .tc main_arg21) = V (Proc.devRef .tc main_arg21) := by after_results_simp
theorem main_arg22 : after (hostOps1 (F := Ideal)) V (Proc.devRef .tc main_arg22) = V (Proc.devRef .tc main_arg22) := by after_results_simp
theorem main_arg23 : after (hostOps1 (F := Ideal)) V (Proc.devRef .tc main_arg23) = V (Proc.devRef .tc main_arg23) := by after_results_simp
theorem main_arg24 : after (hostOps1 (F := Ideal)) V (Proc.devRef .tc main_arg24) = V (Proc.devRef .tc main_arg24) := by after_results_simp
theorem main_arg25 : after (hostOps1 (F := Ideal)) V (Proc.devRef .tc main_arg25) = V (Proc.devRef .tc main_arg25) := by after_results_simp
theorem main_arg26 : after (hostOps1 (F := Ideal)) V (Proc.devRef .tc main_arg26) = V (Proc.devRef .tc main_arg26) := by after_results_simp
theorem main_arg27 : after (hostOps1 (F := Ideal)) V (Proc.devRef .tc main_arg27) = V (Proc.devRef .tc main_arg27) := by after_results_simp

end Cert.KernelIdeal.Keep1

end
-- ==== Proof.Keep3.lean ====
/-
  The buffers a stretch of host operations leaves alone.

  A host operation writes its own result buffer and nothing else, so a buffer that is the result of none of the
  stretch's operations holds after the stretch what it held before.  Stated for any contents `V` at the stretch's
  start, once per buffer that a later part of the program still reads.
-/
import proofs.«108039_j29265907155154_1_alg».proof.Proof.Gen.KernelIdeal.Launch
import Idealize.ShloMosaic.Lib.StableHlo.Run
import Idealize.ShloMosaic.PureOps.Ideal

set_option maxRecDepth 16384

noncomputable section

namespace Cert.KernelIdeal.Keep3

open Cert.KernelIdeal Cert.KernelIdeal.Gen Idealize.ShloMosaic Idealize.ShloMosaic.TcCoe Idealize.SL.Sem Idealize.ShloMosaic.StableHlo

variable (V : Valuation τ sig (Elt Ideal))

theorem main_v1 : after (hostOps3 (F := Ideal)) V (Proc.devRef .tc main_v1) = V (Proc.devRef .tc main_v1) := by after_results_simp
theorem main_v3 : after (hostOps3 (F := Ideal)) V (Proc.devRef .tc main_v3) = V (Proc.devRef .tc main_v3) := by after_results_simp
theorem main_v10 : after (hostOps3 (F := Ideal)) V (Proc.devRef .tc main_v10) = V (Proc.devRef .tc main_v10) := by after_results_simp
theorem main_v11 : after (hostOps3 (F := Ideal)) V (Proc.devRef .tc main_v11) = V (Proc.devRef .tc main_v11) := by after_results_simp
theorem main_arg6 : after (hostOps3 (F := Ideal)) V (Proc.devRef .tc main_arg6) = V (Proc.devRef .tc main_arg6) := by after_results_simp
theorem main_arg7 : after (hostOps3 (F := Ideal)) V (Proc.devRef .tc main_arg7) = V (Proc.devRef .tc main_arg7) := by after_results_simp
theorem main_arg8 : after (hostOps3 (F := Ideal)) V (Proc.devRef .tc main_arg8) = V (Proc.devRef .tc main_arg8) := by after_results_simp
theorem main_arg9 : after (hostOps3 (F := Ideal)) V (Proc.devRef .tc main_arg9) = V (Proc.devRef .tc main_arg9) := by after_results_simp
theorem main_arg10 : after (hostOps3 (F := Ideal)) V (Proc.devRef .tc main_arg10) = V (Proc.devRef .tc main_arg10) := by after_results_simp
theorem main_arg11 : after (hostOps3 (F := Ideal)) V (Proc.devRef .tc main_arg11) = V (Proc.devRef .tc main_arg11) := by after_results_simp
theorem main_arg20 : after (hostOps3 (F := Ideal)) V (Proc.devRef .tc main_arg20) = V (Proc.devRef .tc main_arg20) := by after_results_simp
theorem main_arg21 : after (hostOps3 (F := Ideal)) V (Proc.devRef .tc main_arg21) = V (Proc.devRef .tc main_arg21) := by after_results_simp
theorem main_arg22 : after (hostOps3 (F := Ideal)) V (Proc.devRef .tc main_arg22) = V (Proc.devRef .tc main_arg22) := by after_results_simp
theorem main_arg23 : after (hostOps3 (F := Ideal)) V (Proc.devRef .tc main_arg23) = V (Proc.devRef .tc main_arg23) := by after_results_simp
theorem main_arg24 : after (hostOps3 (F := Ideal)) V (Proc.devRef .tc main_arg24) = V (Proc.devRef .tc main_arg24) := by after_results_simp
theorem main_arg25 : after (hostOps3 (F := Ideal)) V (Proc.devRef .tc main_arg25) = V (Proc.devRef .tc main_arg25) := by after_results_simp
theorem main_arg26 : after (hostOps3 (F := Ideal)) V (Proc.devRef .tc main_arg26) = V (Proc.devRef .tc main_arg26) := by after_results_simp
theorem main_arg27 : after (hostOps3 (F := Ideal)) V (Proc.devRef .tc main_arg27) = V (Proc.devRef .tc main_arg27) := by after_results_simp

end Cert.KernelIdeal.Keep3

end
-- ==== Proof.Keep5.lean ====
/-
  The buffers a stretch of host operations leaves alone.

  A host operation writes its own result buffer and nothing else, so a buffer that is the result of none of the
  stretch's operations holds after the stretch what it held before.  Stated for any contents `V` at the stretch's
  start, once per buffer that a later part of the program still reads.
-/
import proofs.«108039_j29265907155154_1_alg».proof.Proof.Gen.KernelIdeal.Launch
import Idealize.ShloMosaic.Lib.StableHlo.Run
import Idealize.ShloMosaic.PureOps.Ideal

set_option maxRecDepth 16384

noncomputable section

namespace Cert.KernelIdeal.Keep5

open Cert.KernelIdeal Cert.KernelIdeal.Gen Idealize.ShloMosaic Idealize.ShloMosaic.TcCoe Idealize.SL.Sem Idealize.ShloMosaic.StableHlo

variable (V : Valuation τ sig (Elt Ideal))

theorem main_v1 : after (hostOps5 (F := Ideal)) V (Proc.devRef .tc main_v1) = V (Proc.devRef .tc main_v1) := by after_results_simp
theorem main_v3 : after (hostOps5 (F := Ideal)) V (Proc.devRef .tc main_v3) = V (Proc.devRef .tc main_v3) := by after_results_simp
theorem main_v10 : after (hostOps5 (F := Ideal)) V (Proc.devRef .tc main_v10) = V (Proc.devRef .tc main_v10) := by after_results_simp
theorem main_v11 : after (hostOps5 (F := Ideal)) V (Proc.devRef .tc main_v11) = V (Proc.devRef .tc main_v11) := by after_results_simp
theorem main_arg8 : after (hostOps5 (F := Ideal)) V (Proc.devRef .tc main_arg8) = V (Proc.devRef .tc main_arg8) := by after_results_simp
theorem main_arg9 : after (hostOps5 (F := Ideal)) V (Proc.devRef .tc main_arg9) = V (Proc.devRef .tc main_arg9) := by after_results_simp
theorem main_arg10 : after (hostOps5 (F := Ideal)) V (Proc.devRef .tc main_arg10) = V (Proc.devRef .tc main_arg10) := by after_results_simp
theorem main_arg11 : after (hostOps5 (F := Ideal)) V (Proc.devRef .tc main_arg11) = V (Proc.devRef .tc main_arg11) := by after_results_simp
theorem main_arg24 : after (hostOps5 (F := Ideal)) V (Proc.devRef .tc main_arg24) = V (Proc.devRef .tc main_arg24) := by after_results_simp
theorem main_arg25 : after (hostOps5 (F := Ideal)) V (Proc.devRef .tc main_arg25) = V (Proc.devRef .tc main_arg25) := by after_results_simp
theorem main_arg26 : after (hostOps5 (F := Ideal)) V (Proc.devRef .tc main_arg26) = V (Proc.devRef .tc main_arg26) := by after_results_simp
theorem main_arg27 : after (hostOps5 (F := Ideal)) V (Proc.devRef .tc main_arg27) = V (Proc.devRef .tc main_arg27) := by after_results_simp

end Cert.KernelIdeal.Keep5

end
-- ==== Proof.Keep7.lean ====
/-
  The buffers a stretch of host operations leaves alone.

  A host operation writes its own result buffer and nothing else, so a buffer that is the result of none of the
  stretch's operations holds after the stretch what it held before.  Stated for any contents `V` at the stretch's
  start, once per buffer that a later part of the program still reads.
-/
import proofs.«108039_j29265907155154_1_alg».proof.Proof.Gen.KernelIdeal.Launch
import Idealize.ShloMosaic.Lib.StableHlo.Run
import Idealize.ShloMosaic.PureOps.Ideal

set_option maxRecDepth 16384

noncomputable section

namespace Cert.KernelIdeal.Keep7

open Cert.KernelIdeal Cert.KernelIdeal.Gen Idealize.ShloMosaic Idealize.ShloMosaic.TcCoe Idealize.SL.Sem Idealize.ShloMosaic.StableHlo

variable (V : Valuation τ sig (Elt Ideal))

theorem main_v1 : after (hostOps7 (F := Ideal)) V (Proc.devRef .tc main_v1) = V (Proc.devRef .tc main_v1) := by after_results_simp
theorem main_v3 : after (hostOps7 (F := Ideal)) V (Proc.devRef .tc main_v3) = V (Proc.devRef .tc main_v3) := by after_results_simp
theorem main_v10 : after (hostOps7 (F := Ideal)) V (Proc.devRef .tc main_v10) = V (Proc.devRef .tc main_v10) := by after_results_simp
theorem main_v11 : after (hostOps7 (F := Ideal)) V (Proc.devRef .tc main_v11) = V (Proc.devRef .tc main_v11) := by after_results_simp
theorem main_arg10 : after (hostOps7 (F := Ideal)) V (Proc.devRef .tc main_arg10) = V (Proc.devRef .tc main_arg10) := by after_results_simp
theorem main_arg11 : after (hostOps7 (F := Ideal)) V (Proc.devRef .tc main_arg11) = V (Proc.devRef .tc main_arg11) := by after_results_simp

end Cert.KernelIdeal.Keep7

end
-- ==== Proof.Carry.lean ====
/-
  The buffers that only travel: at every boundary between two parts of the program, each argument array still holds its
  launch contents, and the edge endpoints, the inverse square root of the degrees and its square still hold what the
  first stretch of host operations computed, for as long as a later part reads them.

  A host stretch leaves alone every buffer it does not write; a tiled kernel leaves alone every buffer that is not one
  of its own arrays.
-/
import proofs.«108039_j29265907155154_1_alg».proof.Proof.Gen.KernelIdeal.Frame
import proofs.«108039_j29265907155154_1_alg».proof.Proof.Gen.ReferenceIdeal.Read
import proofs.«108039_j29265907155154_1_alg».proof.Proof.Args
import proofs.«108039_j29265907155154_1_alg».proof.Proof.Keep0
import proofs.«108039_j29265907155154_1_alg».proof.Proof.Keep1
import proofs.«108039_j29265907155154_1_alg».proof.Proof.Keep3
import proofs.«108039_j29265907155154_1_alg».proof.Proof.Keep5
import proofs.«108039_j29265907155154_1_alg».proof.Proof.Keep7

set_option maxRecDepth 16384

noncomputable section

namespace Cert.KernelIdeal.Carry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The square of the degrees' inverse square roots: the weight of a node's self-loop. -/
abbrev dinvSq : (⟨S100000, .f32⟩ : BufTy).Contents (Elt Ideal) :=
  mulf (F := Ideal) (s := S100000) (φ := .f32) (Cert.ReferenceIdeal.Read.val_main_v10 (F := Ideal) (Args.a1 m c)) (Cert.ReferenceIdeal.Read.val_main_v10 (F := Ideal) (Args.a1 m c))

/-! ## What the first stretch computes: the edges' endpoints and the degrees' inverse square roots -/

theorem k1_main_v1 : W1 m ρ c (Proc.devRef .tc main_v1) = Cert.ReferenceIdeal.Read.val_main_v1 (F := Ideal) (Args.a1 m c) := by
  show after (hostOps0 (F := Ideal)) (W0 m ρ c) (Proc.devRef .tc main_v1) = _
  after_results_simp
  rfl
theorem k1_main_v3 : W1 m ρ c (Proc.devRef .tc main_v3) = Cert.ReferenceIdeal.Read.val_main_v3 (F := Ideal) (Args.a1 m c) := by
  show after (hostOps0 (F := Ideal)) (W0 m ρ c) (Proc.devRef .tc main_v3) = _
  after_results_simp
  rfl
theorem k1_main_v10 : W1 m ρ c (Proc.devRef .tc main_v10) = Cert.ReferenceIdeal.Read.val_main_v10 (F := Ideal) (Args.a1 m c) := by
  show after (hostOps0 (F := Ideal)) (W0 m ρ c) (Proc.devRef .tc main_v10) = _
  after_results_simp
  rfl
theorem k1_main_v11 : W1 m ρ c (Proc.devRef .tc main_v11) = dinvSq m c := by
  show after (hostOps0 (F := Ideal)) (W0 m ρ c) (Proc.devRef .tc main_v11) = _
  after_results_simp
  rfl

/-! ## Boundary by boundary -/

theorem k1_main_arg0 : W1 m ρ c (Proc.devRef .tc main_arg0) = (Args.a0 m c) := Keep0.main_arg0 (W0 m ρ c)
theorem k1_main_arg2 : W1 m ρ c (Proc.devRef .tc main_arg2) = (Args.a2 m c) := Keep0.main_arg2 (W0 m ρ c)
theorem k1_main_arg3 : W1 m ρ c (Proc.devRef .tc main_arg3) = (Args.a3 m c) := Keep0.main_arg3 (W0 m ρ c)
theorem k1_main_arg4 : W1 m ρ c (Proc.devRef .tc main_arg4) = (Args.a4 m c) := Keep0.main_arg4 (W0 m ρ c)
theorem k1_main_arg5 : W1 m ρ c (Proc.devRef .tc main_arg5) = (Args.a5 m c) := Keep0.main_arg5 (W0 m ρ c)
theorem k1_main_arg6 : W1 m ρ c (Proc.devRef .tc main_arg6) = (Args.a6 m c) := Keep0.main_arg6 (W0 m ρ c)
theorem k1_main_arg7 : W1 m ρ c (Proc.devRef .tc main_arg7) = (Args.a7 m c) := Keep0.main_arg7 (W0 m ρ c)
theorem k1_main_arg8 : W1 m ρ c (Proc.devRef .tc main_arg8) = (Args.a8 m c) := Keep0.main_arg8 (W0 m ρ c)
theorem k1_main_arg9 : W1 m ρ c (Proc.devRef .tc main_arg9) = (Args.a9 m c) := Keep0.main_arg9 (W0 m ρ c)
theorem k1_main_arg10 : W1 m ρ c (Proc.devRef .tc main_arg10) = (Args.a10 m c) := Keep0.main_arg10 (W0 m ρ c)
theorem k1_main_arg11 : W1 m ρ c (Proc.devRef .tc main_arg11) = (Args.a11 m c) := Keep0.main_arg11 (W0 m ρ c)
theorem k1_main_arg12 : W1 m ρ c (Proc.devRef .tc main_arg12) = (Args.a12 m c) := Keep0.main_arg12 (W0 m ρ c)
theorem k1_main_arg13 : W1 m ρ c (Proc.devRef .tc main_arg13) = (Args.a13 m c) := Keep0.main_arg13 (W0 m ρ c)
theorem k1_main_arg14 : W1 m ρ c (Proc.devRef .tc main_arg14) = (Args.a14 m c) := Keep0.main_arg14 (W0 m ρ c)
theorem k1_main_arg15 : W1 m ρ c (Proc.devRef .tc main_arg15) = (Args.a15 m c) := Keep0.main_arg15 (W0 m ρ c)
theorem k1_main_arg16 : W1 m ρ c (Proc.devRef .tc main_arg16) = (Args.a16 m c) := Keep0.main_arg16 (W0 m ρ c)
theorem k1_main_arg17 : W1 m ρ c (Proc.devRef .tc main_arg17) = (Args.a17 m c) := Keep0.main_arg17 (W0 m ρ c)
theorem k1_main_arg18 : W1 m ρ c (Proc.devRef .tc main_arg18) = (Args.a18 m c) := Keep0.main_arg18 (W0 m ρ c)
theorem k1_main_arg19 : W1 m ρ c (Proc.devRef .tc main_arg19) = (Args.a19 m c) := Keep0.main_arg19 (W0 m ρ c)
theorem k1_main_arg20 : W1 m ρ c (Proc.devRef .tc main_arg20) = (Args.a20 m c) := Keep0.main_arg20 (W0 m ρ c)
theorem k1_main_arg21 : W1 m ρ c (Proc.devRef .tc main_arg21) = (Args.a21 m c) := Keep0.main_arg21 (W0 m ρ c)
theorem k1_main_arg22 : W1 m ρ c (Proc.devRef .tc main_arg22) = (Args.a22 m c) := Keep0.main_arg22 (W0 m ρ c)
theorem k1_main_arg23 : W1 m ρ c (Proc.devRef .tc main_arg23) = (Args.a23 m c) := Keep0.main_arg23 (W0 m ρ c)
theorem k1_main_arg24 : W1 m ρ c (Proc.devRef .tc main_arg24) = (Args.a24 m c) := Keep0.main_arg24 (W0 m ρ c)
theorem k1_main_arg25 : W1 m ρ c (Proc.devRef .tc main_arg25) = (Args.a25 m c) := Keep0.main_arg25 (W0 m ρ c)
theorem k1_main_arg26 : W1 m ρ c (Proc.devRef .tc main_arg26) = (Args.a26 m c) := Keep0.main_arg26 (W0 m ρ c)
theorem k1_main_arg27 : W1 m ρ c (Proc.devRef .tc main_arg27) = (Args.a27 m c) := Keep0.main_arg27 (W0 m ρ c)

theorem k2_main_arg3 : W2 m ρ c (Proc.devRef .tc main_arg3) = (Args.a3 m c) := (W2_of_ne m ρ c main_arg3 (by decide)).trans (k1_main_arg3 m ρ c)
theorem k2_main_arg4 : W2 m ρ c (Proc.devRef .tc main_arg4) = (Args.a4 m c) := (W2_of_ne m ρ c main_arg4 (by decide)).trans (k1_main_arg4 m ρ c)
theorem k2_main_arg5 : W2 m ρ c (Proc.devRef .tc main_arg5) = (Args.a5 m c) := (W2_of_ne m ρ c main_arg5 (by decide)).trans (k1_main_arg5 m ρ c)
theorem k2_main_arg6 : W2 m ρ c (Proc.devRef .tc main_arg6) = (Args.a6 m c) := (W2_of_ne m ρ c main_arg6 (by decide)).trans (k1_main_arg6 m ρ c)
theorem k2_main_arg7 : W2 m ρ c (Proc.devRef .tc main_arg7) = (Args.a7 m c) := (W2_of_ne m ρ c main_arg7 (by decide)).trans (k1_main_arg7 m ρ c)
theorem k2_main_arg8 : W2 m ρ c (Proc.devRef .tc main_arg8) = (Args.a8 m c) := (W2_of_ne m ρ c main_arg8 (by decide)).trans (k1_main_arg8 m ρ c)
theorem k2_main_arg9 : W2 m ρ c (Proc.devRef .tc main_arg9) = (Args.a9 m c) := (W2_of_ne m ρ c main_arg9 (by decide)).trans (k1_main_arg9 m ρ c)
theorem k2_main_arg10 : W2 m ρ c (Proc.devRef .tc main_arg10) = (Args.a10 m c) := (W2_of_ne m ρ c main_arg10 (by decide)).trans (k1_main_arg10 m ρ c)
theorem k2_main_arg11 : W2 m ρ c (Proc.devRef .tc main_arg11) = (Args.a11 m c) := (W2_of_ne m ρ c main_arg11 (by decide)).trans (k1_main_arg11 m ρ c)
theorem k2_main_arg12 : W2 m ρ c (Proc.devRef .tc main_arg12) = (Args.a12 m c) := (W2_of_ne m ρ c main_arg12 (by decide)).trans (k1_main_arg12 m ρ c)
theorem k2_main_arg13 : W2 m ρ c (Proc.devRef .tc main_arg13) = (Args.a13 m c) := (W2_of_ne m ρ c main_arg13 (by decide)).trans (k1_main_arg13 m ρ c)
theorem k2_main_arg14 : W2 m ρ c (Proc.devRef .tc main_arg14) = (Args.a14 m c) := (W2_of_ne m ρ c main_arg14 (by decide)).trans (k1_main_arg14 m ρ c)
theorem k2_main_arg15 : W2 m ρ c (Proc.devRef .tc main_arg15) = (Args.a15 m c) := (W2_of_ne m ρ c main_arg15 (by decide)).trans (k1_main_arg15 m ρ c)
theorem k2_main_arg16 : W2 m ρ c (Proc.devRef .tc main_arg16) = (Args.a16 m c) := (W2_of_ne m ρ c main_arg16 (by decide)).trans (k1_main_arg16 m ρ c)
theorem k2_main_arg17 : W2 m ρ c (Proc.devRef .tc main_arg17) = (Args.a17 m c) := (W2_of_ne m ρ c main_arg17 (by decide)).trans (k1_main_arg17 m ρ c)
theorem k2_main_arg18 : W2 m ρ c (Proc.devRef .tc main_arg18) = (Args.a18 m c) := (W2_of_ne m ρ c main_arg18 (by decide)).trans (k1_main_arg18 m ρ c)
theorem k2_main_arg19 : W2 m ρ c (Proc.devRef .tc main_arg19) = (Args.a19 m c) := (W2_of_ne m ρ c main_arg19 (by decide)).trans (k1_main_arg19 m ρ c)
theorem k2_main_arg20 : W2 m ρ c (Proc.devRef .tc main_arg20) = (Args.a20 m c) := (W2_of_ne m ρ c main_arg20 (by decide)).trans (k1_main_arg20 m ρ c)
theorem k2_main_arg21 : W2 m ρ c (Proc.devRef .tc main_arg21) = (Args.a21 m c) := (W2_of_ne m ρ c main_arg21 (by decide)).trans (k1_main_arg21 m ρ c)
theorem k2_main_arg22 : W2 m ρ c (Proc.devRef .tc main_arg22) = (Args.a22 m c) := (W2_of_ne m ρ c main_arg22 (by decide)).trans (k1_main_arg22 m ρ c)
theorem k2_main_arg23 : W2 m ρ c (Proc.devRef .tc main_arg23) = (Args.a23 m c) := (W2_of_ne m ρ c main_arg23 (by decide)).trans (k1_main_arg23 m ρ c)
theorem k2_main_arg24 : W2 m ρ c (Proc.devRef .tc main_arg24) = (Args.a24 m c) := (W2_of_ne m ρ c main_arg24 (by decide)).trans (k1_main_arg24 m ρ c)
theorem k2_main_arg25 : W2 m ρ c (Proc.devRef .tc main_arg25) = (Args.a25 m c) := (W2_of_ne m ρ c main_arg25 (by decide)).trans (k1_main_arg25 m ρ c)
theorem k2_main_arg26 : W2 m ρ c (Proc.devRef .tc main_arg26) = (Args.a26 m c) := (W2_of_ne m ρ c main_arg26 (by decide)).trans (k1_main_arg26 m ρ c)
theorem k2_main_arg27 : W2 m ρ c (Proc.devRef .tc main_arg27) = (Args.a27 m c) := (W2_of_ne m ρ c main_arg27 (by decide)).trans (k1_main_arg27 m ρ c)
theorem k2_main_v1 : W2 m ρ c (Proc.devRef .tc main_v1) = (Cert.ReferenceIdeal.Read.val_main_v1 (F := Ideal) (Args.a1 m c)) := (W2_of_ne m ρ c main_v1 (by decide)).trans (k1_main_v1 m ρ c)
theorem k2_main_v3 : W2 m ρ c (Proc.devRef .tc main_v3) = (Cert.ReferenceIdeal.Read.val_main_v3 (F := Ideal) (Args.a1 m c)) := (W2_of_ne m ρ c main_v3 (by decide)).trans (k1_main_v3 m ρ c)
theorem k2_main_v10 : W2 m ρ c (Proc.devRef .tc main_v10) = (Cert.ReferenceIdeal.Read.val_main_v10 (F := Ideal) (Args.a1 m c)) := (W2_of_ne m ρ c main_v10 (by decide)).trans (k1_main_v10 m ρ c)
theorem k2_main_v11 : W2 m ρ c (Proc.devRef .tc main_v11) = (dinvSq m c) := (W2_of_ne m ρ c main_v11 (by decide)).trans (k1_main_v11 m ρ c)

theorem k3_main_arg4 : W3 m ρ c (Proc.devRef .tc main_arg4) = (Args.a4 m c) := (Keep1.main_arg4 (W2 m ρ c)).trans (k2_main_arg4 m ρ c)
theorem k3_main_arg5 : W3 m ρ c (Proc.devRef .tc main_arg5) = (Args.a5 m c) := (Keep1.main_arg5 (W2 m ρ c)).trans (k2_main_arg5 m ρ c)
theorem k3_main_arg6 : W3 m ρ c (Proc.devRef .tc main_arg6) = (Args.a6 m c) := (Keep1.main_arg6 (W2 m ρ c)).trans (k2_main_arg6 m ρ c)
theorem k3_main_arg7 : W3 m ρ c (Proc.devRef .tc main_arg7) = (Args.a7 m c) := (Keep1.main_arg7 (W2 m ρ c)).trans (k2_main_arg7 m ρ c)
theorem k3_main_arg8 : W3 m ρ c (Proc.devRef .tc main_arg8) = (Args.a8 m c) := (Keep1.main_arg8 (W2 m ρ c)).trans (k2_main_arg8 m ρ c)
theorem k3_main_arg9 : W3 m ρ c (Proc.devRef .tc main_arg9) = (Args.a9 m c) := (Keep1.main_arg9 (W2 m ρ c)).trans (k2_main_arg9 m ρ c)
theorem k3_main_arg10 : W3 m ρ c (Proc.devRef .tc main_arg10) = (Args.a10 m c) := (Keep1.main_arg10 (W2 m ρ c)).trans (k2_main_arg10 m ρ c)
theorem k3_main_arg11 : W3 m ρ c (Proc.devRef .tc main_arg11) = (Args.a11 m c) := (Keep1.main_arg11 (W2 m ρ c)).trans (k2_main_arg11 m ρ c)
theorem k3_main_arg16 : W3 m ρ c (Proc.devRef .tc main_arg16) = (Args.a16 m c) := (Keep1.main_arg16 (W2 m ρ c)).trans (k2_main_arg16 m ρ c)
theorem k3_main_arg17 : W3 m ρ c (Proc.devRef .tc main_arg17) = (Args.a17 m c) := (Keep1.main_arg17 (W2 m ρ c)).trans (k2_main_arg17 m ρ c)
theorem k3_main_arg18 : W3 m ρ c (Proc.devRef .tc main_arg18) = (Args.a18 m c) := (Keep1.main_arg18 (W2 m ρ c)).trans (k2_main_arg18 m ρ c)
theorem k3_main_arg19 : W3 m ρ c (Proc.devRef .tc main_arg19) = (Args.a19 m c) := (Keep1.main_arg19 (W2 m ρ c)).trans (k2_main_arg19 m ρ c)
theorem k3_main_arg20 : W3 m ρ c (Proc.devRef .tc main_arg20) = (Args.a20 m c) := (Keep1.main_arg20 (W2 m ρ c)).trans (k2_main_arg20 m ρ c)
theorem k3_main_arg21 : W3 m ρ c (Proc.devRef .tc main_arg21) = (Args.a21 m c) := (Keep1.main_arg21 (W2 m ρ c)).trans (k2_main_arg21 m ρ c)
theorem k3_main_arg22 : W3 m ρ c (Proc.devRef .tc main_arg22) = (Args.a22 m c) := (Keep1.main_arg22 (W2 m ρ c)).trans (k2_main_arg22 m ρ c)
theorem k3_main_arg23 : W3 m ρ c (Proc.devRef .tc main_arg23) = (Args.a23 m c) := (Keep1.main_arg23 (W2 m ρ c)).trans (k2_main_arg23 m ρ c)
theorem k3_main_arg24 : W3 m ρ c (Proc.devRef .tc main_arg24) = (Args.a24 m c) := (Keep1.main_arg24 (W2 m ρ c)).trans (k2_main_arg24 m ρ c)
theorem k3_main_arg25 : W3 m ρ c (Proc.devRef .tc main_arg25) = (Args.a25 m c) := (Keep1.main_arg25 (W2 m ρ c)).trans (k2_main_arg25 m ρ c)
theorem k3_main_arg26 : W3 m ρ c (Proc.devRef .tc main_arg26) = (Args.a26 m c) := (Keep1.main_arg26 (W2 m ρ c)).trans (k2_main_arg26 m ρ c)
theorem k3_main_arg27 : W3 m ρ c (Proc.devRef .tc main_arg27) = (Args.a27 m c) := (Keep1.main_arg27 (W2 m ρ c)).trans (k2_main_arg27 m ρ c)
theorem k3_main_v1 : W3 m ρ c (Proc.devRef .tc main_v1) = (Cert.ReferenceIdeal.Read.val_main_v1 (F := Ideal) (Args.a1 m c)) := (Keep1.main_v1 (W2 m ρ c)).trans (k2_main_v1 m ρ c)
theorem k3_main_v3 : W3 m ρ c (Proc.devRef .tc main_v3) = (Cert.ReferenceIdeal.Read.val_main_v3 (F := Ideal) (Args.a1 m c)) := (Keep1.main_v3 (W2 m ρ c)).trans (k2_main_v3 m ρ c)
theorem k3_main_v10 : W3 m ρ c (Proc.devRef .tc main_v10) = (Cert.ReferenceIdeal.Read.val_main_v10 (F := Ideal) (Args.a1 m c)) := (Keep1.main_v10 (W2 m ρ c)).trans (k2_main_v10 m ρ c)
theorem k3_main_v11 : W3 m ρ c (Proc.devRef .tc main_v11) = (dinvSq m c) := (Keep1.main_v11 (W2 m ρ c)).trans (k2_main_v11 m ρ c)

theorem k4_main_arg4 : W4 m ρ c (Proc.devRef .tc main_arg4) = (Args.a4 m c) := (W4_of_ne m ρ c main_arg4 (by decide)).trans (k3_main_arg4 m ρ c)
theorem k4_main_arg5 : W4 m ρ c (Proc.devRef .tc main_arg5) = (Args.a5 m c) := (W4_of_ne m ρ c main_arg5 (by decide)).trans (k3_main_arg5 m ρ c)
theorem k4_main_arg6 : W4 m ρ c (Proc.devRef .tc main_arg6) = (Args.a6 m c) := (W4_of_ne m ρ c main_arg6 (by decide)).trans (k3_main_arg6 m ρ c)
theorem k4_main_arg7 : W4 m ρ c (Proc.devRef .tc main_arg7) = (Args.a7 m c) := (W4_of_ne m ρ c main_arg7 (by decide)).trans (k3_main_arg7 m ρ c)
theorem k4_main_arg8 : W4 m ρ c (Proc.devRef .tc main_arg8) = (Args.a8 m c) := (W4_of_ne m ρ c main_arg8 (by decide)).trans (k3_main_arg8 m ρ c)
theorem k4_main_arg9 : W4 m ρ c (Proc.devRef .tc main_arg9) = (Args.a9 m c) := (W4_of_ne m ρ c main_arg9 (by decide)).trans (k3_main_arg9 m ρ c)
theorem k4_main_arg10 : W4 m ρ c (Proc.devRef .tc main_arg10) = (Args.a10 m c) := (W4_of_ne m ρ c main_arg10 (by decide)).trans (k3_main_arg10 m ρ c)
theorem k4_main_arg11 : W4 m ρ c (Proc.devRef .tc main_arg11) = (Args.a11 m c) := (W4_of_ne m ρ c main_arg11 (by decide)).trans (k3_main_arg11 m ρ c)
theorem k4_main_arg16 : W4 m ρ c (Proc.devRef .tc main_arg16) = (Args.a16 m c) := (W4_of_ne m ρ c main_arg16 (by decide)).trans (k3_main_arg16 m ρ c)
theorem k4_main_arg17 : W4 m ρ c (Proc.devRef .tc main_arg17) = (Args.a17 m c) := (W4_of_ne m ρ c main_arg17 (by decide)).trans (k3_main_arg17 m ρ c)
theorem k4_main_arg18 : W4 m ρ c (Proc.devRef .tc main_arg18) = (Args.a18 m c) := (W4_of_ne m ρ c main_arg18 (by decide)).trans (k3_main_arg18 m ρ c)
theorem k4_main_arg19 : W4 m ρ c (Proc.devRef .tc main_arg19) = (Args.a19 m c) := (W4_of_ne m ρ c main_arg19 (by decide)).trans (k3_main_arg19 m ρ c)
theorem k4_main_arg20 : W4 m ρ c (Proc.devRef .tc main_arg20) = (Args.a20 m c) := (W4_of_ne m ρ c main_arg20 (by decide)).trans (k3_main_arg20 m ρ c)
theorem k4_main_arg21 : W4 m ρ c (Proc.devRef .tc main_arg21) = (Args.a21 m c) := (W4_of_ne m ρ c main_arg21 (by decide)).trans (k3_main_arg21 m ρ c)
theorem k4_main_arg22 : W4 m ρ c (Proc.devRef .tc main_arg22) = (Args.a22 m c) := (W4_of_ne m ρ c main_arg22 (by decide)).trans (k3_main_arg22 m ρ c)
theorem k4_main_arg23 : W4 m ρ c (Proc.devRef .tc main_arg23) = (Args.a23 m c) := (W4_of_ne m ρ c main_arg23 (by decide)).trans (k3_main_arg23 m ρ c)
theorem k4_main_arg24 : W4 m ρ c (Proc.devRef .tc main_arg24) = (Args.a24 m c) := (W4_of_ne m ρ c main_arg24 (by decide)).trans (k3_main_arg24 m ρ c)
theorem k4_main_arg25 : W4 m ρ c (Proc.devRef .tc main_arg25) = (Args.a25 m c) := (W4_of_ne m ρ c main_arg25 (by decide)).trans (k3_main_arg25 m ρ c)
theorem k4_main_arg26 : W4 m ρ c (Proc.devRef .tc main_arg26) = (Args.a26 m c) := (W4_of_ne m ρ c main_arg26 (by decide)).trans (k3_main_arg26 m ρ c)
theorem k4_main_arg27 : W4 m ρ c (Proc.devRef .tc main_arg27) = (Args.a27 m c) := (W4_of_ne m ρ c main_arg27 (by decide)).trans (k3_main_arg27 m ρ c)
theorem k4_main_v1 : W4 m ρ c (Proc.devRef .tc main_v1) = (Cert.ReferenceIdeal.Read.val_main_v1 (F := Ideal) (Args.a1 m c)) := (W4_of_ne m ρ c main_v1 (by decide)).trans (k3_main_v1 m ρ c)
theorem k4_main_v3 : W4 m ρ c (Proc.devRef .tc main_v3) = (Cert.ReferenceIdeal.Read.val_main_v3 (F := Ideal) (Args.a1 m c)) := (W4_of_ne m ρ c main_v3 (by decide)).trans (k3_main_v3 m ρ c)
theorem k4_main_v10 : W4 m ρ c (Proc.devRef .tc main_v10) = (Cert.ReferenceIdeal.Read.val_main_v10 (F := Ideal) (Args.a1 m c)) := (W4_of_ne m ρ c main_v10 (by decide)).trans (k3_main_v10 m ρ c)
theorem k4_main_v11 : W4 m ρ c (Proc.devRef .tc main_v11) = (dinvSq m c) := (W4_of_ne m ρ c main_v11 (by decide)).trans (k3_main_v11 m ρ c)

theorem k5_main_arg5 : W5 m ρ c (Proc.devRef .tc main_arg5) = (Args.a5 m c) := (W5_of_ne m ρ c main_arg5 (by decide)).trans (k4_main_arg5 m ρ c)
theorem k5_main_arg6 : W5 m ρ c (Proc.devRef .tc main_arg6) = (Args.a6 m c) := (W5_of_ne m ρ c main_arg6 (by decide)).trans (k4_main_arg6 m ρ c)
theorem k5_main_arg7 : W5 m ρ c (Proc.devRef .tc main_arg7) = (Args.a7 m c) := (W5_of_ne m ρ c main_arg7 (by decide)).trans (k4_main_arg7 m ρ c)
theorem k5_main_arg8 : W5 m ρ c (Proc.devRef .tc main_arg8) = (Args.a8 m c) := (W5_of_ne m ρ c main_arg8 (by decide)).trans (k4_main_arg8 m ρ c)
theorem k5_main_arg9 : W5 m ρ c (Proc.devRef .tc main_arg9) = (Args.a9 m c) := (W5_of_ne m ρ c main_arg9 (by decide)).trans (k4_main_arg9 m ρ c)
theorem k5_main_arg10 : W5 m ρ c (Proc.devRef .tc main_arg10) = (Args.a10 m c) := (W5_of_ne m ρ c main_arg10 (by decide)).trans (k4_main_arg10 m ρ c)
theorem k5_main_arg11 : W5 m ρ c (Proc.devRef .tc main_arg11) = (Args.a11 m c) := (W5_of_ne m ρ c main_arg11 (by decide)).trans (k4_main_arg11 m ρ c)
theorem k5_main_arg16 : W5 m ρ c (Proc.devRef .tc main_arg16) = (Args.a16 m c) := (W5_of_ne m ρ c main_arg16 (by decide)).trans (k4_main_arg16 m ρ c)
theorem k5_main_arg17 : W5 m ρ c (Proc.devRef .tc main_arg17) = (Args.a17 m c) := (W5_of_ne m ρ c main_arg17 (by decide)).trans (k4_main_arg17 m ρ c)
theorem k5_main_arg18 : W5 m ρ c (Proc.devRef .tc main_arg18) = (Args.a18 m c) := (W5_of_ne m ρ c main_arg18 (by decide)).trans (k4_main_arg18 m ρ c)
theorem k5_main_arg19 : W5 m ρ c (Proc.devRef .tc main_arg19) = (Args.a19 m c) := (W5_of_ne m ρ c main_arg19 (by decide)).trans (k4_main_arg19 m ρ c)
theorem k5_main_arg20 : W5 m ρ c (Proc.devRef .tc main_arg20) = (Args.a20 m c) := (W5_of_ne m ρ c main_arg20 (by decide)).trans (k4_main_arg20 m ρ c)
theorem k5_main_arg21 : W5 m ρ c (Proc.devRef .tc main_arg21) = (Args.a21 m c) := (W5_of_ne m ρ c main_arg21 (by decide)).trans (k4_main_arg21 m ρ c)
theorem k5_main_arg22 : W5 m ρ c (Proc.devRef .tc main_arg22) = (Args.a22 m c) := (W5_of_ne m ρ c main_arg22 (by decide)).trans (k4_main_arg22 m ρ c)
theorem k5_main_arg23 : W5 m ρ c (Proc.devRef .tc main_arg23) = (Args.a23 m c) := (W5_of_ne m ρ c main_arg23 (by decide)).trans (k4_main_arg23 m ρ c)
theorem k5_main_arg24 : W5 m ρ c (Proc.devRef .tc main_arg24) = (Args.a24 m c) := (W5_of_ne m ρ c main_arg24 (by decide)).trans (k4_main_arg24 m ρ c)
theorem k5_main_arg25 : W5 m ρ c (Proc.devRef .tc main_arg25) = (Args.a25 m c) := (W5_of_ne m ρ c main_arg25 (by decide)).trans (k4_main_arg25 m ρ c)
theorem k5_main_arg26 : W5 m ρ c (Proc.devRef .tc main_arg26) = (Args.a26 m c) := (W5_of_ne m ρ c main_arg26 (by decide)).trans (k4_main_arg26 m ρ c)
theorem k5_main_arg27 : W5 m ρ c (Proc.devRef .tc main_arg27) = (Args.a27 m c) := (W5_of_ne m ρ c main_arg27 (by decide)).trans (k4_main_arg27 m ρ c)
theorem k5_main_v1 : W5 m ρ c (Proc.devRef .tc main_v1) = (Cert.ReferenceIdeal.Read.val_main_v1 (F := Ideal) (Args.a1 m c)) := (W5_of_ne m ρ c main_v1 (by decide)).trans (k4_main_v1 m ρ c)
theorem k5_main_v3 : W5 m ρ c (Proc.devRef .tc main_v3) = (Cert.ReferenceIdeal.Read.val_main_v3 (F := Ideal) (Args.a1 m c)) := (W5_of_ne m ρ c main_v3 (by decide)).trans (k4_main_v3 m ρ c)
theorem k5_main_v10 : W5 m ρ c (Proc.devRef .tc main_v10) = (Cert.ReferenceIdeal.Read.val_main_v10 (F := Ideal) (Args.a1 m c)) := (W5_of_ne m ρ c main_v10 (by decide)).trans (k4_main_v10 m ρ c)
theorem k5_main_v11 : W5 m ρ c (Proc.devRef .tc main_v11) = (dinvSq m c) := (W5_of_ne m ρ c main_v11 (by decide)).trans (k4_main_v11 m ρ c)

theorem k6_main_arg6 : W6 m ρ c (Proc.devRef .tc main_arg6) = (Args.a6 m c) := (Keep3.main_arg6 (W5 m ρ c)).trans (k5_main_arg6 m ρ c)
theorem k6_main_arg7 : W6 m ρ c (Proc.devRef .tc main_arg7) = (Args.a7 m c) := (Keep3.main_arg7 (W5 m ρ c)).trans (k5_main_arg7 m ρ c)
theorem k6_main_arg8 : W6 m ρ c (Proc.devRef .tc main_arg8) = (Args.a8 m c) := (Keep3.main_arg8 (W5 m ρ c)).trans (k5_main_arg8 m ρ c)
theorem k6_main_arg9 : W6 m ρ c (Proc.devRef .tc main_arg9) = (Args.a9 m c) := (Keep3.main_arg9 (W5 m ρ c)).trans (k5_main_arg9 m ρ c)
theorem k6_main_arg10 : W6 m ρ c (Proc.devRef .tc main_arg10) = (Args.a10 m c) := (Keep3.main_arg10 (W5 m ρ c)).trans (k5_main_arg10 m ρ c)
theorem k6_main_arg11 : W6 m ρ c (Proc.devRef .tc main_arg11) = (Args.a11 m c) := (Keep3.main_arg11 (W5 m ρ c)).trans (k5_main_arg11 m ρ c)
theorem k6_main_arg20 : W6 m ρ c (Proc.devRef .tc main_arg20) = (Args.a20 m c) := (Keep3.main_arg20 (W5 m ρ c)).trans (k5_main_arg20 m ρ c)
theorem k6_main_arg21 : W6 m ρ c (Proc.devRef .tc main_arg21) = (Args.a21 m c) := (Keep3.main_arg21 (W5 m ρ c)).trans (k5_main_arg21 m ρ c)
theorem k6_main_arg22 : W6 m ρ c (Proc.devRef .tc main_arg22) = (Args.a22 m c) := (Keep3.main_arg22 (W5 m ρ c)).trans (k5_main_arg22 m ρ c)
theorem k6_main_arg23 : W6 m ρ c (Proc.devRef .tc main_arg23) = (Args.a23 m c) := (Keep3.main_arg23 (W5 m ρ c)).trans (k5_main_arg23 m ρ c)
theorem k6_main_arg24 : W6 m ρ c (Proc.devRef .tc main_arg24) = (Args.a24 m c) := (Keep3.main_arg24 (W5 m ρ c)).trans (k5_main_arg24 m ρ c)
theorem k6_main_arg25 : W6 m ρ c (Proc.devRef .tc main_arg25) = (Args.a25 m c) := (Keep3.main_arg25 (W5 m ρ c)).trans (k5_main_arg25 m ρ c)
theorem k6_main_arg26 : W6 m ρ c (Proc.devRef .tc main_arg26) = (Args.a26 m c) := (Keep3.main_arg26 (W5 m ρ c)).trans (k5_main_arg26 m ρ c)
theorem k6_main_arg27 : W6 m ρ c (Proc.devRef .tc main_arg27) = (Args.a27 m c) := (Keep3.main_arg27 (W5 m ρ c)).trans (k5_main_arg27 m ρ c)
theorem k6_main_v1 : W6 m ρ c (Proc.devRef .tc main_v1) = (Cert.ReferenceIdeal.Read.val_main_v1 (F := Ideal) (Args.a1 m c)) := (Keep3.main_v1 (W5 m ρ c)).trans (k5_main_v1 m ρ c)
theorem k6_main_v3 : W6 m ρ c (Proc.devRef .tc main_v3) = (Cert.ReferenceIdeal.Read.val_main_v3 (F := Ideal) (Args.a1 m c)) := (Keep3.main_v3 (W5 m ρ c)).trans (k5_main_v3 m ρ c)
theorem k6_main_v10 : W6 m ρ c (Proc.devRef .tc main_v10) = (Cert.ReferenceIdeal.Read.val_main_v10 (F := Ideal) (Args.a1 m c)) := (Keep3.main_v10 (W5 m ρ c)).trans (k5_main_v10 m ρ c)
theorem k6_main_v11 : W6 m ρ c (Proc.devRef .tc main_v11) = (dinvSq m c) := (Keep3.main_v11 (W5 m ρ c)).trans (k5_main_v11 m ρ c)

theorem k7_main_arg6 : W7 m ρ c (Proc.devRef .tc main_arg6) = (Args.a6 m c) := (W7_of_ne m ρ c main_arg6 (by decide)).trans (k6_main_arg6 m ρ c)
theorem k7_main_arg7 : W7 m ρ c (Proc.devRef .tc main_arg7) = (Args.a7 m c) := (W7_of_ne m ρ c main_arg7 (by decide)).trans (k6_main_arg7 m ρ c)
theorem k7_main_arg8 : W7 m ρ c (Proc.devRef .tc main_arg8) = (Args.a8 m c) := (W7_of_ne m ρ c main_arg8 (by decide)).trans (k6_main_arg8 m ρ c)
theorem k7_main_arg9 : W7 m ρ c (Proc.devRef .tc main_arg9) = (Args.a9 m c) := (W7_of_ne m ρ c main_arg9 (by decide)).trans (k6_main_arg9 m ρ c)
theorem k7_main_arg10 : W7 m ρ c (Proc.devRef .tc main_arg10) = (Args.a10 m c) := (W7_of_ne m ρ c main_arg10 (by decide)).trans (k6_main_arg10 m ρ c)
theorem k7_main_arg11 : W7 m ρ c (Proc.devRef .tc main_arg11) = (Args.a11 m c) := (W7_of_ne m ρ c main_arg11 (by decide)).trans (k6_main_arg11 m ρ c)
theorem k7_main_arg20 : W7 m ρ c (Proc.devRef .tc main_arg20) = (Args.a20 m c) := (W7_of_ne m ρ c main_arg20 (by decide)).trans (k6_main_arg20 m ρ c)
theorem k7_main_arg21 : W7 m ρ c (Proc.devRef .tc main_arg21) = (Args.a21 m c) := (W7_of_ne m ρ c main_arg21 (by decide)).trans (k6_main_arg21 m ρ c)
theorem k7_main_arg22 : W7 m ρ c (Proc.devRef .tc main_arg22) = (Args.a22 m c) := (W7_of_ne m ρ c main_arg22 (by decide)).trans (k6_main_arg22 m ρ c)
theorem k7_main_arg23 : W7 m ρ c (Proc.devRef .tc main_arg23) = (Args.a23 m c) := (W7_of_ne m ρ c main_arg23 (by decide)).trans (k6_main_arg23 m ρ c)
theorem k7_main_arg24 : W7 m ρ c (Proc.devRef .tc main_arg24) = (Args.a24 m c) := (W7_of_ne m ρ c main_arg24 (by decide)).trans (k6_main_arg24 m ρ c)
theorem k7_main_arg25 : W7 m ρ c (Proc.devRef .tc main_arg25) = (Args.a25 m c) := (W7_of_ne m ρ c main_arg25 (by decide)).trans (k6_main_arg25 m ρ c)
theorem k7_main_arg26 : W7 m ρ c (Proc.devRef .tc main_arg26) = (Args.a26 m c) := (W7_of_ne m ρ c main_arg26 (by decide)).trans (k6_main_arg26 m ρ c)
theorem k7_main_arg27 : W7 m ρ c (Proc.devRef .tc main_arg27) = (Args.a27 m c) := (W7_of_ne m ρ c main_arg27 (by decide)).trans (k6_main_arg27 m ρ c)
theorem k7_main_v1 : W7 m ρ c (Proc.devRef .tc main_v1) = (Cert.ReferenceIdeal.Read.val_main_v1 (F := Ideal) (Args.a1 m c)) := (W7_of_ne m ρ c main_v1 (by decide)).trans (k6_main_v1 m ρ c)
theorem k7_main_v3 : W7 m ρ c (Proc.devRef .tc main_v3) = (Cert.ReferenceIdeal.Read.val_main_v3 (F := Ideal) (Args.a1 m c)) := (W7_of_ne m ρ c main_v3 (by decide)).trans (k6_main_v3 m ρ c)
theorem k7_main_v10 : W7 m ρ c (Proc.devRef .tc main_v10) = (Cert.ReferenceIdeal.Read.val_main_v10 (F := Ideal) (Args.a1 m c)) := (W7_of_ne m ρ c main_v10 (by decide)).trans (k6_main_v10 m ρ c)
theorem k7_main_v11 : W7 m ρ c (Proc.devRef .tc main_v11) = (dinvSq m c) := (W7_of_ne m ρ c main_v11 (by decide)).trans (k6_main_v11 m ρ c)

theorem k8_main_arg7 : W8 m ρ c (Proc.devRef .tc main_arg7) = (Args.a7 m c) := (W8_of_ne m ρ c main_arg7 (by decide)).trans (k7_main_arg7 m ρ c)
theorem k8_main_arg8 : W8 m ρ c (Proc.devRef .tc main_arg8) = (Args.a8 m c) := (W8_of_ne m ρ c main_arg8 (by decide)).trans (k7_main_arg8 m ρ c)
theorem k8_main_arg9 : W8 m ρ c (Proc.devRef .tc main_arg9) = (Args.a9 m c) := (W8_of_ne m ρ c main_arg9 (by decide)).trans (k7_main_arg9 m ρ c)
theorem k8_main_arg10 : W8 m ρ c (Proc.devRef .tc main_arg10) = (Args.a10 m c) := (W8_of_ne m ρ c main_arg10 (by decide)).trans (k7_main_arg10 m ρ c)
theorem k8_main_arg11 : W8 m ρ c (Proc.devRef .tc main_arg11) = (Args.a11 m c) := (W8_of_ne m ρ c main_arg11 (by decide)).trans (k7_main_arg11 m ρ c)
theorem k8_main_arg20 : W8 m ρ c (Proc.devRef .tc main_arg20) = (Args.a20 m c) := (W8_of_ne m ρ c main_arg20 (by decide)).trans (k7_main_arg20 m ρ c)
theorem k8_main_arg21 : W8 m ρ c (Proc.devRef .tc main_arg21) = (Args.a21 m c) := (W8_of_ne m ρ c main_arg21 (by decide)).trans (k7_main_arg21 m ρ c)
theorem k8_main_arg22 : W8 m ρ c (Proc.devRef .tc main_arg22) = (Args.a22 m c) := (W8_of_ne m ρ c main_arg22 (by decide)).trans (k7_main_arg22 m ρ c)
theorem k8_main_arg23 : W8 m ρ c (Proc.devRef .tc main_arg23) = (Args.a23 m c) := (W8_of_ne m ρ c main_arg23 (by decide)).trans (k7_main_arg23 m ρ c)
theorem k8_main_arg24 : W8 m ρ c (Proc.devRef .tc main_arg24) = (Args.a24 m c) := (W8_of_ne m ρ c main_arg24 (by decide)).trans (k7_main_arg24 m ρ c)
theorem k8_main_arg25 : W8 m ρ c (Proc.devRef .tc main_arg25) = (Args.a25 m c) := (W8_of_ne m ρ c main_arg25 (by decide)).trans (k7_main_arg25 m ρ c)
theorem k8_main_arg26 : W8 m ρ c (Proc.devRef .tc main_arg26) = (Args.a26 m c) := (W8_of_ne m ρ c main_arg26 (by decide)).trans (k7_main_arg26 m ρ c)
theorem k8_main_arg27 : W8 m ρ c (Proc.devRef .tc main_arg27) = (Args.a27 m c) := (W8_of_ne m ρ c main_arg27 (by decide)).trans (k7_main_arg27 m ρ c)
theorem k8_main_v1 : W8 m ρ c (Proc.devRef .tc main_v1) = (Cert.ReferenceIdeal.Read.val_main_v1 (F := Ideal) (Args.a1 m c)) := (W8_of_ne m ρ c main_v1 (by decide)).trans (k7_main_v1 m ρ c)
theorem k8_main_v3 : W8 m ρ c (Proc.devRef .tc main_v3) = (Cert.ReferenceIdeal.Read.val_main_v3 (F := Ideal) (Args.a1 m c)) := (W8_of_ne m ρ c main_v3 (by decide)).trans (k7_main_v3 m ρ c)
theorem k8_main_v10 : W8 m ρ c (Proc.devRef .tc main_v10) = (Cert.ReferenceIdeal.Read.val_main_v10 (F := Ideal) (Args.a1 m c)) := (W8_of_ne m ρ c main_v10 (by decide)).trans (k7_main_v10 m ρ c)
theorem k8_main_v11 : W8 m ρ c (Proc.devRef .tc main_v11) = (dinvSq m c) := (W8_of_ne m ρ c main_v11 (by decide)).trans (k7_main_v11 m ρ c)

theorem k9_main_arg8 : W9 m ρ c (Proc.devRef .tc main_arg8) = (Args.a8 m c) := (Keep5.main_arg8 (W8 m ρ c)).trans (k8_main_arg8 m ρ c)
theorem k9_main_arg9 : W9 m ρ c (Proc.devRef .tc main_arg9) = (Args.a9 m c) := (Keep5.main_arg9 (W8 m ρ c)).trans (k8_main_arg9 m ρ c)
theorem k9_main_arg10 : W9 m ρ c (Proc.devRef .tc main_arg10) = (Args.a10 m c) := (Keep5.main_arg10 (W8 m ρ c)).trans (k8_main_arg10 m ρ c)
theorem k9_main_arg11 : W9 m ρ c (Proc.devRef .tc main_arg11) = (Args.a11 m c) := (Keep5.main_arg11 (W8 m ρ c)).trans (k8_main_arg11 m ρ c)
theorem k9_main_arg24 : W9 m ρ c (Proc.devRef .tc main_arg24) = (Args.a24 m c) := (Keep5.main_arg24 (W8 m ρ c)).trans (k8_main_arg24 m ρ c)
theorem k9_main_arg25 : W9 m ρ c (Proc.devRef .tc main_arg25) = (Args.a25 m c) := (Keep5.main_arg25 (W8 m ρ c)).trans (k8_main_arg25 m ρ c)
theorem k9_main_arg26 : W9 m ρ c (Proc.devRef .tc main_arg26) = (Args.a26 m c) := (Keep5.main_arg26 (W8 m ρ c)).trans (k8_main_arg26 m ρ c)
theorem k9_main_arg27 : W9 m ρ c (Proc.devRef .tc main_arg27) = (Args.a27 m c) := (Keep5.main_arg27 (W8 m ρ c)).trans (k8_main_arg27 m ρ c)
theorem k9_main_v1 : W9 m ρ c (Proc.devRef .tc main_v1) = (Cert.ReferenceIdeal.Read.val_main_v1 (F := Ideal) (Args.a1 m c)) := (Keep5.main_v1 (W8 m ρ c)).trans (k8_main_v1 m ρ c)
theorem k9_main_v3 : W9 m ρ c (Proc.devRef .tc main_v3) = (Cert.ReferenceIdeal.Read.val_main_v3 (F := Ideal) (Args.a1 m c)) := (Keep5.main_v3 (W8 m ρ c)).trans (k8_main_v3 m ρ c)
theorem k9_main_v10 : W9 m ρ c (Proc.devRef .tc main_v10) = (Cert.ReferenceIdeal.Read.val_main_v10 (F := Ideal) (Args.a1 m c)) := (Keep5.main_v10 (W8 m ρ c)).trans (k8_main_v10 m ρ c)
theorem k9_main_v11 : W9 m ρ c (Proc.devRef .tc main_v11) = (dinvSq m c) := (Keep5.main_v11 (W8 m ρ c)).trans (k8_main_v11 m ρ c)

theorem k10_main_arg8 : W10 m ρ c (Proc.devRef .tc main_arg8) = (Args.a8 m c) := (W10_of_ne m ρ c main_arg8 (by decide)).trans (k9_main_arg8 m ρ c)
theorem k10_main_arg9 : W10 m ρ c (Proc.devRef .tc main_arg9) = (Args.a9 m c) := (W10_of_ne m ρ c main_arg9 (by decide)).trans (k9_main_arg9 m ρ c)
theorem k10_main_arg10 : W10 m ρ c (Proc.devRef .tc main_arg10) = (Args.a10 m c) := (W10_of_ne m ρ c main_arg10 (by decide)).trans (k9_main_arg10 m ρ c)
theorem k10_main_arg11 : W10 m ρ c (Proc.devRef .tc main_arg11) = (Args.a11 m c) := (W10_of_ne m ρ c main_arg11 (by decide)).trans (k9_main_arg11 m ρ c)
theorem k10_main_arg24 : W10 m ρ c (Proc.devRef .tc main_arg24) = (Args.a24 m c) := (W10_of_ne m ρ c main_arg24 (by decide)).trans (k9_main_arg24 m ρ c)
theorem k10_main_arg25 : W10 m ρ c (Proc.devRef .tc main_arg25) = (Args.a25 m c) := (W10_of_ne m ρ c main_arg25 (by decide)).trans (k9_main_arg25 m ρ c)
theorem k10_main_arg26 : W10 m ρ c (Proc.devRef .tc main_arg26) = (Args.a26 m c) := (W10_of_ne m ρ c main_arg26 (by decide)).trans (k9_main_arg26 m ρ c)
theorem k10_main_arg27 : W10 m ρ c (Proc.devRef .tc main_arg27) = (Args.a27 m c) := (W10_of_ne m ρ c main_arg27 (by decide)).trans (k9_main_arg27 m ρ c)
theorem k10_main_v1 : W10 m ρ c (Proc.devRef .tc main_v1) = (Cert.ReferenceIdeal.Read.val_main_v1 (F := Ideal) (Args.a1 m c)) := (W10_of_ne m ρ c main_v1 (by decide)).trans (k9_main_v1 m ρ c)
theorem k10_main_v3 : W10 m ρ c (Proc.devRef .tc main_v3) = (Cert.ReferenceIdeal.Read.val_main_v3 (F := Ideal) (Args.a1 m c)) := (W10_of_ne m ρ c main_v3 (by decide)).trans (k9_main_v3 m ρ c)
theorem k10_main_v10 : W10 m ρ c (Proc.devRef .tc main_v10) = (Cert.ReferenceIdeal.Read.val_main_v10 (F := Ideal) (Args.a1 m c)) := (W10_of_ne m ρ c main_v10 (by decide)).trans (k9_main_v10 m ρ c)
theorem k10_main_v11 : W10 m ρ c (Proc.devRef .tc main_v11) = (dinvSq m c) := (W10_of_ne m ρ c main_v11 (by decide)).trans (k9_main_v11 m ρ c)

theorem k11_main_arg9 : W11 m ρ c (Proc.devRef .tc main_arg9) = (Args.a9 m c) := (W11_of_ne m ρ c main_arg9 (by decide)).trans (k10_main_arg9 m ρ c)
theorem k11_main_arg10 : W11 m ρ c (Proc.devRef .tc main_arg10) = (Args.a10 m c) := (W11_of_ne m ρ c main_arg10 (by decide)).trans (k10_main_arg10 m ρ c)
theorem k11_main_arg11 : W11 m ρ c (Proc.devRef .tc main_arg11) = (Args.a11 m c) := (W11_of_ne m ρ c main_arg11 (by decide)).trans (k10_main_arg11 m ρ c)
theorem k11_main_arg24 : W11 m ρ c (Proc.devRef .tc main_arg24) = (Args.a24 m c) := (W11_of_ne m ρ c main_arg24 (by decide)).trans (k10_main_arg24 m ρ c)
theorem k11_main_arg25 : W11 m ρ c (Proc.devRef .tc main_arg25) = (Args.a25 m c) := (W11_of_ne m ρ c main_arg25 (by decide)).trans (k10_main_arg25 m ρ c)
theorem k11_main_arg26 : W11 m ρ c (Proc.devRef .tc main_arg26) = (Args.a26 m c) := (W11_of_ne m ρ c main_arg26 (by decide)).trans (k10_main_arg26 m ρ c)
theorem k11_main_arg27 : W11 m ρ c (Proc.devRef .tc main_arg27) = (Args.a27 m c) := (W11_of_ne m ρ c main_arg27 (by decide)).trans (k10_main_arg27 m ρ c)
theorem k11_main_v1 : W11 m ρ c (Proc.devRef .tc main_v1) = (Cert.ReferenceIdeal.Read.val_main_v1 (F := Ideal) (Args.a1 m c)) := (W11_of_ne m ρ c main_v1 (by decide)).trans (k10_main_v1 m ρ c)
theorem k11_main_v3 : W11 m ρ c (Proc.devRef .tc main_v3) = (Cert.ReferenceIdeal.Read.val_main_v3 (F := Ideal) (Args.a1 m c)) := (W11_of_ne m ρ c main_v3 (by decide)).trans (k10_main_v3 m ρ c)
theorem k11_main_v10 : W11 m ρ c (Proc.devRef .tc main_v10) = (Cert.ReferenceIdeal.Read.val_main_v10 (F := Ideal) (Args.a1 m c)) := (W11_of_ne m ρ c main_v10 (by decide)).trans (k10_main_v10 m ρ c)
theorem k11_main_v11 : W11 m ρ c (Proc.devRef .tc main_v11) = (dinvSq m c) := (W11_of_ne m ρ c main_v11 (by decide)).trans (k10_main_v11 m ρ c)

theorem k12_main_arg10 : W12 m ρ c (Proc.devRef .tc main_arg10) = (Args.a10 m c) := (Keep7.main_arg10 (W11 m ρ c)).trans (k11_main_arg10 m ρ c)
theorem k12_main_arg11 : W12 m ρ c (Proc.devRef .tc main_arg11) = (Args.a11 m c) := (Keep7.main_arg11 (W11 m ρ c)).trans (k11_main_arg11 m ρ c)
theorem k12_main_v1 : W12 m ρ c (Proc.devRef .tc main_v1) = (Cert.ReferenceIdeal.Read.val_main_v1 (F := Ideal) (Args.a1 m c)) := (Keep7.main_v1 (W11 m ρ c)).trans (k11_main_v1 m ρ c)
theorem k12_main_v3 : W12 m ρ c (Proc.devRef .tc main_v3) = (Cert.ReferenceIdeal.Read.val_main_v3 (F := Ideal) (Args.a1 m c)) := (Keep7.main_v3 (W11 m ρ c)).trans (k11_main_v3 m ρ c)
theorem k12_main_v10 : W12 m ρ c (Proc.devRef .tc main_v10) = (Cert.ReferenceIdeal.Read.val_main_v10 (F := Ideal) (Args.a1 m c)) := (Keep7.main_v10 (W11 m ρ c)).trans (k11_main_v10 m ρ c)
theorem k12_main_v11 : W12 m ρ c (Proc.devRef .tc main_v11) = (dinvSq m c) := (Keep7.main_v11 (W11 m ρ c)).trans (k11_main_v11 m ρ c)

theorem k13_main_arg10 : W13 m ρ c (Proc.devRef .tc main_arg10) = (Args.a10 m c) := (W13_of_ne m ρ c main_arg10 (by decide)).trans (k12_main_arg10 m ρ c)
theorem k13_main_arg11 : W13 m ρ c (Proc.devRef .tc main_arg11) = (Args.a11 m c) := (W13_of_ne m ρ c main_arg11 (by decide)).trans (k12_main_arg11 m ρ c)
theorem k13_main_v1 : W13 m ρ c (Proc.devRef .tc main_v1) = (Cert.ReferenceIdeal.Read.val_main_v1 (F := Ideal) (Args.a1 m c)) := (W13_of_ne m ρ c main_v1 (by decide)).trans (k12_main_v1 m ρ c)
theorem k13_main_v3 : W13 m ρ c (Proc.devRef .tc main_v3) = (Cert.ReferenceIdeal.Read.val_main_v3 (F := Ideal) (Args.a1 m c)) := (W13_of_ne m ρ c main_v3 (by decide)).trans (k12_main_v3 m ρ c)
theorem k13_main_v10 : W13 m ρ c (Proc.devRef .tc main_v10) = (Cert.ReferenceIdeal.Read.val_main_v10 (F := Ideal) (Args.a1 m c)) := (W13_of_ne m ρ c main_v10 (by decide)).trans (k12_main_v10 m ρ c)
theorem k13_main_v11 : W13 m ρ c (Proc.devRef .tc main_v11) = (dinvSq m c) := (W13_of_ne m ρ c main_v11 (by decide)).trans (k12_main_v11 m ρ c)

theorem k14_main_arg11 : W14 m ρ c (Proc.devRef .tc main_arg11) = (Args.a11 m c) := (W14_of_ne m ρ c main_arg11 (by decide)).trans (k13_main_arg11 m ρ c)
theorem k14_main_v1 : W14 m ρ c (Proc.devRef .tc main_v1) = (Cert.ReferenceIdeal.Read.val_main_v1 (F := Ideal) (Args.a1 m c)) := (W14_of_ne m ρ c main_v1 (by decide)).trans (k13_main_v1 m ρ c)
theorem k14_main_v3 : W14 m ρ c (Proc.devRef .tc main_v3) = (Cert.ReferenceIdeal.Read.val_main_v3 (F := Ideal) (Args.a1 m c)) := (W14_of_ne m ρ c main_v3 (by decide)).trans (k13_main_v3 m ρ c)
theorem k14_main_v10 : W14 m ρ c (Proc.devRef .tc main_v10) = (Cert.ReferenceIdeal.Read.val_main_v10 (F := Ideal) (Args.a1 m c)) := (W14_of_ne m ρ c main_v10 (by decide)).trans (k13_main_v10 m ρ c)
theorem k14_main_v11 : W14 m ρ c (Proc.devRef .tc main_v11) = (dinvSq m c) := (W14_of_ne m ρ c main_v11 (by decide)).trans (k13_main_v11 m ρ c)

end Cert.KernelIdeal.Carry

end
-- ==== Proof.Dense0.lean ====
/-
  The dense product of one layer, read off its row-tiled kernel.

  The node features are a `[100000, 128]` array and the layer's weights a `[128, 128]` matrix.  The kernel visits the
  rows in 20 tiles of 5000: tile `t` loads rows `5000 t … 5000 t + 4999` and the whole weight matrix, and stores
  their product.  On the extended reals the narrowing of the operands to bf16 is the identity and the product
  accumulated from a zero tile is the plain sum over the contracted axis, so the entry `(r, j)` of tile `t` is
  `∑ k, x (5000 t + r, k) · w (k, j)` — entry `(5000 t + r, j)` of the product of the WHOLE arrays (`rowsTimes`).
  The 20 tiles partition the rows, so after the last write-back the output array is `rowsTimes x w`.
-/
import proofs.«108039_j29265907155154_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Entry `(r, j)` of the product of a `[100000, 128]` array with a `[128, 128]` matrix: the sum over the
    contracted axis. -/
def rowsTimes (x : S100000x128.Idx → EReal) (w : S128x128.Idx → EReal) : S100000x128.Idx → EReal :=
  fun i => ∑ k : Fin 128, x (ix2 (n0 := 100000) (n1 := 128) (i 0) k) * w (ix2 (n0 := 128) (n1 := 128) k (i 1))

theorem origin : (![0, 0] : Fin 2 → Nat) = fun _ => 0 := funext fun a => by fin_cases a <;> rfl

/-- The left operand's row is the output's row … -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the right operand's column the output's column. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One entry of a tile's product: the bf16 narrowing is the identity on extended reals, the accumulator starts at
    zero, and the one contracted axis is re-indexed by its coordinate. -/
theorem tile_apply (x : FVec Ideal S5000x128 .f32) (w : FVec Ideal S128x128 .f32) (p : Fin 5000) (q : Fin 128) :
    k0_pay1 (F := Ideal) x w (ix2 p q) = ∑ k : Fin 128, x (ix2 p k) * w (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ => exact rhs_col _ _)
  rw [el, er]
  first | rfl | (rw [shapeCast_self]; rfl)

section Region
variable (V : (c : Dev nD) → (b : Ref sig .tc) → Buf (Elt Ideal) ((c : Thread nD τ).loc b))

/-- The tiles' positions, decided over the 20 grid points: tile `t` of the features and of the output starts at row
    block `t`, column block 0; the weights are one block. -/
theorem tiles : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block is some grid point's. -/
theorem tiles_onto : ∀ (q0 : Fin 20), ∃ t : Fin cfg0.N, win0_2.index t = ![q0.val, 0] :=
  (by decide +kernel : ∀ (q0 : Fin 20), ∃ t : Fin grid0.N, win0_2.index t = ![q0.val, 0])

/-- What grid point `t` writes back is tile `t` of the product of the whole arrays. -/
theorem flushed_eq (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := tiles t
  funext j
  obtain ⟨p, q, rfl⟩ : ∃ (p : Fin 5000) (q : Fin 128), j = ix2 p q := ⟨j 0, j 1, eq_ix2 j⟩
  refine (tile_apply (iblk0 V c 0 t) (iblk0 V c 1 t) p q).trans ?_
  show _ = rowsTimes (V c main_arg0) (V c main_arg2) (((cfg0.win 2).blk t).view.emb (ix2 p q))
  unfold rowsTimes
  refine Finset.sum_congr rfl fun k _ => ?_
  have hx : iblk0 V c 0 t (ix2 p k) = V c main_arg0 (ix2 (n0 := 100000) (n1 := 128) ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : iblk0 V c 1 t (ix2 k q) = V c main_arg2 (ix2 (n0 := 128) (n1 := 128) k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index of the output array lies in tile `t` iff each coordinate lies in the tile's range on its axis. -/
theorem mem_tile (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v12).slice (win0_2.rect t)).set ↔ _
  rw [View.set_slice_whole, Rect.mem_set_unit]
  exact Iff.rfl

/-- The 20 tiles cover the output array: row `r` is in tile `r / 5000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := tiles_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the last write-back the output array is the product of the whole arrays as the region found them. -/
theorem product (c : Dev nD) :
    (dat0 V c).arrAt 2 cfg0.N = rowsTimes (V c main_arg0) (V c main_arg2) :=
  (dat0 V c).arrAt_eq_of_cover 2 _ (fun t _ => flushed_eq V c t) (covered)

end Region

end Cert.KernelIdeal.Dense0

end
-- ==== Proof.Dense2.lean ====
/-
  The dense product of one layer, read off its row-tiled kernel.

  The node features are a `[100000, 128]` array and the layer's weights a `[128, 128]` matrix.  The kernel visits the
  rows in 20 tiles of 5000: tile `t` loads rows `5000 t … 5000 t + 4999` and the whole weight matrix, and stores
  their product.  On the extended reals the narrowing of the operands to bf16 is the identity and the product
  accumulated from a zero tile is the plain sum over the contracted axis, so the entry `(r, j)` of tile `t` is
  `∑ k, x (5000 t + r, k) · w (k, j)` — entry `(5000 t + r, j)` of the product of the WHOLE arrays (`rowsTimes`).
  The 20 tiles partition the rows, so after the last write-back the output array is `rowsTimes x w`.
-/
import proofs.«108039_j29265907155154_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Entry `(r, j)` of the product of a `[100000, 128]` array with a `[128, 128]` matrix: the sum over the
    contracted axis. -/
def rowsTimes (x : S100000x128.Idx → EReal) (w : S128x128.Idx → EReal) : S100000x128.Idx → EReal :=
  fun i => ∑ k : Fin 128, x (ix2 (n0 := 100000) (n1 := 128) (i 0) k) * w (ix2 (n0 := 128) (n1 := 128) k (i 1))

theorem origin : (![0, 0] : Fin 2 → Nat) = fun _ => 0 := funext fun a => by fin_cases a <;> rfl

/-- The left operand's row is the output's row … -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the right operand's column the output's column. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One entry of a tile's product: the bf16 narrowing is the identity on extended reals, the accumulator starts at
    zero, and the one contracted axis is re-indexed by its coordinate. -/
theorem tile_apply (x : FVec Ideal S5000x128 .f32) (w : FVec Ideal S128x128 .f32) (p : Fin 5000) (q : Fin 128) :
    k2_pay1 (F := Ideal) x w (ix2 p q) = ∑ k : Fin 128, x (ix2 p k) * w (ix2 k q) := by
  unfold k2_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ => exact rhs_col _ _)
  rw [el, er]
  first | rfl | (rw [shapeCast_self]; rfl)

section Region
variable (V : (c : Dev nD) → (b : Ref sig .tc) → Buf (Elt Ideal) ((c : Thread nD τ).loc b))

/-- The tiles' positions, decided over the 20 grid points: tile `t` of the features and of the output starts at row
    block `t`, column block 0; the weights are one block. -/
theorem tiles : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every row block is some grid point's. -/
theorem tiles_onto : ∀ (q0 : Fin 20), ∃ t : Fin cfg2.N, win2_2.index t = ![q0.val, 0] :=
  (by decide +kernel : ∀ (q0 : Fin 20), ∃ t : Fin grid2.N, win2_2.index t = ![q0.val, 0])

/-- What grid point `t` writes back is tile `t` of the product of the whole arrays. -/
theorem flushed_eq (c : Dev nD) (t : Fin cfg2.N) :
    (dat2 V c).flushed 2 t = ((cfg2.win 2).blk t).view.read (Elt Ideal) (rowsTimes (V c main_v50) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := tiles t
  funext j
  obtain ⟨p, q, rfl⟩ : ∃ (p : Fin 5000) (q : Fin 128), j = ix2 p q := ⟨j 0, j 1, eq_ix2 j⟩
  refine (tile_apply (iblk2 V c 0 t) (iblk2 V c 1 t) p q).trans ?_
  show _ = rowsTimes (V c main_v50) (V c main_arg4) (((cfg2.win 2).blk t).view.emb (ix2 p q))
  unfold rowsTimes
  refine Finset.sum_congr rfl fun k _ => ?_
  have hx : iblk2 V c 0 t (ix2 p k) = V c main_v50 (ix2 (n0 := 100000) (n1 := 128) ((((cfg2.win 2).blk t).view.emb (ix2 p q)) 0) k) := by
    show V c main_v50 (((cfg2.win 0).blk t).view.emb (ix2 p k)) = _
    refine congrArg (V c main_v50) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hw : iblk2 V c 1 t (ix2 k q) = V c main_arg4 (ix2 (n0 := 128) (n1 := 128) k ((((cfg2.win 2).blk t).view.emb (ix2 p q)) 1)) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hx, hw]

/-- An index of the output array lies in tile `t` iff each coordinate lies in the tile's range on its axis. -/
theorem mem_tile (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- The 20 tiles cover the output array: row `r` is in tile `r / 5000`. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := tiles_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_tile]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the last write-back the output array is the product of the whole arrays as the region found them. -/
theorem product (c : Dev nD) :
    (dat2 V c).arrAt 2 cfg2.N = rowsTimes (V c main_v50) (V c main_arg4) :=
  (dat2 V c).arrAt_eq_of_cover 2 _ (fun t _ => flushed_eq V c t) (covered)

end Region

end Cert.KernelIdeal.Dense2

end
-- ==== Proof.Dense4.lean ====
/-
  The dense product of one layer, read off its row-tiled kernel.

  The node features are a `[100000, 128]` array and the layer's weights a `[128, 128]` matrix.  The kernel visits the
  rows in 20 tiles of 5000: tile `t` loads rows `5000 t … 5000 t + 4999` and the whole weight matrix, and stores
  their product.  On the extended reals the narrowing of the operands to bf16 is the identity and the product
  accumulated from a zero tile is the plain sum over the contracted axis, so the entry `(r, j)` of tile `t` is
  `∑ k, x (5000 t + r, k) · w (k, j)` — entry `(5000 t + r, j)` of the product of the WHOLE arrays (`rowsTimes`).
  The 20 tiles partition the rows, so after the last write-back the output array is `rowsTimes x w`.
-/
import proofs.«108039_j29265907155154_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense4

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Entry `(r, j)` of the product of a `[100000, 128]` array with a `[128, 128]` matrix: the sum over the
    contracted axis. -/
def rowsTimes (x : S100000x128.Idx → EReal) (w : S128x128.Idx → EReal) : S100000x128.Idx → EReal :=
  fun i => ∑ k : Fin 128, x (ix2 (n0 := 100000) (n1 := 128) (i 0) k) * w (ix2 (n0 := 128) (n1 := 128) k (i 1))

theorem origin : (![0, 0] : Fin 2 → Nat) = fun _ => 0 := funext fun a => by fin_cases a <;> rfl

/-- The left operand's row is the output's row … -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the right operand's column the output's column. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One entry of a tile's product: the bf16 narrowing is the identity on extended reals, the accumulator starts at
    zero, and the one contracted axis is re-indexed by its coordinate. -/
theorem tile_apply (x : FVec Ideal S5000x128 .f32) (w : FVec Ideal S128x128 .f32) (p : Fin 5000) (q : Fin 128) :
    k4_pay1 (F := Ideal) x w (ix2 p q) = ∑ k : Fin 128, x (ix2 p k) * w (ix2 k q) := by
  unfold k4_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ => exact rhs_col _ _)
  rw [el, er]
  first | rfl | (rw [shapeCast_self]; rfl)

section Region
variable (V : (c : Dev nD) → (b : Ref sig .tc) → Buf (Elt Ideal) ((c : Thread nD τ).loc b))

/-- The tiles' positions, decided over the 20 grid points: tile `t` of the features and of the output starts at row
    block `t`, column block 0; the weights are one block. -/
theorem tiles : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 19 :=
  (by decide +kernel : ∀ t : Fin grid4.N, _)

/-- Every row block is some grid point's. -/
theorem tiles_onto : ∀ (q0 : Fin 20), ∃ t : Fin cfg4.N, win4_2.index t = ![q0.val, 0] :=
  (by decide +kernel : ∀ (q0 : Fin 20), ∃ t : Fin grid4.N, win4_2.index t = ![q0.val, 0])

/-- What grid point `t` writes back is tile `t` of the product of the whole arrays. -/
theorem flushed_eq (c : Dev nD) (t : Fin cfg4.N) :
    (dat4 V c).flushed 2 t = ((cfg4.win 2).blk t).view.read (Elt Ideal) (rowsTimes (V c main_v89) (V c main_arg6)) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x128) origin]
  obtain ⟨e0, e1, e2, e3, e4, e5⟩ := tiles t
  funext j
  obtain ⟨p, q, rfl⟩ : ∃ (p : Fin 5000) (q : Fin 128), j = ix2 p q := ⟨j 0, j 1, eq_ix2 j⟩
  refine (tile_apply (iblk4 V c 0 t) (iblk4 V c 1 t) p q).trans ?_
  show _ = rowsTimes (V c main_v89) (V c main_arg6) (((cfg4.win 2).blk t).view.emb (ix2 p q))
  unfold rowsTimes
  refine Finset.sum_congr rfl fun k _ => ?_
  have hx : iblk4 V c 0 t (ix2 p k) = V c main_v89 (ix2 (n0 := 100000) (n1 := 128) ((((cfg4.win 2).blk t).view.emb (ix2 p q)) 0) k) := by
    show V c main_v89 (((cfg4.win 0).blk t).view.emb (ix2 p k)) = _
    refine congrArg (V c main_v89) (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have hw : iblk4 V c 1 t (ix2 k q) = V c main_arg6 (ix2 (n0 := 128) (n1 := 128) k ((((cfg4.win 2).blk t).view.emb (ix2 p q)) 1)) := by
    show V c main_arg6 (((cfg4.win 1).blk t).view.emb (ix2 k q)) = _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  rw [hx, hw]

/-- An index of the output array lies in tile `t` iff each coordinate lies in the tile's range on its axis. -/
theorem mem_tile (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v90).slice (win4_2.rect t)).set ↔ _
  rw [View.set_slice_whole, Rect.mem_set_unit]
  exact Iff.rfl

/-- The 20 tiles cover the output array: row `r` is in tile `r / 5000`. -/
theorem covered (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := tiles_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_tile]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the last write-back the output array is the product of the whole arrays as the region found them. -/
theorem product (c : Dev nD) :
    (dat4 V c).arrAt 2 cfg4.N = rowsTimes (V c main_v89) (V c main_arg6) :=
  (dat4 V c).arrAt_eq_of_cover 2 _ (fun t _ => flushed_eq V c t) (covered)

end Region

end Cert.KernelIdeal.Dense4

end
-- ==== Proof.Dense6.lean ====
/-
  The dense product of one layer, read off its row-tiled kernel.

  The node features are a `[100000, 128]` array and the layer's weights a `[128, 64]` matrix.  The kernel visits the
  rows in 20 tiles of 5000: tile `t` loads rows `5000 t … 5000 t + 4999` and the whole weight matrix, and stores
  their product.  On the extended reals the narrowing of the operands to bf16 is the identity and the product
  accumulated from a zero tile is the plain sum over the contracted axis, so the entry `(r, j)` of tile `t` is
  `∑ k, x (5000 t + r, k) · w (k, j)` — entry `(5000 t + r, j)` of the product of the WHOLE arrays (`rowsTimes`).
  The 20 tiles partition the rows, so after the last write-back the output array is `rowsTimes x w`.
-/
import proofs.«108039_j29265907155154_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense6

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Entry `(r, j)` of the product of a `[100000, 128]` array with a `[128, 64]` matrix: the sum over the
    contracted axis. -/
def rowsTimes (x : S100000x128.Idx → EReal) (w : S128x64.Idx → EReal) : S100000x64.Idx → EReal :=
  fun i => ∑ k : Fin 128, x (ix2 (n0 := 100000) (n1 := 128) (i 0) k) * w (ix2 (n0 := 128) (n1 := 64) k (i 1))

theorem origin : (![0, 0] : Fin 2 → Nat) = fun _ => 0 := funext fun a => by fin_cases a <;> rfl

/-- The left operand's row is the output's row … -/
theorem lhs_row (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and the right operand's column the output's column. -/
theorem rhs_col (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- One entry of a tile's product: the bf16 narrowing is the identity on extended reals, the accumulator starts at
    zero, and the one contracted axis is re-indexed by its coordinate. -/
theorem tile_apply (x : FVec Ideal S5000x128 .f32) (w : FVec Ideal S128x64 .f32) (p : Fin 5000) (q : Fin 64) :
    k6_pay1 (F := Ideal) x w (ix2 p q) = ∑ k : Fin 128, x (ix2 p k) * w (ix2 k q) := by
  unfold k6_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (dot_S5000x128_S128x64_S5000x64_1_0_0_1_n_n.lhsIdx_val_of_single rfl (ix2 p q) _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl (ix2 p q) _).trans hk
    | ⟨1, _⟩ => exact rhs_col _ _)
  rw [el, er]
  first | rfl | (rw [shapeCast_self]; rfl)

section Region
variable (V : (c : Dev nD) → (b : Ref sig .tc) → Buf (Elt Ideal) ((c : Thread nD τ).loc b))

/-- The tiles' positions, decided over the 20 grid points: tile `t` of the features and of the output starts at row
    block `t`, column block 0; the weights are one block. -/
theorem tiles : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) ≤ 19 :=
  (by decide +kernel : ∀ t : Fin grid6.N, _)

/-- Every row block is some grid point's. -/
theorem tiles_onto : ∀ (q0 : Fin 20), ∃ t : Fin cfg6.N, win6_2.index t = ![q0.val, 0] :=
  (by decide +kernel : ∀ (q0 : Fin 20), ∃ t : Fin grid6.N, win6_2.index t = ![q0.val, 0])

/-- What grid point `t` writes back is tile `t` of the product of the whole arrays. -/
theorem flushed_eq (c : Dev nD) (t : Fin cfg6.N) :
    (dat6 V c).flushed 2 t = ((cfg6.win 2).blk t).view.read (Elt Ideal) (rowsTimes (V c main_v128) (V c main_arg8)) := by
  show (cfg6.win 2).cut (grid6.coords t) ((dat6 V c).after 2 t) = _
  rw [after6_2]
  unfold out6_2
  rw [View.canon_unit_zero origin]
  simp only [View.ld_unit_zero (S := S5000x128) origin, View.ld_unit_zero (S := S128x64) origin]
  obtain ⟨e0, e1, e2, e3, e4, e5⟩ := tiles t
  funext j
  obtain ⟨p, q, rfl⟩ : ∃ (p : Fin 5000) (q : Fin 64), j = ix2 p q := ⟨j 0, j 1, eq_ix2 j⟩
  refine (tile_apply (iblk6 V c 0 t) (iblk6 V c 1 t) p q).trans ?_
  show _ = rowsTimes (V c main_v128) (V c main_arg8) (((cfg6.win 2).blk t).view.emb (ix2 p q))
  unfold rowsTimes
  refine Finset.sum_congr rfl fun k _ => ?_
  have hx : iblk6 V c 0 t (ix2 p k) = V c main_v128 (ix2 (n0 := 100000) (n1 := 128) ((((cfg6.win 2).blk t).view.emb (ix2 p q)) 0) k) := by
    show V c main_v128 (((cfg6.win 0).blk t).view.emb (ix2 p k)) = _
    refine congrArg (V c main_v128) (funext fun a => Fin.ext ?_)
    match a with
    | ⟨0, _⟩ => show win6_0.index t (0 : Fin 2) * 5000 + 1 * p.val = win6_2.index t (0 : Fin 2) * 5000 + 1 * p.val; omega
    | ⟨1, _⟩ => show win6_0.index t (1 : Fin 2) * 128 + 1 * k.val = k.val; omega
  have hw : iblk6 V c 1 t (ix2 k q) = V c main_arg8 (ix2 (n0 := 128) (n1 := 64) k ((((cfg6.win 2).blk t).view.emb (ix2 p q)) 1)) := by
    show V c main_arg8 (((cfg6.win 1).blk t).view.emb (ix2 k q)) = _
    refine congrArg (V c main_arg8) (funext fun a => Fin.ext ?_)
    match a with
    | ⟨0, _⟩ => show win6_1.index t (0 : Fin 2) * 128 + 1 * k.val = k.val; omega
    | ⟨1, _⟩ => show win6_1.index t (1 : Fin 2) * 64 + 1 * q.val = win6_2.index t (1 : Fin 2) * 64 + 1 * q.val; omega
  rw [hx, hw]

/-- An index of the output array lies in tile `t` iff each coordinate lies in the tile's range on its axis. -/
theorem mem_tile (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v129).slice (win6_2.rect t)).set ↔ _
  rw [View.set_slice_whole, Rect.mem_set_unit]
  exact Iff.rfl

/-- The 20 tiles cover the output array: row `r` is in tile `r / 5000`. -/
theorem covered (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := tiles_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_tile]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- After the last write-back the output array is the product of the whole arrays as the region found them. -/
theorem product (c : Dev nD) :
    (dat6 V c).arrAt 2 cfg6.N = rowsTimes (V c main_v128) (V c main_arg8) :=
  (dat6 V c).arrAt_eq_of_cover 2 _ (fun t _ => flushed_eq V c t) (covered)

end Region

end Cert.KernelIdeal.Dense6

end
-- ==== Proof.Dense8.lean ====
/-
  The dense product of one layer, read off its row-tiled kernel.

  The node features are a `[100000, 64]` array and the layer's weights a `[64, 2]` matrix.  The kernel visits the
  rows in 20 tiles of 5000: tile `t` loads rows `5000 t … 5000 t + 4999` and the whole weight matrix, and stores
  their product.  On the extended reals the narrowing of the operands to bf16 is the identity and the product
  accumulated from a zero tile is the plain sum over the contracted axis, so the entry `(r, j)` of tile `t` is
  `∑ k, x (5000 t + r, k) · w (k, j)` — entry `(5000 t + r, j)` of the product of the WHOLE arrays (`rowsTimes`).
  The 20 tiles partition the rows, so after the last write-back the output array is `rowsTimes x w`.
-/
import proofs.«108039_j29265907155154_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense8

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Entry `(r, j)` of the product of a `[100000, 64]` array with a `[64, 2]` matrix: the sum over the
    contracted axis. -/
def rowsTimes (x : S100000x64.Idx → EReal) (w : S64x2.Idx → EReal) : S100000x2.Idx → EReal :=
  fun i => ∑ k : Fin 64, x (ix2 (n0 := 100000) (n1 := 64) (i 0) k) * w (ix2 (n0 := 64) (n1 := 2) k (i 1))

theorem origin : (![0, 0] : Fin 2 → Nat) = fun _ => 0 := funext fun a => by fin_cases a <;> rfl

/-- The left operand's row is the output's row … -/
theorem lhs_row (i : S5000x2.Idx) (q : dot_S5000x64_S64x2_S5000x2_1_0_0_1_n_n.contr.Idx) : (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
/-- … and the right operand's column the output's column. -/
theorem rhs_col (i : S5000x2.Idx) (q : dot_S5000x64_S64x2_S5000x2_1_0_0_1_n_n.contr.Idx) : (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- One entry of a tile's product: the bf16 narrowing is the identity on extended reals, the accumulator starts at
    zero, and the one contracted axis is re-indexed by its coordinate. -/
theorem tile_apply (x : FVec Ideal S5000x64 .f32) (w : FVec Ideal S64x2 .f32) (p : Fin 5000) (q : Fin 2) :
    k8_pay1 (F := Ideal) x w (ix2 p q) = ∑ k : Fin 64, x (ix2 p k) * w (ix2 k q) := by
  unfold k8_pay1
  refine (Ideal.matmul_constant_zero_apply dot_S5000x64_S64x2_S5000x2_1_0_0_1_n_n none _ _ (ix2 p q)).trans ?_
  rw [← Equiv.sum_comp (contrEquiv1 dot_S5000x64_S64x2_S5000x2_1_0_0_1_n_n 64 rfl rfl).symm]
  refine Finset.sum_congr rfl fun k _ => ?_
  have hk := contrEquiv1_symm_val dot_S5000x64_S64x2_S5000x2_1_0_0_1_n_n 64 rfl rfl k
  have el : dot_S5000x64_S64x2_S5000x2_1_0_0_1_n_n.lhsIdx (ix2 p q) ((contrEquiv1 dot_S5000x64_S64x2_S5000x2_1_0_0_1_n_n 64 rfl rfl).symm k) = ix2 p k := funext fun a => Fin.ext (by
    match a with
    | ⟨0, _⟩ => exact lhs_row _ _
    | ⟨1, _⟩ => exact (dot_S5000x64_S64x2_S5000x2_1_0_0_1_n_n.lhsIdx_val_of_single rfl (ix2 p q) _).trans hk)
  have er : dot_S5000x64_S64x2_S5000x2_1_0_0_1_n_n.rhsIdx (ix2 p q) ((contrEquiv1 dot_S5000x64_S64x2_S5000x2_1_0_0_1_n_n 64 rfl rfl).symm k) = ix2 k q := funext fun a => Fin.ext (by
    match a with
    | ⟨0, _⟩ => exact (dot_S5000x64_S64x2_S5000x2_1_0_0_1_n_n.rhsIdx_val_of_single rfl (ix2 p q) _).trans hk
    | ⟨1, _⟩ => exact rhs_col _ _)
  rw [el, er]
  first | rfl | (rw [shapeCast_self]; rfl)

section Region
variable (V : (c : Dev nD) → (b : Ref sig .tc) → Buf (Elt Ideal) ((c : Thread nD τ).loc b))

/-- The tiles' positions, decided over the 20 grid points: tile `t` of the features and of the output starts at row
    block `t`, column block 0; the weights are one block. -/
theorem tiles : ∀ t : Fin cfg8.N, win8_0.index t (0 : Fin 2) = win8_2.index t (0 : Fin 2)
    ∧ win8_0.index t (1 : Fin 2) = 0 ∧ win8_1.index t (0 : Fin 2) = 0 ∧ win8_1.index t (1 : Fin 2) = 0
    ∧ win8_2.index t (1 : Fin 2) = 0 ∧ win8_2.index t (0 : Fin 2) ≤ 19 :=
  (by decide +kernel : ∀ t : Fin grid8.N, _)

/-- Every row block is some grid point's. -/
theorem tiles_onto : ∀ (q0 : Fin 20), ∃ t : Fin cfg8.N, win8_2.index t = ![q0.val, 0] :=
  (by decide +kernel : ∀ (q0 : Fin 20), ∃ t : Fin grid8.N, win8_2.index t = ![q0.val, 0])

/-- What grid point `t` writes back is tile `t` of the product of the whole arrays. -/
theorem flushed_eq (c : Dev nD) (t : Fin cfg8.N) :
    (dat8 V c).flushed 2 t = ((cfg8.win 2).blk t).view.read (Elt Ideal) (rowsTimes (V c main_v167) (V c main_arg10)) := by
  show (cfg8.win 2).cut (grid8.coords t) ((dat8 V c).after 2 t) = _
  rw [after8_2]
  unfold out8_2
  rw [View.canon_unit_zero origin]
  simp only [View.ld_unit_zero (S := S5000x64) origin, View.ld_unit_zero (S := S64x2) origin]
  obtain ⟨e0, e1, e2, e3, e4, e5⟩ := tiles t
  funext j
  obtain ⟨p, q, rfl⟩ : ∃ (p : Fin 5000) (q : Fin 2), j = ix2 p q := ⟨j 0, j 1, eq_ix2 j⟩
  refine (tile_apply (iblk8 V c 0 t) (iblk8 V c 1 t) p q).trans ?_
  show _ = rowsTimes (V c main_v167) (V c main_arg10) (((cfg8.win 2).blk t).view.emb (ix2 p q))
  unfold rowsTimes
  refine Finset.sum_congr rfl fun k _ => ?_
  have hx : iblk8 V c 0 t (ix2 p k) = V c main_v167 (ix2 (n0 := 100000) (n1 := 64) ((((cfg8.win 2).blk t).view.emb (ix2 p q)) 0) k) := by
    show V c main_v167 (((cfg8.win 0).blk t).view.emb (ix2 p k)) = _
    refine congrArg (V c main_v167) (funext fun a => Fin.ext ?_)
    match a with
    | ⟨0, _⟩ => show win8_0.index t (0 : Fin 2) * 5000 + 1 * p.val = win8_2.index t (0 : Fin 2) * 5000 + 1 * p.val; omega
    | ⟨1, _⟩ => show win8_0.index t (1 : Fin 2) * 64 + 1 * k.val = k.val; omega
  have hw : iblk8 V c 1 t (ix2 k q) = V c main_arg10 (ix2 (n0 := 64) (n1 := 2) k ((((cfg8.win 2).blk t).view.emb (ix2 p q)) 1)) := by
    show V c main_arg10 (((cfg8.win 1).blk t).view.emb (ix2 k q)) = _
    refine congrArg (V c main_arg10) (funext fun a => Fin.ext ?_)
    match a with
    | ⟨0, _⟩ => show win8_1.index t (0 : Fin 2) * 64 + 1 * k.val = k.val; omega
    | ⟨1, _⟩ => show win8_1.index t (1 : Fin 2) * 2 + 1 * q.val = win8_2.index t (1 : Fin 2) * 2 + 1 * q.val; omega
  rw [hx, hw]

/-- An index of the output array lies in tile `t` iff each coordinate lies in the tile's range on its axis. -/
theorem mem_tile (t : Fin cfg8.N) (i : S100000x2.Idx) :
    i ∈ ((cfg8.win 2).blk t).view.set ↔ ∀ a : Fin 2, win8_2.index t a * S5000x2.size a ≤ (i a).val ∧ (i a).val < win8_2.index t a * S5000x2.size a + S5000x2.size a := by
  show i ∈ ((View.whole main_v168).slice (win8_2.rect t)).set ↔ _
  rw [View.set_slice_whole, Rect.mem_set_unit]
  exact Iff.rfl

/-- The 20 tiles cover the output array: row `r` is in tile `r / 5000`. -/
theorem covered (i : S100000x2.Idx) : ∃ t : Fin cfg8.N, (cfg8.win 2).flush t = true ∧ i ∈ ((cfg8.win 2).blk t).view.set := by
  have hi0 : (i 0).val < 100000 := (i 0).isLt
  have hi1 : (i 1).val < 2 := (i 1).isLt
  obtain ⟨t, ht⟩ := tiles_onto ⟨(i 0).val / 5000, by omega⟩
  have q0 : win8_2.index t (0 : Fin 2) = (i 0).val / 5000 := congrFun ht 0
  have q1 : win8_2.index t (1 : Fin 2) = 0 := congrFun ht 1
  refine ⟨t, flush8_2 t, ?_⟩
  rw [mem_tile]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 2 ≤ (i 1).val ∧ (i 1).val < win8_2.index t (1 : Fin 2) * 2 + 2; omega

/-- After the last write-back the output array is the product of the whole arrays as the region found them. -/
theorem product (c : Dev nD) :
    (dat8 V c).arrAt 2 cfg8.N = rowsTimes (V c main_v167) (V c main_arg10) :=
  (dat8 V c).arrAt_eq_of_cover 2 _ (fun t _ => flushed_eq V c t) (covered)

end Region

end Cert.KernelIdeal.Dense8

end
-- ==== Proof.Norm1.lean ====
/-
  Bias, batch normalisation with running statistics, and the rectifier of one layer, read off its row-tiled kernel.

  The aggregated features are a `[100000, 128]` array; the bias `b`, the scale `g`, the shift `be`, the running mean `rm`
  and the running variance `rv` are `[1, 128]` rows.  Tile `t` of the kernel loads rows `5000 t … 5000 t + 4999` of the
  features and the five whole rows, and stores, entry by entry,
  `max (((a + b - rm) · (rv + ε)^(-1/2)) · g + be) 0`, each row read at the entry's column.  That is the entry of
  `normRelu` of the WHOLE arrays at `(5000 t + r, j)`; the 20 tiles partition the rows, so after the last write-back
  the output array is `normRelu` of the arrays the region found.
-/
import proofs.«108039_j29265907155154_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Norm1

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- One entry of the normalised and rectified layer: the five rows are read at the entry's column. -/
def normRelu (a : S100000x128.Idx → EReal) (b g be rm rv : S1x128.Idx → EReal) : S100000x128.Idx → EReal :=
  fun i => max ((((a i + b (ix2 (n0 := 1) (n1 := 128) (0 : Fin 1) (i 1))) - rm (ix2 (n0 := 1) (n1 := 128) (0 : Fin 1) (i 1)))
      * Ideal.rsqrt (rv (ix2 (n0 := 1) (n1 := 128) (0 : Fin 1) (i 1)) + Ideal.ofBits .f32 0x3727C5AC#32))
      * g (ix2 (n0 := 1) (n1 := 128) (0 : Fin 1) (i 1)) + be (ix2 (n0 := 1) (n1 := 128) (0 : Fin 1) (i 1))) (Ideal.ofBits .f32 0x00000000#32)

theorem origin : (![0, 0] : Fin 2 → Nat) = fun _ => 0 := funext fun a => by fin_cases a <;> rfl

/-- One entry of a tile's result: the casts to the same shape are the identity, a row broadcast over the tile's rows
    is read at the entry's column, and the arithmetic is the extended reals'. -/
theorem tile_apply (x0 : FVec Ideal S5000x128 .f32) (x1 x2 x3 x4 x5 : FVec Ideal S1x128 .f32) (p : Fin 5000) (q : Fin 128) :
    k1_pay1 (F := Ideal) x0 x1 x5 x4 x2 x3 (ix2 p q)
      = max ((((x0 (ix2 p q) + x1 (ix2 (0 : Fin 1) q)) - x4 (ix2 (0 : Fin 1) q))
          * Ideal.rsqrt (x5 (ix2 (0 : Fin 1) q) + Ideal.ofBits .f32 0x3727C5AC#32))
          * x2 (ix2 (0 : Fin 1) q) + x3 (ix2 (0 : Fin 1) q)) (Ideal.ofBits .f32 0x00000000#32) := by
  unfold k1_pay1
  simp only [shapeCast_self]
  show max ((((x0 (ix2 p q) + broadcastTo S5000x128 x1 broadcasts_S1x128_S5000x128 (ix2 p q)) - broadcastTo S5000x128 x4 broadcasts_S1x128_S5000x128 (ix2 p q))
      * broadcastTo S5000x128 (rsqrt (addf x5 (broadcast S1x128 (Scalar.ofBits .f32 0x3727C5AC#32)))) broadcasts_S1x128_S5000x128 (ix2 p q))
      * broadcastTo S5000x128 x2 broadcasts_S1x128_S5000x128 (ix2 p q) + broadcastTo S5000x128 x3 broadcasts_S1x128_S5000x128 (ix2 p q)) _ = _
  rw [broadcastTo_1b_ab_apply x1, broadcastTo_1b_ab_apply x4, broadcastTo_1b_ab_apply x2, broadcastTo_1b_ab_apply x3,
    broadcastTo_1b_ab_apply (rsqrt (addf x5 (broadcast S1x128 (Scalar.ofBits .f32 0x3727C5AC#32))))]
  rfl

section Region
variable (V : (c : Dev nD) → (b : Ref sig .tc) → Buf (Elt Ideal) ((c : Thread nD τ).loc b))

/-- The tiles' positions, decided over the 20 grid points: tile `t` of the features and of the output starts at row
    block `t`, column block 0; each of the five rows is one block. -/
theorem tiles : ∀ t : Fin cfg1.N, win1_0.index t (0 : Fin 2) = win1_6.index t (0 : Fin 2)
    ∧ win1_0.index t (1 : Fin 2) = 0 ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Every row block is some grid point's. -/
theorem tiles_onto : ∀ (q0 : Fin 20), ∃ t : Fin cfg1.N, win1_6.index t = ![q0.val, 0] :=
  (by decide +kernel : ∀ (q0 : Fin 20), ∃ t : Fin grid1.N, win1_6.index t = ![q0.val, 0])

set_option maxHeartbeats 2000000 in
/-- What grid point `t` writes back is tile `t` of `normRelu` of the whole arrays. -/
theorem flushed_eq (c : Dev nD) (t : Fin cfg1.N) :
    (dat1 V c).flushed 6 t = ((cfg1.win 6).blk t).view.read (Elt Ideal)
      (normRelu (V c main_v44) (V c main_v45) (V c main_v46) (V c main_v47) (V c main_v48) (V c main_v49)) := by
  show (cfg1.win 6).cut (grid1.coords t) ((dat1 V c).after 6 t) = _
  rw [after1_6]
  unfold out1_6
  rw [View.canon_unit_zero origin]
  simp only [View.ld_unit_zero (S := S5000x128) origin, View.ld_unit_zero (S := S1x128) origin]
  obtain ⟨e0, e1, e2, e3, e4, e5, e6, e7, e8, e9, e10, e11, e12⟩ := tiles t
  funext j
  obtain ⟨p, q, rfl⟩ : ∃ (p : Fin 5000) (q : Fin 128), j = ix2 p q := ⟨j 0, j 1, eq_ix2 j⟩
  refine (tile_apply (iblk1 V c 0 t) (iblk1 V c 1 t) (iblk1 V c 2 t) (iblk1 V c 3 t) (iblk1 V c 4 t) (iblk1 V c 5 t) p q).trans ?_
  show _ = normRelu (V c main_v44) (V c main_v45) (V c main_v46) (V c main_v47) (V c main_v48) (V c main_v49) (((cfg1.win 6).blk t).view.emb (ix2 p q))
  unfold normRelu
  have h0 : iblk1 V c 0 t (ix2 p q) = V c main_v44 (((cfg1.win 6).blk t).view.emb (ix2 p q)) := by
    show V c main_v44 (((cfg1.win 0).blk t).view.emb (ix2 p q)) = _
    refine congrArg (V c main_v44) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * q.val = win1_6.index t (1 : Fin 2) * 128 + 1 * q.val; omega
  have h1 : iblk1 V c 1 t (ix2 (0 : Fin 1) q) = V c main_v45 (ix2 (n0 := 1) (n1 := 128) (0 : Fin 1) ((((cfg1.win 6).blk t).view.emb (ix2 p q)) 1)) := by
    show V c main_v45 (((cfg1.win 1).blk t).view.emb (ix2 (0 : Fin 1) q)) = _
    refine congrArg (V c main_v45) (funext fun a => Fin.ext ?_)
    match a with
    | ⟨0, _⟩ => show win1_1.index t (0 : Fin 2) * 1 + 1 * 0 = 0; omega
    | ⟨1, _⟩ => show win1_1.index t (1 : Fin 2) * 128 + 1 * q.val = win1_6.index t (1 : Fin 2) * 128 + 1 * q.val; omega
  have h2 : iblk1 V c 2 t (ix2 (0 : Fin 1) q) = V c main_v46 (ix2 (n0 := 1) (n1 := 128) (0 : Fin 1) ((((cfg1.win 6).blk t).view.emb (ix2 p q)) 1)) := by
    show V c main_v46 (((cfg1.win 2).blk t).view.emb (ix2 (0 : Fin 1) q)) = _
    refine congrArg (V c main_v46) (funext fun a => Fin.ext ?_)
    match a with
    | ⟨0, _⟩ => show win1_2.index t (0 : Fin 2) * 1 + 1 * 0 = 0; omega
    | ⟨1, _⟩ => show win1_2.index t (1 : Fin 2) * 128 + 1 * q.val = win1_6.index t (1 : Fin 2) * 128 + 1 * q.val; omega
  have h3 : iblk1 V c 3 t (ix2 (0 : Fin 1) q) = V c main_v47 (ix2 (n0 := 1) (n1 := 128) (0 : Fin 1) ((((cfg1.win 6).blk t).view.emb (ix2 p q)) 1)) := by
    show V c main_v47 (((cfg1.win 3).blk t).view.emb (ix2 (0 : Fin 1) q)) = _
    refine congrArg (V c main_v47) (funext fun a => Fin.ext ?_)
    match a with
    | ⟨0, _⟩ => show win1_3.index t (0 : Fin 2) * 1 + 1 * 0 = 0; omega
    | ⟨1, _⟩ => show win1_3.index t (1 : Fin 2) * 128 + 1 * q.val = win1_6.index t (1 : Fin 2) * 128 + 1 * q.val; omega
  have h4 : iblk1 V c 4 t (ix2 (0 : Fin 1) q) = V c main_v48 (ix2 (n0 := 1) (n1 := 128) (0 : Fin 1) ((((cfg1.win 6).blk t).view.emb (ix2 p q)) 1)) := by
    show V c main_v48 (((cfg1.win 4).blk t).view.emb (ix2 (0 : Fin 1) q)) = _
    refine congrArg (V c main_v48) (funext fun a => Fin.ext ?_)
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  have h5 : iblk1 V c 5 t (ix2 (0 : Fin 1) q) = V c main_v49 (ix2 (n0 := 1) (n1 := 128) (0 : Fin 1) ((((cfg1.win 6).blk t).view.emb (ix2 p q)) 1)) := by
    show V c main_v49 (((cfg1.win 5).blk t).view.emb (ix2 (0 : Fin 1) q)) = _
    refine congrArg (V c main_v49) (funext fun a => Fin.ext ?_)
    match a with
    | ⟨0, _⟩ => show win1_5.index t (0 : Fin 2) * 1 + 1 * 0 = 0; omega
    | ⟨1, _⟩ => show win1_5.index t (1 : Fin 2) * 128 + 1 * q.val = win1_6.index t (1 : Fin 2) * 128 + 1 * q.val; omega
  rw [h0, h1, h2, h3, h4, h5]

/-- An index of the output array lies in tile `t` iff each coordinate lies in the tile's range on its axis. -/
theorem mem_tile (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v50).slice (win1_6.rect t)).set ↔ _
  rw [View.set_slice_whole, Rect.mem_set_unit]
  exact Iff.rfl

/-- The 20 tiles cover the output array: row `r` is in tile `r / 5000`. -/
theorem covered (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := tiles_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_tile]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the last write-back the output array is `normRelu` of the arrays as the region found them. -/
theorem activation (c : Dev nD) :
    (dat1 V c).arrAt 6 cfg1.N = normRelu (V c main_v44) (V c main_v45) (V c main_v46) (V c main_v47) (V c main_v48) (V c main_v49) :=
  (dat1 V c).arrAt_eq_of_cover 6 _ (fun t _ => flushed_eq V c t) (covered)

end Region

end Cert.KernelIdeal.Norm1

end
-- ==== Proof.Norm3.lean ====
/-
  Bias, batch normalisation with running statistics, and the rectifier of one layer, read off its row-tiled kernel.

  The aggregated features are a `[100000, 128]` array; the bias `b`, the scale `g`, the shift `be`, the running mean `rm`
  and the running variance `rv` are `[1, 128]` rows.  Tile `t` of the kernel loads rows `5000 t … 5000 t + 4999` of the
  features and the five whole rows, and stores, entry by entry,
  `max (((a + b - rm) · (rv + ε)^(-1/2)) · g + be) 0`, each row read at the entry's column.  That is the entry of
  `normRelu` of the WHOLE arrays at `(5000 t + r, j)`; the 20 tiles partition the rows, so after the last write-back
  the output array is `normRelu` of the arrays the region found.
-/
import proofs.«108039_j29265907155154_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Norm3

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- One entry of the normalised and rectified layer: the five rows are read at the entry's column. -/
def normRelu (a : S100000x128.Idx → EReal) (b g be rm rv : S1x128.Idx → EReal) : S100000x128.Idx → EReal :=
  fun i => max ((((a i + b (ix2 (n0 := 1) (n1 := 128) (0 : Fin 1) (i 1))) - rm (ix2 (n0 := 1) (n1 := 128) (0 : Fin 1) (i 1)))
      * Ideal.rsqrt (rv (ix2 (n0 := 1) (n1 := 128) (0 : Fin 1) (i 1)) + Ideal.ofBits .f32 0x3727C5AC#32))
      * g (ix2 (n0 := 1) (n1 := 128) (0 : Fin 1) (i 1)) + be (ix2 (n0 := 1) (n1 := 128) (0 : Fin 1) (i 1))) (Ideal.ofBits .f32 0x00000000#32)

theorem origin : (![0, 0] : Fin 2 → Nat) = fun _ => 0 := funext fun a => by fin_cases a <;> rfl

/-- One entry of a tile's result: the casts to the same shape are the identity, a row broadcast over the tile's rows
    is read at the entry's column, and the arithmetic is the extended reals'. -/
theorem tile_apply (x0 : FVec Ideal S5000x128 .f32) (x1 x2 x3 x4 x5 : FVec Ideal S1x128 .f32) (p : Fin 5000) (q : Fin 128) :
    k3_pay1 (F := Ideal) x0 x1 x5 x4 x2 x3 (ix2 p q)
      = max ((((x0 (ix2 p q) + x1 (ix2 (0 : Fin 1) q)) - x4 (ix2 (0 : Fin 1) q))
          * Ideal.rsqrt (x5 (ix2 (0 : Fin 1) q) + Ideal.ofBits .f32 0x3727C5AC#32))
          * x2 (ix2 (0 : Fin 1) q) + x3 (ix2 (0 : Fin 1) q)) (Ideal.ofBits .f32 0x00000000#32) := by
  unfold k3_pay1
  simp only [shapeCast_self]
  show max ((((x0 (ix2 p q) + broadcastTo S5000x128 x1 broadcasts_S1x128_S5000x128 (ix2 p q)) - broadcastTo S5000x128 x4 broadcasts_S1x128_S5000x128 (ix2 p q))
      * broadcastTo S5000x128 (rsqrt (addf x5 (broadcast S1x128 (Scalar.ofBits .f32 0x3727C5AC#32)))) broadcasts_S1x128_S5000x128 (ix2 p q))
      * broadcastTo S5000x128 x2 broadcasts_S1x128_S5000x128 (ix2 p q) + broadcastTo S5000x128 x3 broadcasts_S1x128_S5000x128 (ix2 p q)) _ = _
  rw [broadcastTo_1b_ab_apply x1, broadcastTo_1b_ab_apply x4, broadcastTo_1b_ab_apply x2, broadcastTo_1b_ab_apply x3,
    broadcastTo_1b_ab_apply (rsqrt (addf x5 (broadcast S1x128 (Scalar.ofBits .f32 0x3727C5AC#32))))]
  rfl

section Region
variable (V : (c : Dev nD) → (b : Ref sig .tc) → Buf (Elt Ideal) ((c : Thread nD τ).loc b))

/-- The tiles' positions, decided over the 20 grid points: tile `t` of the features and of the output starts at row
    block `t`, column block 0; each of the five rows is one block. -/
theorem tiles : ∀ t : Fin cfg3.N, win3_0.index t (0 : Fin 2) = win3_6.index t (0 : Fin 2)
    ∧ win3_0.index t (1 : Fin 2) = 0 ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Every row block is some grid point's. -/
theorem tiles_onto : ∀ (q0 : Fin 20), ∃ t : Fin cfg3.N, win3_6.index t = ![q0.val, 0] :=
  (by decide +kernel : ∀ (q0 : Fin 20), ∃ t : Fin grid3.N, win3_6.index t = ![q0.val, 0])

set_option maxHeartbeats 2000000 in
/-- What grid point `t` writes back is tile `t` of `normRelu` of the whole arrays. -/
theorem flushed_eq (c : Dev nD) (t : Fin cfg3.N) :
    (dat3 V c).flushed 6 t = ((cfg3.win 6).blk t).view.read (Elt Ideal)
      (normRelu (V c main_v83) (V c main_v84) (V c main_v85) (V c main_v86) (V c main_v87) (V c main_v88)) := by
  show (cfg3.win 6).cut (grid3.coords t) ((dat3 V c).after 6 t) = _
  rw [after3_6]
  unfold out3_6
  rw [View.canon_unit_zero origin]
  simp only [View.ld_unit_zero (S := S5000x128) origin, View.ld_unit_zero (S := S1x128) origin]
  obtain ⟨e0, e1, e2, e3, e4, e5, e6, e7, e8, e9, e10, e11, e12⟩ := tiles t
  funext j
  obtain ⟨p, q, rfl⟩ : ∃ (p : Fin 5000) (q : Fin 128), j = ix2 p q := ⟨j 0, j 1, eq_ix2 j⟩
  refine (tile_apply (iblk3 V c 0 t) (iblk3 V c 1 t) (iblk3 V c 2 t) (iblk3 V c 3 t) (iblk3 V c 4 t) (iblk3 V c 5 t) p q).trans ?_
  show _ = normRelu (V c main_v83) (V c main_v84) (V c main_v85) (V c main_v86) (V c main_v87) (V c main_v88) (((cfg3.win 6).blk t).view.emb (ix2 p q))
  unfold normRelu
  have h0 : iblk3 V c 0 t (ix2 p q) = V c main_v83 (((cfg3.win 6).blk t).view.emb (ix2 p q)) := by
    show V c main_v83 (((cfg3.win 0).blk t).view.emb (ix2 p q)) = _
    refine congrArg (V c main_v83) (funext fun a => Fin.ext ?_)
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * q.val = win3_6.index t (1 : Fin 2) * 128 + 1 * q.val; omega
  have h1 : iblk3 V c 1 t (ix2 (0 : Fin 1) q) = V c main_v84 (ix2 (n0 := 1) (n1 := 128) (0 : Fin 1) ((((cfg3.win 6).blk t).view.emb (ix2 p q)) 1)) := by
    show V c main_v84 (((cfg3.win 1).blk t).view.emb (ix2 (0 : Fin 1) q)) = _
    refine congrArg (V c main_v84) (funext fun a => Fin.ext ?_)
    match a with
    | ⟨0, _⟩ => show win3_1.index t (0 : Fin 2) * 1 + 1 * 0 = 0; omega
    | ⟨1, _⟩ => show win3_1.index t (1 : Fin 2) * 128 + 1 * q.val = win3_6.index t (1 : Fin 2) * 128 + 1 * q.val; omega
  have h2 : iblk3 V c 2 t (ix2 (0 : Fin 1) q) = V c main_v85 (ix2 (n0 := 1) (n1 := 128) (0 : Fin 1) ((((cfg3.win 6).blk t).view.emb (ix2 p q)) 1)) := by
    show V c main_v85 (((cfg3.win 2).blk t).view.emb (ix2 (0 : Fin 1) q)) = _
    refine congrArg (V c main_v85) (funext fun a => Fin.ext ?_)
    match a with
    | ⟨0, _⟩ => show win3_2.index t (0 : Fin 2) * 1 + 1 * 0 = 0; omega
    | ⟨1, _⟩ => show win3_2.index t (1 : Fin 2) * 128 + 1 * q.val = win3_6.index t (1 : Fin 2) * 128 + 1 * q.val; omega
  have h3 : iblk3 V c 3 t (ix2 (0 : Fin 1) q) = V c main_v86 (ix2 (n0 := 1) (n1 := 128) (0 : Fin 1) ((((cfg3.win 6).blk t).view.emb (ix2 p q)) 1)) := by
    show V c main_v86 (((cfg3.win 3).blk t).view.emb (ix2 (0 : Fin 1) q)) = _
    refine congrArg (V c main_v86) (funext fun a => Fin.ext ?_)
    match a with
    | ⟨0, _⟩ => show win3_3.index t (0 : Fin 2) * 1 + 1 * 0 = 0; omega
    | ⟨1, _⟩ => show win3_3.index t (1 : Fin 2) * 128 + 1 * q.val = win3_6.index t (1 : Fin 2) * 128 + 1 * q.val; omega
  have h4 : iblk3 V c 4 t (ix2 (0 : Fin 1) q) = V c main_v87 (ix2 (n0 := 1) (n1 := 128) (0 : Fin 1) ((((cfg3.win 6).blk t).view.emb (ix2 p q)) 1)) := by
    show V c main_v87 (((cfg3.win 4).blk t).view.emb (ix2 (0 : Fin 1) q)) = _
    refine congrArg (V c main_v87) (funext fun a => Fin.ext ?_)
    match a with
    | ⟨0, _⟩ => show win3_4.index t (0 : Fin 2) * 1 + 1 * 0 = 0; omega
    | ⟨1, _⟩ => show win3_4.index t (1 : Fin 2) * 128 + 1 * q.val = win3_6.index t (1 : Fin 2) * 128 + 1 * q.val; omega
  have h5 : iblk3 V c 5 t (ix2 (0 : Fin 1) q) = V c main_v88 (ix2 (n0 := 1) (n1 := 128) (0 : Fin 1) ((((cfg3.win 6).blk t).view.emb (ix2 p q)) 1)) := by
    show V c main_v88 (((cfg3.win 5).blk t).view.emb (ix2 (0 : Fin 1) q)) = _
    refine congrArg (V c main_v88) (funext fun a => Fin.ext ?_)
    match a with
    | ⟨0, _⟩ => show win3_5.index t (0 : Fin 2) * 1 + 1 * 0 = 0; omega
    | ⟨1, _⟩ => show win3_5.index t (1 : Fin 2) * 128 + 1 * q.val = win3_6.index t (1 : Fin 2) * 128 + 1 * q.val; omega
  rw [h0, h1, h2, h3, h4, h5]

/-- An index of the output array lies in tile `t` iff each coordinate lies in the tile's range on its axis. -/
theorem mem_tile (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v89).slice (win3_6.rect t)).set ↔ _
  rw [View.set_slice_whole, Rect.mem_set_unit]
  exact Iff.rfl

/-- The 20 tiles cover the output array: row `r` is in tile `r / 5000`. -/
theorem covered (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ := tiles_onto ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_tile]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- After the last write-back the output array is `normRelu` of the arrays as the region found them. -/
theorem activation (c : Dev nD) :
    (dat3 V c).arrAt 6 cfg3.N = normRelu (V c main_v83) (V c main_v84) (V c main_v85) (V c main_v86) (V c main_v87) (V c main_v88) :=
  (dat3 V c).arrAt_eq_of_cover 6 _ (fun t _ => flushed_eq V c t) (covered)

end Region

end Cert.KernelIdeal.Norm3

end
-- ==== Proof.Norm5.lean ====
/-
  Bias, batch normalisation with running statistics, and the rectifier of one layer, read off its row-tiled kernel.

  The aggregated features are a `[100000, 128]` array; the bias `b`, the scale `g`, the shift `be`, the running mean `rm`
  and the running variance `rv` are `[1, 128]` rows.  Tile `t` of the kernel loads rows `5000 t … 5000 t + 4999` of the
  features and the five whole rows, and stores, entry by entry,
  `max (((a + b - rm) · (rv + ε)^(-1/2)) · g + be) 0`, each row read at the entry's column.  That is the entry of
  `normRelu` of the WHOLE arrays at `(5000 t + r, j)`; the 20 tiles partition the rows, so after the last write-back
  the output array is `normRelu` of the arrays the region found.
-/
import proofs.«108039_j29265907155154_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Norm5

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- One entry of the normalised and rectified layer: the five rows are read at the entry's column. -/
def normRelu (a : S100000x128.Idx → EReal) (b g be rm rv : S1x128.Idx → EReal) : S100000x128.Idx → EReal :=
  fun i => max ((((a i + b (ix2 (n0 := 1) (n1 := 128) (0 : Fin 1) (i 1))) - rm (ix2 (n0 := 1) (n1 := 128) (0 : Fin 1) (i 1)))
      * Ideal.rsqrt (rv (ix2 (n0 := 1) (n1 := 128) (0 : Fin 1) (i 1)) + Ideal.ofBits .f32 0x3727C5AC#32))
      * g (ix2 (n0 := 1) (n1 := 128) (0 : Fin 1) (i 1)) + be (ix2 (n0 := 1) (n1 := 128) (0 : Fin 1) (i 1))) (Ideal.ofBits .f32 0x00000000#32)

theorem origin : (![0, 0] : Fin 2 → Nat) = fun _ => 0 := funext fun a => by fin_cases a <;> rfl

/-- One entry of a tile's result: the casts to the same shape are the identity, a row broadcast over the tile's rows
    is read at the entry's column, and the arithmetic is the extended reals'. -/
theorem tile_apply (x0 : FVec Ideal S5000x128 .f32) (x1 x2 x3 x4 x5 : FVec Ideal S1x128 .f32) (p : Fin 5000) (q : Fin 128) :
    k5_pay1 (F := Ideal) x0 x1 x5 x4 x2 x3 (ix2 p q)
      = max ((((x0 (ix2 p q) + x1 (ix2 (0 : Fin 1) q)) - x4 (ix2 (0 : Fin 1) q))
          * Ideal.rsqrt (x5 (ix2 (0 : Fin 1) q) + Ideal.ofBits .f32 0x3727C5AC#32))
          * x2 (ix2 (0 : Fin 1) q) + x3 (ix2 (0 : Fin 1) q)) (Ideal.ofBits .f32 0x00000000#32) := by
  unfold k5_pay1
  simp only [shapeCast_self]
  show max ((((x0 (ix2 p q) + broadcastTo S5000x128 x1 broadcasts_S1x128_S5000x128 (ix2 p q)) - broadcastTo S5000x128 x4 broadcasts_S1x128_S5000x128 (ix2 p q))
      * broadcastTo S5000x128 (rsqrt (addf x5 (broadcast S1x128 (Scalar.ofBits .f32 0x3727C5AC#32)))) broadcasts_S1x128_S5000x128 (ix2 p q))
      * broadcastTo S5000x128 x2 broadcasts_S1x128_S5000x128 (ix2 p q) + broadcastTo S5000x128 x3 broadcasts_S1x128_S5000x128 (ix2 p q)) _ = _
  rw [broadcastTo_1b_ab_apply x1, broadcastTo_1b_ab_apply x4, broadcastTo_1b_ab_apply x2, broadcastTo_1b_ab_apply x3,
    broadcastTo_1b_ab_apply (rsqrt (addf x5 (broadcast S1x128 (Scalar.ofBits .f32 0x3727C5AC#32))))]
  rfl

section Region
variable (V : (c : Dev nD) → (b : Ref sig .tc) → Buf (Elt Ideal) ((c : Thread nD τ).loc b))

/-- The tiles' positions, decided over the 20 grid points: tile `t` of the features and of the output starts at row
    block `t`, column block 0; each of the five rows is one block. -/
theorem tiles : ∀ t : Fin cfg5.N, win5_0.index t (0 : Fin 2) = win5_6.index t (0 : Fin 2)
    ∧ win5_0.index t (1 : Fin 2) = 0 ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- Every row block is some grid point's. -/
theorem tiles_onto : ∀ (q0 : Fin 20), ∃ t : Fin cfg5.N, win5_6.index t = ![q0.val, 0] :=
  (by decide +kernel : ∀ (q0 : Fin 20), ∃ t : Fin grid5.N, win5_6.index t = ![q0.val, 0])

set_option maxHeartbeats 2000000 in
/-- What grid point `t` writes back is tile `t` of `normRelu` of the whole arrays. -/
theorem flushed_eq (c : Dev nD) (t : Fin cfg5.N) :
    (dat5 V c).flushed 6 t = ((cfg5.win 6).blk t).view.read (Elt Ideal)
      (normRelu (V c main_v122) (V c main_v123) (V c main_v124) (V c main_v125) (V c main_v126) (V c main_v127)) := by
  show (cfg5.win 6).cut (grid5.coords t) ((dat5 V c).after 6 t) = _
  rw [after5_6]
  unfold out5_6
  rw [View.canon_unit_zero origin]
  simp only [View.ld_unit_zero (S := S5000x128) origin, View.ld_unit_zero (S := S1x128) origin]
  obtain ⟨e0, e1, e2, e3, e4, e5, e6, e7, e8, e9, e10, e11, e12⟩ := tiles t
  funext j
  obtain ⟨p, q, rfl⟩ : ∃ (p : Fin 5000) (q : Fin 128), j = ix2 p q := ⟨j 0, j 1, eq_ix2 j⟩
  refine (tile_apply (iblk5 V c 0 t) (iblk5 V c 1 t) (iblk5 V c 2 t) (iblk5 V c 3 t) (iblk5 V c 4 t) (iblk5 V c 5 t) p q).trans ?_
  show _ = normRelu (V c main_v122) (V c main_v123) (V c main_v124) (V c main_v125) (V c main_v126) (V c main_v127) (((cfg5.win 6).blk t).view.emb (ix2 p q))
  unfold normRelu
  have h0 : iblk5 V c 0 t (ix2 p q) = V c main_v122 (((cfg5.win 6).blk t).view.emb (ix2 p q)) := by
    show V c main_v122 (((cfg5.win 0).blk t).view.emb (ix2 p q)) = _
    refine congrArg (V c main_v122) (funext fun a => Fin.ext ?_)
    match a with
    | ⟨0, _⟩ => show win5_0.index t (0 : Fin 2) * 5000 + 1 * p.val = win5_6.index t (0 : Fin 2) * 5000 + 1 * p.val; omega
    | ⟨1, _⟩ => show win5_0.index t (1 : Fin 2) * 128 + 1 * q.val = win5_6.index t (1 : Fin 2) * 128 + 1 * q.val; omega
  have h1 : iblk5 V c 1 t (ix2 (0 : Fin 1) q) = V c main_v123 (ix2 (n0 := 1) (n1 := 128) (0 : Fin 1) ((((cfg5.win 6).blk t).view.emb (ix2 p q)) 1)) := by
    show V c main_v123 (((cfg5.win 1).blk t).view.emb (ix2 (0 : Fin 1) q)) = _
    refine congrArg (V c main_v123) (funext fun a => Fin.ext ?_)
    match a with
    | ⟨0, _⟩ => show win5_1.index t (0 : Fin 2) * 1 + 1 * 0 = 0; omega
    | ⟨1, _⟩ => show win5_1.index t (1 : Fin 2) * 128 + 1 * q.val = win5_6.index t (1 : Fin 2) * 128 + 1 * q.val; omega
  have h2 : iblk5 V c 2 t (ix2 (0 : Fin 1) q) = V c main_v124 (ix2 (n0 := 1) (n1 := 128) (0 : Fin 1) ((((cfg5.win 6).blk t).view.emb (ix2 p q)) 1)) := by
    show V c main_v124 (((cfg5.win 2).blk t).view.emb (ix2 (0 : Fin 1) q)) = _
    refine congrArg (V c main_v124) (funext fun a => Fin.ext ?_)
    match a with
    | ⟨0, _⟩ => show win5_2.index t (0 : Fin 2) * 1 + 1 * 0 = 0; omega
    | ⟨1, _⟩ => show win5_2.index t (1 : Fin 2) * 128 + 1 * q.val = win5_6.index t (1 : Fin 2) * 128 + 1 * q.val; omega
  have h3 : iblk5 V c 3 t (ix2 (0 : Fin 1) q) = V c main_v125 (ix2 (n0 := 1) (n1 := 128) (0 : Fin 1) ((((cfg5.win 6).blk t).view.emb (ix2 p q)) 1)) := by
    show V c main_v125 (((cfg5.win 3).blk t).view.emb (ix2 (0 : Fin 1) q)) = _
    refine congrArg (V c main_v125) (funext fun a => Fin.ext ?_)
    match a with
    | ⟨0, _⟩ => show win5_3.index t (0 : Fin 2) * 1 + 1 * 0 = 0; omega
    | ⟨1, _⟩ => show win5_3.index t (1 : Fin 2) * 128 + 1 * q.val = win5_6.index t (1 : Fin 2) * 128 + 1 * q.val; omega
  have h4 : iblk5 V c 4 t (ix2 (0 : Fin 1) q) = V c main_v126 (ix2 (n0 := 1) (n1 := 128) (0 : Fin 1) ((((cfg5.win 6).blk t).view.emb (ix2 p q)) 1)) := by
    show V c main_v126 (((cfg5.win 4).blk t).view.emb (ix2 (0 : Fin 1) q)) = _
    refine congrArg (V c main_v126) (funext fun a => Fin.ext ?_)
    match a with
    | ⟨0, _⟩ => show win5_4.index t (0 : Fin 2) * 1 + 1 * 0 = 0; omega
    | ⟨1, _⟩ => show win5_4.index t (1 : Fin 2) * 128 + 1 * q.val = win5_6.index t (1 : Fin 2) * 128 + 1 * q.val; omega
  have h5 : iblk5 V c 5 t (ix2 (0 : Fin 1) q) = V c main_v127 (ix2 (n0 := 1) (n1 := 128) (0 : Fin 1) ((((cfg5.win 6).blk t).view.emb (ix2 p q)) 1)) := by
    show V c main_v127 (((cfg5.win 5).blk t).view.emb (ix2 (0 : Fin 1) q)) = _
    refine congrArg (V c main_v127) (funext fun a => Fin.ext ?_)
    match a with
    | ⟨0, _⟩ => show win5_5.index t (0 : Fin 2) * 1 + 1 * 0 = 0; omega
    | ⟨1, _⟩ => show win5_5.index t (1 : Fin 2) * 128 + 1 * q.val = win5_6.index t (1 : Fin 2) * 128 + 1 * q.val; omega
  rw [h0, h1, h2, h3, h4, h5]

/-- An index of the output array lies in tile `t` iff each coordinate lies in the tile's range on its axis. -/
theorem mem_tile (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v128).slice (win5_6.rect t)).set ↔ _
  rw [View.set_slice_whole, Rect.mem_set_unit]
  exact Iff.rfl

/-- The 20 tiles cover the output array: row `r` is in tile `r / 5000`. -/
theorem covered (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  obtain ⟨t, ht⟩ := tiles_onto ⟨(i 0).val / 5000, by omega⟩
  have q0 : win5_6.index t (0 : Fin 2) = (i 0).val / 5000 := congrFun ht 0
  have q1 : win5_6.index t (1 : Fin 2) = 0 := congrFun ht 1
  refine ⟨t, flush5_6 t, ?_⟩
  rw [mem_tile]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- After the last write-back the output array is `normRelu` of the arrays as the region found them. -/
theorem activation (c : Dev nD) :
    (dat5 V c).arrAt 6 cfg5.N = normRelu (V c main_v122) (V c main_v123) (V c main_v124) (V c main_v125) (V c main_v126) (V c main_v127) :=
  (dat5 V c).arrAt_eq_of_cover 6 _ (fun t _ => flushed_eq V c t) (covered)

end Region

end Cert.KernelIdeal.Norm5

end
-- ==== Proof.Norm7.lean ====
/-
  Bias, batch normalisation with running statistics, and the rectifier of one layer, read off its row-tiled kernel.

  The aggregated features are a `[100000, 64]` array; the bias `b`, the scale `g`, the shift `be`, the running mean `rm`
  and the running variance `rv` are `[1, 64]` rows.  Tile `t` of the kernel loads rows `5000 t … 5000 t + 4999` of the
  features and the five whole rows, and stores, entry by entry,
  `max (((a + b - rm) · (rv + ε)^(-1/2)) · g + be) 0`, each row read at the entry's column.  That is the entry of
  `normRelu` of the WHOLE arrays at `(5000 t + r, j)`; the 20 tiles partition the rows, so after the last write-back
  the output array is `normRelu` of the arrays the region found.
-/
import proofs.«108039_j29265907155154_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Norm7

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- One entry of the normalised and rectified layer: the five rows are read at the entry's column. -/
def normRelu (a : S100000x64.Idx → EReal) (b g be rm rv : S1x64.Idx → EReal) : S100000x64.Idx → EReal :=
  fun i => max ((((a i + b (ix2 (n0 := 1) (n1 := 64) (0 : Fin 1) (i 1))) - rm (ix2 (n0 := 1) (n1 := 64) (0 : Fin 1) (i 1)))
      * Ideal.rsqrt (rv (ix2 (n0 := 1) (n1 := 64) (0 : Fin 1) (i 1)) + Ideal.ofBits .f32 0x3727C5AC#32))
      * g (ix2 (n0 := 1) (n1 := 64) (0 : Fin 1) (i 1)) + be (ix2 (n0 := 1) (n1 := 64) (0 : Fin 1) (i 1))) (Ideal.ofBits .f32 0x00000000#32)

theorem origin : (![0, 0] : Fin 2 → Nat) = fun _ => 0 := funext fun a => by fin_cases a <;> rfl

/-- One entry of a tile's result: the casts to the same shape are the identity, a row broadcast over the tile's rows
    is read at the entry's column, and the arithmetic is the extended reals'. -/
theorem tile_apply (x0 : FVec Ideal S5000x64 .f32) (x1 x2 x3 x4 x5 : FVec Ideal S1x64 .f32) (p : Fin 5000) (q : Fin 64) :
    k7_pay1 (F := Ideal) x0 x1 x5 x4 x2 x3 (ix2 p q)
      = max ((((x0 (ix2 p q) + x1 (ix2 (0 : Fin 1) q)) - x4 (ix2 (0 : Fin 1) q))
          * Ideal.rsqrt (x5 (ix2 (0 : Fin 1) q) + Ideal.ofBits .f32 0x3727C5AC#32))
          * x2 (ix2 (0 : Fin 1) q) + x3 (ix2 (0 : Fin 1) q)) (Ideal.ofBits .f32 0x00000000#32) := by
  unfold k7_pay1
  simp only [shapeCast_self]
  show max ((((x0 (ix2 p q) + broadcastTo S5000x64 x1 broadcasts_S1x64_S5000x64 (ix2 p q)) - broadcastTo S5000x64 x4 broadcasts_S1x64_S5000x64 (ix2 p q))
      * broadcastTo S5000x64 (rsqrt (addf x5 (broadcast S1x64 (Scalar.ofBits .f32 0x3727C5AC#32)))) broadcasts_S1x64_S5000x64 (ix2 p q))
      * broadcastTo S5000x64 x2 broadcasts_S1x64_S5000x64 (ix2 p q) + broadcastTo S5000x64 x3 broadcasts_S1x64_S5000x64 (ix2 p q)) _ = _
  rw [broadcastTo_1b_ab_apply x1, broadcastTo_1b_ab_apply x4, broadcastTo_1b_ab_apply x2, broadcastTo_1b_ab_apply x3,
    broadcastTo_1b_ab_apply (rsqrt (addf x5 (broadcast S1x64 (Scalar.ofBits .f32 0x3727C5AC#32))))]
  rfl

section Region
variable (V : (c : Dev nD) → (b : Ref sig .tc) → Buf (Elt Ideal) ((c : Thread nD τ).loc b))

/-- The tiles' positions, decided over the 20 grid points: tile `t` of the features and of the output starts at row
    block `t`, column block 0; each of the five rows is one block. -/
theorem tiles : ∀ t : Fin cfg7.N, win7_0.index t (0 : Fin 2) = win7_6.index t (0 : Fin 2)
    ∧ win7_0.index t (1 : Fin 2) = 0 ∧ win7_6.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- Every row block is some grid point's. -/
theorem tiles_onto : ∀ (q0 : Fin 20), ∃ t : Fin cfg7.N, win7_6.index t = ![q0.val, 0] :=
  (by decide +kernel : ∀ (q0 : Fin 20), ∃ t : Fin grid7.N, win7_6.index t = ![q0.val, 0])

set_option maxHeartbeats 2000000 in
/-- What grid point `t` writes back is tile `t` of `normRelu` of the whole arrays. -/
theorem flushed_eq (c : Dev nD) (t : Fin cfg7.N) :
    (dat7 V c).flushed 6 t = ((cfg7.win 6).blk t).view.read (Elt Ideal)
      (normRelu (V c main_v161) (V c main_v162) (V c main_v163) (V c main_v164) (V c main_v165) (V c main_v166)) := by
  show (cfg7.win 6).cut (grid7.coords t) ((dat7 V c).after 6 t) = _
  rw [after7_6]
  unfold out7_6
  rw [View.canon_unit_zero origin]
  simp only [View.ld_unit_zero (S := S5000x64) origin, View.ld_unit_zero (S := S1x64) origin]
  obtain ⟨e0, e1, e2, e3, e4, e5, e6, e7, e8, e9, e10, e11, e12⟩ := tiles t
  funext j
  obtain ⟨p, q, rfl⟩ : ∃ (p : Fin 5000) (q : Fin 64), j = ix2 p q := ⟨j 0, j 1, eq_ix2 j⟩
  refine (tile_apply (iblk7 V c 0 t) (iblk7 V c 1 t) (iblk7 V c 2 t) (iblk7 V c 3 t) (iblk7 V c 4 t) (iblk7 V c 5 t) p q).trans ?_
  show _ = normRelu (V c main_v161) (V c main_v162) (V c main_v163) (V c main_v164) (V c main_v165) (V c main_v166) (((cfg7.win 6).blk t).view.emb (ix2 p q))
  unfold normRelu
  have h0 : iblk7 V c 0 t (ix2 p q) = V c main_v161 (((cfg7.win 6).blk t).view.emb (ix2 p q)) := by
    show V c main_v161 (((cfg7.win 0).blk t).view.emb (ix2 p q)) = _
    refine congrArg (V c main_v161) (funext fun a => Fin.ext ?_)
    match a with
    | ⟨0, _⟩ => show win7_0.index t (0 : Fin 2) * 5000 + 1 * p.val = win7_6.index t (0 : Fin 2) * 5000 + 1 * p.val; omega
    | ⟨1, _⟩ => show win7_0.index t (1 : Fin 2) * 64 + 1 * q.val = win7_6.index t (1 : Fin 2) * 64 + 1 * q.val; omega
  have h1 : iblk7 V c 1 t (ix2 (0 : Fin 1) q) = V c main_v162 (ix2 (n0 := 1) (n1 := 64) (0 : Fin 1) ((((cfg7.win 6).blk t).view.emb (ix2 p q)) 1)) := by
    show V c main_v162 (((cfg7.win 1).blk t).view.emb (ix2 (0 : Fin 1) q)) = _
    refine congrArg (V c main_v162) (funext fun a => Fin.ext ?_)
    match a with
    | ⟨0, _⟩ => show win7_1.index t (0 : Fin 2) * 1 + 1 * 0 = 0; omega
    | ⟨1, _⟩ => show win7_1.index t (1 : Fin 2) * 64 + 1 * q.val = win7_6.index t (1 : Fin 2) * 64 + 1 * q.val; omega
  have h2 : iblk7 V c 2 t (ix2 (0 : Fin 1) q) = V c main_v163 (ix2 (n0 := 1) (n1 := 64) (0 : Fin 1) ((((cfg7.win 6).blk t).view.emb (ix2 p q)) 1)) := by
    show V c main_v163 (((cfg7.win 2).blk t).view.emb (ix2 (0 : Fin 1) q)) = _
    refine congrArg (V c main_v163) (funext fun a => Fin.ext ?_)
    match a with
    | ⟨0, _⟩ => show win7_2.index t (0 : Fin 2) * 1 + 1 * 0 = 0; omega
    | ⟨1, _⟩ => show win7_2.index t (1 : Fin 2) * 64 + 1 * q.val = win7_6.index t (1 : Fin 2) * 64 + 1 * q.val; omega
  have h3 : iblk7 V c 3 t (ix2 (0 : Fin 1) q) = V c main_v164 (ix2 (n0 := 1) (n1 := 64) (0 : Fin 1) ((((cfg7.win 6).blk t).view.emb (ix2 p q)) 1)) := by
    show V c main_v164 (((cfg7.win 3).blk t).view.emb (ix2 (0 : Fin 1) q)) = _
    refine congrArg (V c main_v164) (funext fun a => Fin.ext ?_)
    match a with
    | ⟨0, _⟩ => show win7_3.index t (0 : Fin 2) * 1 + 1 * 0 = 0; omega
    | ⟨1, _⟩ => show win7_3.index t (1 : Fin 2) * 64 + 1 * q.val = win7_6.index t (1 : Fin 2) * 64 + 1 * q.val; omega
  have h4 : iblk7 V c 4 t (ix2 (0 : Fin 1) q) = V c main_v165 (ix2 (n0 := 1) (n1 := 64) (0 : Fin 1) ((((cfg7.win 6).blk t).view.emb (ix2 p q)) 1)) := by
    show V c main_v165 (((cfg7.win 4).blk t).view.emb (ix2 (0 : Fin 1) q)) = _
    refine congrArg (V c main_v165) (funext fun a => Fin.ext ?_)
    match a with
    | ⟨0, _⟩ => show win7_4.index t (0 : Fin 2) * 1 + 1 * 0 = 0; omega
    | ⟨1, _⟩ => show win7_4.index t (1 : Fin 2) * 64 + 1 * q.val = win7_6.index t (1 : Fin 2) * 64 + 1 * q.val; omega
  have h5 : iblk7 V c 5 t (ix2 (0 : Fin 1) q) = V c main_v166 (ix2 (n0 := 1) (n1 := 64) (0 : Fin 1) ((((cfg7.win 6).blk t).view.emb (ix2 p q)) 1)) := by
    show V c main_v166 (((cfg7.win 5).blk t).view.emb (ix2 (0 : Fin 1) q)) = _
    refine congrArg (V c main_v166) (funext fun a => Fin.ext ?_)
    match a with
    | ⟨0, _⟩ => show win7_5.index t (0 : Fin 2) * 1 + 1 * 0 = 0; omega
    | ⟨1, _⟩ => show win7_5.index t (1 : Fin 2) * 64 + 1 * q.val = win7_6.index t (1 : Fin 2) * 64 + 1 * q.val; omega
  rw [h0, h1, h2, h3, h4, h5]

/-- An index of the output array lies in tile `t` iff each coordinate lies in the tile's range on its axis. -/
theorem mem_tile (t : Fin cfg7.N) (i : S100000x64.Idx) :
    i ∈ ((cfg7.win 6).blk t).view.set ↔ ∀ a : Fin 2, win7_6.index t a * S5000x64.size a ≤ (i a).val ∧ (i a).val < win7_6.index t a * S5000x64.size a + S5000x64.size a := by
  show i ∈ ((View.whole main_v167).slice (win7_6.rect t)).set ↔ _
  rw [View.set_slice_whole, Rect.mem_set_unit]
  exact Iff.rfl

/-- The 20 tiles cover the output array: row `r` is in tile `r / 5000`. -/
theorem covered (i : S100000x64.Idx) : ∃ t : Fin cfg7.N, (cfg7.win 6).flush t = true ∧ i ∈ ((cfg7.win 6).blk t).view.set := by
  have hi0 : (i 0).val < 100000 := (i 0).isLt
  have hi1 : (i 1).val < 64 := (i 1).isLt
  obtain ⟨t, ht⟩ := tiles_onto ⟨(i 0).val / 5000, by omega⟩
  have q0 : win7_6.index t (0 : Fin 2) = (i 0).val / 5000 := congrFun ht 0
  have q1 : win7_6.index t (1 : Fin 2) = 0 := congrFun ht 1
  refine ⟨t, flush7_6 t, ?_⟩
  rw [mem_tile]
  intro a
  match a with
  | ⟨0, _⟩ => show win7_6.index t (0 : Fin 2) * 5000 ≤ (i 0).val ∧ (i 0).val < win7_6.index t (0 : Fin 2) * 5000 + 5000; omega
  | ⟨1, _⟩ => show win7_6.index t (1 : Fin 2) * 64 ≤ (i 1).val ∧ (i 1).val < win7_6.index t (1 : Fin 2) * 64 + 64; omega

/-- After the last write-back the output array is `normRelu` of the arrays as the region found them. -/
theorem activation (c : Dev nD) :
    (dat7 V c).arrAt 6 cfg7.N = normRelu (V c main_v161) (V c main_v162) (V c main_v163) (V c main_v164) (V c main_v165) (V c main_v166) :=
  (dat7 V c).arrAt_eq_of_cover 6 _ (fun t _ => flushed_eq V c t) (covered)

end Region

end Cert.KernelIdeal.Norm7

end
-- ==== Proof.Bias9.lean ====
/-
  The bias of the last layer, read off its row-tiled kernel.

  The aggregated features are a `[100000, 2]` array and the bias a `[1, 2]` row.  Tile `t` of the kernel loads rows
  `5000 t … 5000 t + 4999` of the features and the whole row, and stores their sum, the row read at the entry's
  column: the entry of `plusRow` of the WHOLE arrays at `(5000 t + r, j)`.  The 20 tiles partition the rows, so after
  the last write-back the output array is `plusRow` of the arrays the region found.
-/
import proofs.«108039_j29265907155154_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias9

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- One entry of the biased layer: the row is read at the entry's column. -/
def plusRow (a : S100000x2.Idx → EReal) (b : S1x2.Idx → EReal) : S100000x2.Idx → EReal :=
  fun i => a i + b (ix2 (n0 := 1) (n1 := 2) (0 : Fin 1) (i 1))

theorem origin : (![0, 0] : Fin 2 → Nat) = fun _ => 0 := funext fun a => by fin_cases a <;> rfl

/-- One entry of a tile's result. -/
theorem tile_apply (x0 : FVec Ideal S5000x2 .f32) (x1 : FVec Ideal S1x2 .f32) (p : Fin 5000) (q : Fin 2) :
    k9_pay1 (F := Ideal) x0 x1 (ix2 p q) = x0 (ix2 p q) + x1 (ix2 (0 : Fin 1) q) := by
  unfold k9_pay1
  simp only [shapeCast_self]
  show x0 (ix2 p q) + broadcastTo S5000x2 x1 broadcasts_S1x2_S5000x2 (ix2 p q) = _
  rw [broadcastTo_1b_ab_apply x1]

section Region
variable (V : (c : Dev nD) → (b : Ref sig .tc) → Buf (Elt Ideal) ((c : Thread nD τ).loc b))

/-- The tiles' positions, decided over the 20 grid points. -/
theorem tiles : ∀ t : Fin cfg9.N, win9_0.index t (0 : Fin 2) = win9_2.index t (0 : Fin 2)
    ∧ win9_0.index t (1 : Fin 2) = 0 ∧ win9_2.index t (1 : Fin 2) = 0
    ∧ win9_1.index t (0 : Fin 2) = 0 ∧ win9_1.index t (1 : Fin 2) = 0 :=
  (by decide +kernel : ∀ t : Fin grid9.N, _)

/-- Every row block is some grid point's. -/
theorem tiles_onto : ∀ (q0 : Fin 20), ∃ t : Fin cfg9.N, win9_2.index t = ![q0.val, 0] :=
  (by decide +kernel : ∀ (q0 : Fin 20), ∃ t : Fin grid9.N, win9_2.index t = ![q0.val, 0])

/-- What grid point `t` writes back is tile `t` of `plusRow` of the whole arrays. -/
theorem flushed_eq (c : Dev nD) (t : Fin cfg9.N) :
    (dat9 V c).flushed 2 t = ((cfg9.win 2).blk t).view.read (Elt Ideal) (plusRow (V c main_v200) (V c main_v201)) := by
  show (cfg9.win 2).cut (grid9.coords t) ((dat9 V c).after 2 t) = _
  rw [after9_2]
  unfold out9_2
  rw [View.canon_unit_zero origin]
  simp only [View.ld_unit_zero (S := S5000x2) origin, View.ld_unit_zero (S := S1x2) origin]
  obtain ⟨e0, e1, e2, e3, e4⟩ := tiles t
  funext j
  obtain ⟨p, q, rfl⟩ : ∃ (p : Fin 5000) (q : Fin 2), j = ix2 p q := ⟨j 0, j 1, eq_ix2 j⟩
  refine (tile_apply (iblk9 V c 0 t) (iblk9 V c 1 t) p q).trans ?_
  show _ = plusRow (V c main_v200) (V c main_v201) (((cfg9.win 2).blk t).view.emb (ix2 p q))
  unfold plusRow
  have h0 : iblk9 V c 0 t (ix2 p q) = V c main_v200 (((cfg9.win 2).blk t).view.emb (ix2 p q)) := by
    show V c main_v200 (((cfg9.win 0).blk t).view.emb (ix2 p q)) = _
    refine congrArg (V c main_v200) (funext fun a => Fin.ext ?_)
    match a with
    | ⟨0, _⟩ => show win9_0.index t (0 : Fin 2) * 5000 + 1 * p.val = win9_2.index t (0 : Fin 2) * 5000 + 1 * p.val; omega
    | ⟨1, _⟩ => show win9_0.index t (1 : Fin 2) * 2 + 1 * q.val = win9_2.index t (1 : Fin 2) * 2 + 1 * q.val; omega
  have h1 : iblk9 V c 1 t (ix2 (0 : Fin 1) q) = V c main_v201 (ix2 (n0 := 1) (n1 := 2) (0 : Fin 1) ((((cfg9.win 2).blk t).view.emb (ix2 p q)) 1)) := by
    show V c main_v201 (((cfg9.win 1).blk t).view.emb (ix2 (0 : Fin 1) q)) = _
    refine congrArg (V c main_v201) (funext fun a => Fin.ext ?_)
    match a with
    | ⟨0, _⟩ => show win9_1.index t (0 : Fin 2) * 1 + 1 * 0 = 0; omega
    | ⟨1, _⟩ => show win9_1.index t (1 : Fin 2) * 2 + 1 * q.val = win9_2.index t (1 : Fin 2) * 2 + 1 * q.val; omega
  rw [h0, h1]

/-- An index of the output array lies in tile `t` iff each coordinate lies in the tile's range on its axis. -/
theorem mem_tile (t : Fin cfg9.N) (i : S100000x2.Idx) :
    i ∈ ((cfg9.win 2).blk t).view.set ↔ ∀ a : Fin 2, win9_2.index t a * S5000x2.size a ≤ (i a).val ∧ (i a).val < win9_2.index t a * S5000x2.size a + S5000x2.size a := by
  show i ∈ ((View.whole main_v202).slice (win9_2.rect t)).set ↔ _
  rw [View.set_slice_whole, Rect.mem_set_unit]
  exact Iff.rfl

/-- The 20 tiles cover the output array: row `r` is in tile `r / 5000`. -/
theorem covered (i : S100000x2.Idx) : ∃ t : Fin cfg9.N, (cfg9.win 2).flush t = true ∧ i ∈ ((cfg9.win 2).blk t).view.set := by
  have hi0 : (i 0).val < 100000 := (i 0).isLt
  have hi1 : (i 1).val < 2 := (i 1).isLt
  obtain ⟨t, ht⟩ := tiles_onto ⟨(i 0).val / 5000, by omega⟩
  have q0 : win9_2.index t (0 : Fin 2) = (i 0).val / 5000 := congrFun ht 0
  have q1 : win9_2.index t (1 : Fin 2) = 0 := congrFun ht 1
  refine ⟨t, flush9_2 t, ?_⟩
  rw [mem_tile]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 2 ≤ (i 1).val ∧ (i 1).val < win9_2.index t (1 : Fin 2) * 2 + 2; omega

/-- After the last write-back the output array is `plusRow` of the arrays as the region found them. -/
theorem biased (c : Dev nD) :
    (dat9 V c).arrAt 2 cfg9.N = plusRow (V c main_v200) (V c main_v201) :=
  (dat9 V c).arrAt_eq_of_cover 2 _ (fun t _ => flushed_eq V c t) (covered)

end Region

end Cert.KernelIdeal.Bias9

end
-- ==== Proof.Layers.lean ====
/-
  The reference network, layer by layer, in the vocabulary of the kernels.

  The reference computes each layer with whole-array host operations: a `dot_general` for the dense product, and for
  bias, normalisation and rectifier a chain of elementwise operations whose row operands are broadcast over the nodes.
  Read at an index, the `dot_general` is the sum over the contracted axis (`rowsTimes`), and the chain is
  `max (((a + b - rm) · (rv + ε)^(-1/2)) · g + be) 0` with every row read at the entry's column (`normRelu`); the host's
  reciprocal square root and the vector unit's are one function on the extended reals.  A rank-1 row broadcast to
  `[1, C]` and the same row reshaped to `[1, C]` hold the same entries.
-/
import proofs.«108039_j29265907155154_1_alg».proof.Proof.Gen.ReferenceIdeal.Read
import proofs.«108039_j29265907155154_1_alg».proof.Proof.Dense0
import proofs.«108039_j29265907155154_1_alg».proof.Proof.Dense2
import proofs.«108039_j29265907155154_1_alg».proof.Proof.Dense4
import proofs.«108039_j29265907155154_1_alg».proof.Proof.Dense6
import proofs.«108039_j29265907155154_1_alg».proof.Proof.Dense8
import proofs.«108039_j29265907155154_1_alg».proof.Proof.Norm1
import proofs.«108039_j29265907155154_1_alg».proof.Proof.Norm3
import proofs.«108039_j29265907155154_1_alg».proof.Proof.Norm5
import proofs.«108039_j29265907155154_1_alg».proof.Proof.Norm7
import proofs.«108039_j29265907155154_1_alg».proof.Proof.Bias9
import Idealize.ShloMosaic.Lib.ValueLayout

set_option maxRecDepth 16384

noncomputable section

namespace Cert.Layers

open Idealize.ShloMosaic Idealize.ShloMosaic.TcCoe Idealize.ShloMosaic.ValueIdx

/-- Layer 1's dense product in the reference is the product of the whole arrays. -/
theorem dense1 (x0 : (⟨Cert.ReferenceIdeal.S100000x128, .f32⟩ : BufTy).Contents (Elt Ideal)) (x2 : (⟨Cert.ReferenceIdeal.S128x128, .f32⟩ : BufTy).Contents (Elt Ideal)) :
    Cert.ReferenceIdeal.Read.val_main_v11 (F := Ideal) x0 x2 = Cert.KernelIdeal.Dense0.rowsTimes x0 x2 := by
  funext i
  rw [Cert.ReferenceIdeal.Read.val_main_v11_apply]
  unfold Cert.KernelIdeal.Dense0.rowsTimes
  refine Finset.sum_congr rfl fun k _ => ?_
  have el : Cert.ReferenceIdeal.Read.lidx_main_v11 i k = ix2 (n0 := 100000) (n1 := 128) (i 0) k := funext fun a => by
    match a with
    | ⟨0, _⟩ => rfl
    | ⟨1, _⟩ => rfl
  have er : Cert.ReferenceIdeal.Read.ridx_main_v11 i k = ix2 (n0 := 128) (n1 := 128) k (i 1) := funext fun a => by
    match a with
    | ⟨0, _⟩ => rfl
    | ⟨1, _⟩ => rfl
  rw [el, er]

/-- Layer 1's bias, normalisation and rectifier in the reference are `normRelu` of the aggregated features and the
    five rows. -/
theorem norm1 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128, .f32⟩ : BufTy).Contents (Elt Ideal)) :
    Cert.ReferenceIdeal.Read.val_main_v63 (F := Ideal) x0 x1 x2 x3 x12 x13 x14 x15 = Cert.KernelIdeal.Norm1.normRelu (Cert.ReferenceIdeal.Read.val_main_v44 (F := Ideal) x0 x1 x2) (shapeCast Cert.KernelIdeal.S1x128 x3 Cert.KernelIdeal.Facts₀.shapeCasts_S128_S1x128) (shapeCast Cert.KernelIdeal.S1x128 x12 Cert.KernelIdeal.Facts₀.shapeCasts_S128_S1x128) (shapeCast Cert.KernelIdeal.S1x128 x13 Cert.KernelIdeal.Facts₀.shapeCasts_S128_S1x128) (shapeCast Cert.KernelIdeal.S1x128 x14 Cert.KernelIdeal.Facts₀.shapeCasts_S128_S1x128) (shapeCast Cert.KernelIdeal.S1x128 x15 Cert.KernelIdeal.Facts₀.shapeCasts_S128_S1x128) := by
  funext i
  obtain ⟨p, q, rfl⟩ : ∃ (p : Fin 100000) (q : Fin 128), i = ix2 p q := ⟨i 0, i 1, eq_ix2 i⟩
  rw [Cert.ReferenceIdeal.Read.val_main_v63_apply, Cert.ReferenceIdeal.Read.val_main_v62_apply, Cert.ReferenceIdeal.Read.val_main_v59_apply, Cert.ReferenceIdeal.Read.val_main_v56_apply, Cert.ReferenceIdeal.Read.val_main_v50_apply, Cert.ReferenceIdeal.Read.val_main_v47_apply,
    Cert.ReferenceIdeal.Read.val_main_v46_apply, Cert.ReferenceIdeal.Read.val_main_v45_apply, Cert.ReferenceIdeal.Read.val_main_v49_apply, Cert.ReferenceIdeal.Read.val_main_v48_apply, Cert.ReferenceIdeal.Read.val_main_v55_apply, Cert.ReferenceIdeal.Read.val_main_v54_apply, Cert.ReferenceIdeal.Read.val_main_v53_apply, Cert.ReferenceIdeal.Read.val_main_v52_apply,
    Cert.ReferenceIdeal.Read.val_main_v58_apply, Cert.ReferenceIdeal.Read.val_main_v57_apply, Cert.ReferenceIdeal.Read.val_main_v61_apply, Cert.ReferenceIdeal.Read.val_main_v60_apply]
  have e_b : Cert.ReferenceIdeal.Read.idx_main_v45 (Cert.ReferenceIdeal.Read.idx_main_v46 (ix2 p q)) = ix1 q := funext fun a => by
    match a with
    | ⟨0, _⟩ => rfl
  have e_rm : Cert.ReferenceIdeal.Read.idx_main_v48 (Cert.ReferenceIdeal.Read.idx_main_v49 (ix2 p q)) = ix1 q := funext fun a => by
    match a with
    | ⟨0, _⟩ => rfl
  have e_rv : Cert.ReferenceIdeal.Read.idx_main_v54 (Cert.ReferenceIdeal.Read.idx_main_v55 (ix2 p q)) = ix1 q := funext fun a => by
    match a with
    | ⟨0, _⟩ => rfl
  have e_g : Cert.ReferenceIdeal.Read.idx_main_v57 (Cert.ReferenceIdeal.Read.idx_main_v58 (ix2 p q)) = ix1 q := funext fun a => by
    match a with
    | ⟨0, _⟩ => rfl
  have e_be : Cert.ReferenceIdeal.Read.idx_main_v60 (Cert.ReferenceIdeal.Read.idx_main_v61 (ix2 p q)) = ix1 q := funext fun a => by
    match a with
    | ⟨0, _⟩ => rfl
  rw [e_b, e_rm, e_rv, e_g, e_be]
  show _ = max (((((Cert.ReferenceIdeal.Read.val_main_v44 (F := Ideal) x0 x1 x2) (ix2 p q) + (shapeCast Cert.KernelIdeal.S1x128 x3 Cert.KernelIdeal.Facts₀.shapeCasts_S128_S1x128) (ix2 (0 : Fin 1) q)) - (shapeCast Cert.KernelIdeal.S1x128 x14 Cert.KernelIdeal.Facts₀.shapeCasts_S128_S1x128) (ix2 (0 : Fin 1) q))
      * Ideal.rsqrt ((shapeCast Cert.KernelIdeal.S1x128 x15 Cert.KernelIdeal.Facts₀.shapeCasts_S128_S1x128) (ix2 (0 : Fin 1) q) + Ideal.ofBits .f32 0x3727C5AC#32))
      * (shapeCast Cert.KernelIdeal.S1x128 x12 Cert.KernelIdeal.Facts₀.shapeCasts_S128_S1x128) (ix2 (0 : Fin 1) q) + (shapeCast Cert.KernelIdeal.S1x128 x13 Cert.KernelIdeal.Facts₀.shapeCasts_S128_S1x128) (ix2 (0 : Fin 1) q)) (Ideal.ofBits .f32 0x00000000#32)
  rw [shapeCast_a_1a_apply x3, shapeCast_a_1a_apply x14, shapeCast_a_1a_apply x15, shapeCast_a_1a_apply x12, shapeCast_a_1a_apply x13]
  rfl

/-- Layer 2's dense product in the reference is the product of the whole arrays. -/
theorem dense2 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128, .f32⟩ : BufTy).Contents (Elt Ideal)) :
    Cert.ReferenceIdeal.Read.val_main_v64 (F := Ideal) x0 x1 x2 x3 x4 x12 x13 x14 x15 = Cert.KernelIdeal.Dense2.rowsTimes (Cert.ReferenceIdeal.Read.val_main_v63 (F := Ideal) x0 x1 x2 x3 x12 x13 x14 x15) x4 := by
  funext i
  rw [Cert.ReferenceIdeal.Read.val_main_v64_apply]
  unfold Cert.KernelIdeal.Dense2.rowsTimes
  refine Finset.sum_congr rfl fun k _ => ?_
  have el : Cert.ReferenceIdeal.Read.lidx_main_v64 i k = ix2 (n0 := 100000) (n1 := 128) (i 0) k := funext fun a => by
    match a with
    | ⟨0, _⟩ => rfl
    | ⟨1, _⟩ => rfl
  have er : Cert.ReferenceIdeal.Read.ridx_main_v64 i k = ix2 (n0 := 128) (n1 := 128) k (i 1) := funext fun a => by
    match a with
    | ⟨0, _⟩ => rfl
    | ⟨1, _⟩ => rfl
  rw [el, er]

/-- Layer 2's bias, normalisation and rectifier in the reference are `normRelu` of the aggregated features and the
    five rows. -/
theorem norm2 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128, .f32⟩ : BufTy).Contents (Elt Ideal)) (x16 : (⟨Cert.ReferenceIdeal.S128, .f32⟩ : BufTy).Contents (Elt Ideal)) (x17 : (⟨Cert.ReferenceIdeal.S128, .f32⟩ : BufTy).Contents (Elt Ideal)) (x18 : (⟨Cert.ReferenceIdeal.S128, .f32⟩ : BufTy).Contents (Elt Ideal)) (x19 : (⟨Cert.ReferenceIdeal.S128, .f32⟩ : BufTy).Contents (Elt Ideal)) :
    Cert.ReferenceIdeal.Read.val_main_v116 (F := Ideal) x0 x1 x2 x3 x4 x5 x12 x13 x14 x15 x16 x17 x18 x19 = Cert.KernelIdeal.Norm3.normRelu (Cert.ReferenceIdeal.Read.val_main_v97 (F := Ideal) x0 x1 x2 x3 x4 x12 x13 x14 x15) (shapeCast Cert.KernelIdeal.S1x128 x5 Cert.KernelIdeal.Facts₀.shapeCasts_S128_S1x128) (shapeCast Cert.KernelIdeal.S1x128 x16 Cert.KernelIdeal.Facts₀.shapeCasts_S128_S1x128) (shapeCast Cert.KernelIdeal.S1x128 x17 Cert.KernelIdeal.Facts₀.shapeCasts_S128_S1x128) (shapeCast Cert.KernelIdeal.S1x128 x18 Cert.KernelIdeal.Facts₀.shapeCasts_S128_S1x128) (shapeCast Cert.KernelIdeal.S1x128 x19 Cert.KernelIdeal.Facts₀.shapeCasts_S128_S1x128) := by
  funext i
  obtain ⟨p, q, rfl⟩ : ∃ (p : Fin 100000) (q : Fin 128), i = ix2 p q := ⟨i 0, i 1, eq_ix2 i⟩
  rw [Cert.ReferenceIdeal.Read.val_main_v116_apply, Cert.ReferenceIdeal.Read.val_main_v115_apply, Cert.ReferenceIdeal.Read.val_main_v112_apply, Cert.ReferenceIdeal.Read.val_main_v109_apply, Cert.ReferenceIdeal.Read.val_main_v103_apply, Cert.ReferenceIdeal.Read.val_main_v100_apply,
    Cert.ReferenceIdeal.Read.val_main_v99_apply, Cert.ReferenceIdeal.Read.val_main_v98_apply, Cert.ReferenceIdeal.Read.val_main_v102_apply, Cert.ReferenceIdeal.Read.val_main_v101_apply, Cert.ReferenceIdeal.Read.val_main_v108_apply, Cert.ReferenceIdeal.Read.val_main_v107_apply, Cert.ReferenceIdeal.Read.val_main_v106_apply, Cert.ReferenceIdeal.Read.val_main_v105_apply,
    Cert.ReferenceIdeal.Read.val_main_v111_apply, Cert.ReferenceIdeal.Read.val_main_v110_apply, Cert.ReferenceIdeal.Read.val_main_v114_apply, Cert.ReferenceIdeal.Read.val_main_v113_apply]
  have e_b : Cert.ReferenceIdeal.Read.idx_main_v98 (Cert.ReferenceIdeal.Read.idx_main_v99 (ix2 p q)) = ix1 q := funext fun a => by
    match a with
    | ⟨0, _⟩ => rfl
  have e_rm : Cert.ReferenceIdeal.Read.idx_main_v101 (Cert.ReferenceIdeal.Read.idx_main_v102 (ix2 p q)) = ix1 q := funext fun a => by
    match a with
    | ⟨0, _⟩ => rfl
  have e_rv : Cert.ReferenceIdeal.Read.idx_main_v107 (Cert.ReferenceIdeal.Read.idx_main_v108 (ix2 p q)) = ix1 q := funext fun a => by
    match a with
    | ⟨0, _⟩ => rfl
  have e_g : Cert.ReferenceIdeal.Read.idx_main_v110 (Cert.ReferenceIdeal.Read.idx_main_v111 (ix2 p q)) = ix1 q := funext fun a => by
    match a with
    | ⟨0, _⟩ => rfl
  have e_be : Cert.ReferenceIdeal.Read.idx_main_v113 (Cert.ReferenceIdeal.Read.idx_main_v114 (ix2 p q)) = ix1 q := funext fun a => by
    match a with
    | ⟨0, _⟩ => rfl
  rw [e_b, e_rm, e_rv, e_g, e_be]
  show _ = max (((((Cert.ReferenceIdeal.Read.val_main_v97 (F := Ideal) x0 x1 x2 x3 x4 x12 x13 x14 x15) (ix2 p q) + (shapeCast Cert.KernelIdeal.S1x128 x5 Cert.KernelIdeal.Facts₀.shapeCasts_S128_S1x128) (ix2 (0 : Fin 1) q)) - (shapeCast Cert.KernelIdeal.S1x128 x18 Cert.KernelIdeal.Facts₀.shapeCasts_S128_S1x128) (ix2 (0 : Fin 1) q))
      * Ideal.rsqrt ((shapeCast Cert.KernelIdeal.S1x128 x19 Cert.KernelIdeal.Facts₀.shapeCasts_S128_S1x128) (ix2 (0 : Fin 1) q) + Ideal.ofBits .f32 0x3727C5AC#32))
      * (shapeCast Cert.KernelIdeal.S1x128 x16 Cert.KernelIdeal.Facts₀.shapeCasts_S128_S1x128) (ix2 (0 : Fin 1) q) + (shapeCast Cert.KernelIdeal.S1x128 x17 Cert.KernelIdeal.Facts₀.shapeCasts_S128_S1x128) (ix2 (0 : Fin 1) q)) (Ideal.ofBits .f32 0x00000000#32)
  rw [shapeCast_a_1a_apply x5, shapeCast_a_1a_apply x18, shapeCast_a_1a_apply x19, shapeCast_a_1a_apply x16, shapeCast_a_1a_apply x17]
  rfl

/-- Layer 3's dense product in the reference is the product of the whole arrays. -/
theorem dense3 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128, .f32⟩ : BufTy).Contents (Elt Ideal)) (x16 : (⟨Cert.ReferenceIdeal.S128, .f32⟩ : BufTy).Contents (Elt Ideal)) (x17 : (⟨Cert.ReferenceIdeal.S128, .f32⟩ : BufTy).Contents (Elt Ideal)) (x18 : (⟨Cert.ReferenceIdeal.S128, .f32⟩ : BufTy).Contents (Elt Ideal)) (x19 : (⟨Cert.ReferenceIdeal.S128, .f32⟩ : BufTy).Contents (Elt Ideal)) :
    Cert.ReferenceIdeal.Read.val_main_v117 (F := Ideal) x0 x1 x2 x3 x4 x5 x6 x12 x13 x14 x15 x16 x17 x18 x19 = Cert.KernelIdeal.Dense4.rowsTimes (Cert.ReferenceIdeal.Read.val_main_v116 (F := Ideal) x0 x1 x2 x3 x4 x5 x12 x13 x14 x15 x16 x17 x18 x19) x6 := by
  funext i
  rw [Cert.ReferenceIdeal.Read.val_main_v117_apply]
  unfold Cert.KernelIdeal.Dense4.rowsTimes
  refine Finset.sum_congr rfl fun k _ => ?_
  have el : Cert.ReferenceIdeal.Read.lidx_main_v117 i k = ix2 (n0 := 100000) (n1 := 128) (i 0) k := funext fun a => by
    match a with
    | ⟨0, _⟩ => rfl
    | ⟨1, _⟩ => rfl
  have er : Cert.ReferenceIdeal.Read.ridx_main_v117 i k = ix2 (n0 := 128) (n1 := 128) k (i 1) := funext fun a => by
    match a with
    | ⟨0, _⟩ => rfl
    | ⟨1, _⟩ => rfl
  rw [el, er]

/-- Layer 3's bias, normalisation and rectifier in the reference are `normRelu` of the aggregated features and the
    five rows. -/
theorem norm3 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128, .f32⟩ : BufTy).Contents (Elt Ideal)) (x16 : (⟨Cert.ReferenceIdeal.S128, .f32⟩ : BufTy).Contents (Elt Ideal)) (x17 : (⟨Cert.ReferenceIdeal.S128, .f32⟩ : BufTy).Contents (Elt Ideal)) (x18 : (⟨Cert.ReferenceIdeal.S128, .f32⟩ : BufTy).Contents (Elt Ideal)) (x19 : (⟨Cert.ReferenceIdeal.S128, .f32⟩ : BufTy).Contents (Elt Ideal)) (x20 : (⟨Cert.ReferenceIdeal.S128, .f32⟩ : BufTy).Contents (Elt Ideal)) (x21 : (⟨Cert.ReferenceIdeal.S128, .f32⟩ : BufTy).Contents (Elt Ideal)) (x22 : (⟨Cert.ReferenceIdeal.S128, .f32⟩ : BufTy).Contents (Elt Ideal)) (x23 : (⟨Cert.ReferenceIdeal.S128, .f32⟩ : BufTy).Contents (Elt Ideal)) :
    Cert.ReferenceIdeal.Read.val_main_v169 (F := Ideal) x0 x1 x2 x3 x4 x5 x6 x7 x12 x13 x14 x15 x16 x17 x18 x19 x20 x21 x22 x23 = Cert.KernelIdeal.Norm5.normRelu (Cert.ReferenceIdeal.Read.val_main_v150 (F := Ideal) x0 x1 x2 x3 x4 x5 x6 x12 x13 x14 x15 x16 x17 x18 x19) (shapeCast Cert.KernelIdeal.S1x128 x7 Cert.KernelIdeal.Facts₀.shapeCasts_S128_S1x128) (shapeCast Cert.KernelIdeal.S1x128 x20 Cert.KernelIdeal.Facts₀.shapeCasts_S128_S1x128) (shapeCast Cert.KernelIdeal.S1x128 x21 Cert.KernelIdeal.Facts₀.shapeCasts_S128_S1x128) (shapeCast Cert.KernelIdeal.S1x128 x22 Cert.KernelIdeal.Facts₀.shapeCasts_S128_S1x128) (shapeCast Cert.KernelIdeal.S1x128 x23 Cert.KernelIdeal.Facts₀.shapeCasts_S128_S1x128) := by
  funext i
  obtain ⟨p, q, rfl⟩ : ∃ (p : Fin 100000) (q : Fin 128), i = ix2 p q := ⟨i 0, i 1, eq_ix2 i⟩
  rw [Cert.ReferenceIdeal.Read.val_main_v169_apply, Cert.ReferenceIdeal.Read.val_main_v168_apply, Cert.ReferenceIdeal.Read.val_main_v165_apply, Cert.ReferenceIdeal.Read.val_main_v162_apply, Cert.ReferenceIdeal.Read.val_main_v156_apply, Cert.ReferenceIdeal.Read.val_main_v153_apply,
    Cert.ReferenceIdeal.Read.val_main_v152_apply, Cert.ReferenceIdeal.Read.val_main_v151_apply, Cert.ReferenceIdeal.Read.val_main_v155_apply, Cert.ReferenceIdeal.Read.val_main_v154_apply, Cert.ReferenceIdeal.Read.val_main_v161_apply, Cert.ReferenceIdeal.Read.val_main_v160_apply, Cert.ReferenceIdeal.Read.val_main_v159_apply, Cert.ReferenceIdeal.Read.val_main_v158_apply,
    Cert.ReferenceIdeal.Read.val_main_v164_apply, Cert.ReferenceIdeal.Read.val_main_v163_apply, Cert.ReferenceIdeal.Read.val_main_v167_apply, Cert.ReferenceIdeal.Read.val_main_v166_apply]
  have e_b : Cert.ReferenceIdeal.Read.idx_main_v151 (Cert.ReferenceIdeal.Read.idx_main_v152 (ix2 p q)) = ix1 q := funext fun a => by
    match a with
    | ⟨0, _⟩ => rfl
  have e_rm : Cert.ReferenceIdeal.Read.idx_main_v154 (Cert.ReferenceIdeal.Read.idx_main_v155 (ix2 p q)) = ix1 q := funext fun a => by
    match a with
    | ⟨0, _⟩ => rfl
  have e_rv : Cert.ReferenceIdeal.Read.idx_main_v160 (Cert.ReferenceIdeal.Read.idx_main_v161 (ix2 p q)) = ix1 q := funext fun a => by
    match a with
    | ⟨0, _⟩ => rfl
  have e_g : Cert.ReferenceIdeal.Read.idx_main_v163 (Cert.ReferenceIdeal.Read.idx_main_v164 (ix2 p q)) = ix1 q := funext fun a => by
    match a with
    | ⟨0, _⟩ => rfl
  have e_be : Cert.ReferenceIdeal.Read.idx_main_v166 (Cert.ReferenceIdeal.Read.idx_main_v167 (ix2 p q)) = ix1 q := funext fun a => by
    match a with
    | ⟨0, _⟩ => rfl
  rw [e_b, e_rm, e_rv, e_g, e_be]
  show _ = max (((((Cert.ReferenceIdeal.Read.val_main_v150 (F := Ideal) x0 x1 x2 x3 x4 x5 x6 x12 x13 x14 x15 x16 x17 x18 x19) (ix2 p q) + (shapeCast Cert.KernelIdeal.S1x128 x7 Cert.KernelIdeal.Facts₀.shapeCasts_S128_S1x128) (ix2 (0 : Fin 1) q)) - (shapeCast Cert.KernelIdeal.S1x128 x22 Cert.KernelIdeal.Facts₀.shapeCasts_S128_S1x128) (ix2 (0 : Fin 1) q))
      * Ideal.rsqrt ((shapeCast Cert.KernelIdeal.S1x128 x23 Cert.KernelIdeal.Facts₀.shapeCasts_S128_S1x128) (ix2 (0 : Fin 1) q) + Ideal.ofBits .f32 0x3727C5AC#32))
      * (shapeCast Cert.KernelIdeal.S1x128 x20 Cert.KernelIdeal.Facts₀.shapeCasts_S128_S1x128) (ix2 (0 : Fin 1) q) + (shapeCast Cert.KernelIdeal.S1x128 x21 Cert.KernelIdeal.Facts₀.shapeCasts_S128_S1x128) (ix2 (0 : Fin 1) q)) (Ideal.ofBits .f32 0x00000000#32)
  rw [shapeCast_a_1a_apply x7, shapeCast_a_1a_apply x22, shapeCast_a_1a_apply x23, shapeCast_a_1a_apply x20, shapeCast_a_1a_apply x21]
  rfl

/-- Layer 4's dense product in the reference is the product of the whole arrays. -/
theorem dense4 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128, .f32⟩ : BufTy).Contents (Elt Ideal)) (x16 : (⟨Cert.ReferenceIdeal.S128, .f32⟩ : BufTy).Contents (Elt Ideal)) (x17 : (⟨Cert.ReferenceIdeal.S128, .f32⟩ : BufTy).Contents (Elt Ideal)) (x18 : (⟨Cert.ReferenceIdeal.S128, .f32⟩ : BufTy).Contents (Elt Ideal)) (x19 : (⟨Cert.ReferenceIdeal.S128, .f32⟩ : BufTy).Contents (Elt Ideal)) (x20 : (⟨Cert.ReferenceIdeal.S128, .f32⟩ : BufTy).Contents (Elt Ideal)) (x21 : (⟨Cert.ReferenceIdeal.S128, .f32⟩ : BufTy).Contents (Elt Ideal)) (x22 : (⟨Cert.ReferenceIdeal.S128, .f32⟩ : BufTy).Contents (Elt Ideal)) (x23 : (⟨Cert.ReferenceIdeal.S128, .f32⟩ : BufTy).Contents (Elt Ideal)) :
    Cert.ReferenceIdeal.Read.val_main_v170 (F := Ideal) x0 x1 x2 x3 x4 x5 x6 x7 x8 x12 x13 x14 x15 x16 x17 x18 x19 x20 x21 x22 x23 = Cert.KernelIdeal.Dense6.rowsTimes (Cert.ReferenceIdeal.Read.val_main_v169 (F := Ideal) x0 x1 x2 x3 x4 x5 x6 x7 x12 x13 x14 x15 x16 x17 x18 x19 x20 x21 x22 x23) x8 := by
  funext i
  rw [Cert.ReferenceIdeal.Read.val_main_v170_apply]
  unfold Cert.KernelIdeal.Dense6.rowsTimes
  refine Finset.sum_congr rfl fun k _ => ?_
  have el : Cert.ReferenceIdeal.Read.lidx_main_v170 i k = ix2 (n0 := 100000) (n1 := 128) (i 0) k := funext fun a => by
    match a with
    | ⟨0, _⟩ => rfl
    | ⟨1, _⟩ => rfl
  have er : Cert.ReferenceIdeal.Read.ridx_main_v170 i k = ix2 (n0 := 128) (n1 := 64) k (i 1) := funext fun a => by
    match a with
    | ⟨0, _⟩ => rfl
    | ⟨1, _⟩ => rfl
  rw [el, er]

/-- Layer 4's bias, normalisation and rectifier in the reference are `normRelu` of the aggregated features and the
    five rows. -/
theorem norm4 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128, .f32⟩ : BufTy).Contents (Elt Ideal)) (x16 : (⟨Cert.ReferenceIdeal.S128, .f32⟩ : BufTy).Contents (Elt Ideal)) (x17 : (⟨Cert.ReferenceIdeal.S128, .f32⟩ : BufTy).Contents (Elt Ideal)) (x18 : (⟨Cert.ReferenceIdeal.S128, .f32⟩ : BufTy).Contents (Elt Ideal)) (x19 : (⟨Cert.ReferenceIdeal.S128, .f32⟩ : BufTy).Contents (Elt Ideal)) (x20 : (⟨Cert.ReferenceIdeal.S128, .f32⟩ : BufTy).Contents (Elt Ideal)) (x21 : (⟨Cert.ReferenceIdeal.S128, .f32⟩ : BufTy).Contents (Elt Ideal)) (x22 : (⟨Cert.ReferenceIdeal.S128, .f32⟩ : BufTy).Contents (Elt Ideal)) (x23 : (⟨Cert.ReferenceIdeal.S128, .f32⟩ : BufTy).Contents (Elt Ideal)) (x24 : (⟨Cert.ReferenceIdeal.S64, .f32⟩ : BufTy).Contents (Elt Ideal)) (x25 : (⟨Cert.ReferenceIdeal.S64, .f32⟩ : BufTy).Contents (Elt Ideal)) (x26 : (⟨Cert.ReferenceIdeal.S64, .f32⟩ : BufTy).Contents (Elt Ideal)) (x27 : (⟨Cert.ReferenceIdeal.S64, .f32⟩ : BufTy).Contents (Elt Ideal)) :
    Cert.ReferenceIdeal.Read.val_main_v222 (F := Ideal) x0 x1 x2 x3 x4 x5 x6 x7 x8 x9 x12 x13 x14 x15 x16 x17 x18 x19 x20 x21 x22 x23 x24 x25 x26 x27 = Cert.KernelIdeal.Norm7.normRelu (Cert.ReferenceIdeal.Read.val_main_v203 (F := Ideal) x0 x1 x2 x3 x4 x5 x6 x7 x8 x12 x13 x14 x15 x16 x17 x18 x19 x20 x21 x22 x23) (shapeCast Cert.KernelIdeal.S1x64 x9 Cert.KernelIdeal.Facts₀.shapeCasts_S64_S1x64) (shapeCast Cert.KernelIdeal.S1x64 x24 Cert.KernelIdeal.Facts₀.shapeCasts_S64_S1x64) (shapeCast Cert.KernelIdeal.S1x64 x25 Cert.KernelIdeal.Facts₀.shapeCasts_S64_S1x64) (shapeCast Cert.KernelIdeal.S1x64 x26 Cert.KernelIdeal.Facts₀.shapeCasts_S64_S1x64) (shapeCast Cert.KernelIdeal.S1x64 x27 Cert.KernelIdeal.Facts₀.shapeCasts_S64_S1x64) := by
  funext i
  obtain ⟨p, q, rfl⟩ : ∃ (p : Fin 100000) (q : Fin 64), i = ix2 p q := ⟨i 0, i 1, eq_ix2 i⟩
  rw [Cert.ReferenceIdeal.Read.val_main_v222_apply, Cert.ReferenceIdeal.Read.val_main_v221_apply, Cert.ReferenceIdeal.Read.val_main_v218_apply, Cert.ReferenceIdeal.Read.val_main_v215_apply, Cert.ReferenceIdeal.Read.val_main_v209_apply, Cert.ReferenceIdeal.Read.val_main_v206_apply,
    Cert.ReferenceIdeal.Read.val_main_v205_apply, Cert.ReferenceIdeal.Read.val_main_v204_apply, Cert.ReferenceIdeal.Read.val_main_v208_apply, Cert.ReferenceIdeal.Read.val_main_v207_apply, Cert.ReferenceIdeal.Read.val_main_v214_apply, Cert.ReferenceIdeal.Read.val_main_v213_apply, Cert.ReferenceIdeal.Read.val_main_v212_apply, Cert.ReferenceIdeal.Read.val_main_v211_apply,
    Cert.ReferenceIdeal.Read.val_main_v217_apply, Cert.ReferenceIdeal.Read.val_main_v216_apply, Cert.ReferenceIdeal.Read.val_main_v220_apply, Cert.ReferenceIdeal.Read.val_main_v219_apply]
  have e_b : Cert.ReferenceIdeal.Read.idx_main_v204 (Cert.ReferenceIdeal.Read.idx_main_v205 (ix2 p q)) = ix1 q := funext fun a => by
    match a with
    | ⟨0, _⟩ => rfl
  have e_rm : Cert.ReferenceIdeal.Read.idx_main_v207 (Cert.ReferenceIdeal.Read.idx_main_v208 (ix2 p q)) = ix1 q := funext fun a => by
    match a with
    | ⟨0, _⟩ => rfl
  have e_rv : Cert.ReferenceIdeal.Read.idx_main_v213 (Cert.ReferenceIdeal.Read.idx_main_v214 (ix2 p q)) = ix1 q := funext fun a => by
    match a with
    | ⟨0, _⟩ => rfl
  have e_g : Cert.ReferenceIdeal.Read.idx_main_v216 (Cert.ReferenceIdeal.Read.idx_main_v217 (ix2 p q)) = ix1 q := funext fun a => by
    match a with
    | ⟨0, _⟩ => rfl
  have e_be : Cert.ReferenceIdeal.Read.idx_main_v219 (Cert.ReferenceIdeal.Read.idx_main_v220 (ix2 p q)) = ix1 q := funext fun a => by
    match a with
    | ⟨0, _⟩ => rfl
  rw [e_b, e_rm, e_rv, e_g, e_be]
  show _ = max (((((Cert.ReferenceIdeal.Read.val_main_v203 (F := Ideal) x0 x1 x2 x3 x4 x5 x6 x7 x8 x12 x13 x14 x15 x16 x17 x18 x19 x20 x21 x22 x23) (ix2 p q) + (shapeCast Cert.KernelIdeal.S1x64 x9 Cert.KernelIdeal.Facts₀.shapeCasts_S64_S1x64) (ix2 (0 : Fin 1) q)) - (shapeCast Cert.KernelIdeal.S1x64 x26 Cert.KernelIdeal.Facts₀.shapeCasts_S64_S1x64) (ix2 (0 : Fin 1) q))
      * Ideal.rsqrt ((shapeCast Cert.KernelIdeal.S1x64 x27 Cert.KernelIdeal.Facts₀.shapeCasts_S64_S1x64) (ix2 (0 : Fin 1) q) + Ideal.ofBits .f32 0x3727C5AC#32))
      * (shapeCast Cert.KernelIdeal.S1x64 x24 Cert.KernelIdeal.Facts₀.shapeCasts_S64_S1x64) (ix2 (0 : Fin 1) q) + (shapeCast Cert.KernelIdeal.S1x64 x25 Cert.KernelIdeal.Facts₀.shapeCasts_S64_S1x64) (ix2 (0 : Fin 1) q)) (Ideal.ofBits .f32 0x00000000#32)
  rw [shapeCast_a_1a_apply x9, shapeCast_a_1a_apply x26, shapeCast_a_1a_apply x27, shapeCast_a_1a_apply x24, shapeCast_a_1a_apply x25]
  rfl

/-- Layer 5's dense product in the reference is the product of the whole arrays. -/
theorem dense5 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64x2, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128, .f32⟩ : BufTy).Contents (Elt Ideal)) (x16 : (⟨Cert.ReferenceIdeal.S128, .f32⟩ : BufTy).Contents (Elt Ideal)) (x17 : (⟨Cert.ReferenceIdeal.S128, .f32⟩ : BufTy).Contents (Elt Ideal)) (x18 : (⟨Cert.ReferenceIdeal.S128, .f32⟩ : BufTy).Contents (Elt Ideal)) (x19 : (⟨Cert.ReferenceIdeal.S128, .f32⟩ : BufTy).Contents (Elt Ideal)) (x20 : (⟨Cert.ReferenceIdeal.S128, .f32⟩ : BufTy).Contents (Elt Ideal)) (x21 : (⟨Cert.ReferenceIdeal.S128, .f32⟩ : BufTy).Contents (Elt Ideal)) (x22 : (⟨Cert.ReferenceIdeal.S128, .f32⟩ : BufTy).Contents (Elt Ideal)) (x23 : (⟨Cert.ReferenceIdeal.S128, .f32⟩ : BufTy).Contents (Elt Ideal)) (x24 : (⟨Cert.ReferenceIdeal.S64, .f32⟩ : BufTy).Contents (Elt Ideal)) (x25 : (⟨Cert.ReferenceIdeal.S64, .f32⟩ : BufTy).Contents (Elt Ideal)) (x26 : (⟨Cert.ReferenceIdeal.S64, .f32⟩ : BufTy).Contents (Elt Ideal)) (x27 : (⟨Cert.ReferenceIdeal.S64, .f32⟩ : BufTy).Contents (Elt Ideal)) :
    Cert.ReferenceIdeal.Read.val_main_v223 (F := Ideal) x0 x1 x2 x3 x4 x5 x6 x7 x8 x9 x10 x12 x13 x14 x15 x16 x17 x18 x19 x20 x21 x22 x23 x24 x25 x26 x27 = Cert.KernelIdeal.Dense8.rowsTimes (Cert.ReferenceIdeal.Read.val_main_v222 (F := Ideal) x0 x1 x2 x3 x4 x5 x6 x7 x8 x9 x12 x13 x14 x15 x16 x17 x18 x19 x20 x21 x22 x23 x24 x25 x26 x27) x10 := by
  funext i
  rw [Cert.ReferenceIdeal.Read.val_main_v223_apply]
  unfold Cert.KernelIdeal.Dense8.rowsTimes
  refine Finset.sum_congr rfl fun k _ => ?_
  have el : Cert.ReferenceIdeal.Read.lidx_main_v223 i k = ix2 (n0 := 100000) (n1 := 64) (i 0) k := funext fun a => by
    match a with
    | ⟨0, _⟩ => rfl
    | ⟨1, _⟩ => rfl
  have er : Cert.ReferenceIdeal.Read.ridx_main_v223 i k = ix2 (n0 := 64) (n1 := 2) k (i 1) := funext fun a => by
    match a with
    | ⟨0, _⟩ => rfl
    | ⟨1, _⟩ => rfl
  rw [el, er]

/-- The last layer's bias in the reference is `plusRow` of the aggregated features and the row. -/
theorem bias5 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64x2, .f32⟩ : BufTy).Contents (Elt Ideal)) (x11 : (⟨Cert.ReferenceIdeal.S2, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128, .f32⟩ : BufTy).Contents (Elt Ideal)) (x16 : (⟨Cert.ReferenceIdeal.S128, .f32⟩ : BufTy).Contents (Elt Ideal)) (x17 : (⟨Cert.ReferenceIdeal.S128, .f32⟩ : BufTy).Contents (Elt Ideal)) (x18 : (⟨Cert.ReferenceIdeal.S128, .f32⟩ : BufTy).Contents (Elt Ideal)) (x19 : (⟨Cert.ReferenceIdeal.S128, .f32⟩ : BufTy).Contents (Elt Ideal)) (x20 : (⟨Cert.ReferenceIdeal.S128, .f32⟩ : BufTy).Contents (Elt Ideal)) (x21 : (⟨Cert.ReferenceIdeal.S128, .f32⟩ : BufTy).Contents (Elt Ideal)) (x22 : (⟨Cert.ReferenceIdeal.S128, .f32⟩ : BufTy).Contents (Elt Ideal)) (x23 : (⟨Cert.ReferenceIdeal.S128, .f32⟩ : BufTy).Contents (Elt Ideal)) (x24 : (⟨Cert.ReferenceIdeal.S64, .f32⟩ : BufTy).Contents (Elt Ideal)) (x25 : (⟨Cert.ReferenceIdeal.S64, .f32⟩ : BufTy).Contents (Elt Ideal)) (x26 : (⟨Cert.ReferenceIdeal.S64, .f32⟩ : BufTy).Contents (Elt Ideal)) (x27 : (⟨Cert.ReferenceIdeal.S64, .f32⟩ : BufTy).Contents (Elt Ideal)) :
    Cert.ReferenceIdeal.Read.val_main_v259 (F := Ideal) x0 x1 x2 x3 x4 x5 x6 x7 x8 x9 x10 x11 x12 x13 x14 x15 x16 x17 x18 x19 x20 x21 x22 x23 x24 x25 x26 x27 = Cert.KernelIdeal.Bias9.plusRow (Cert.ReferenceIdeal.Read.val_main_v256 (F := Ideal) x0 x1 x2 x3 x4 x5 x6 x7 x8 x9 x10 x12 x13 x14 x15 x16 x17 x18 x19 x20 x21 x22 x23 x24 x25 x26 x27) (shapeCast Cert.KernelIdeal.S1x2 x11 Cert.KernelIdeal.Facts₀.shapeCasts_S2_S1x2) := by
  funext i
  obtain ⟨p, q, rfl⟩ : ∃ (p : Fin 100000) (q : Fin 2), i = ix2 p q := ⟨i 0, i 1, eq_ix2 i⟩
  rw [Cert.ReferenceIdeal.Read.val_main_v259_apply, Cert.ReferenceIdeal.Read.val_main_v258_apply, Cert.ReferenceIdeal.Read.val_main_v257_apply]
  have e_b : Cert.ReferenceIdeal.Read.idx_main_v257 (Cert.ReferenceIdeal.Read.idx_main_v258 (ix2 p q)) = ix1 q := funext fun a => by
    match a with
    | ⟨0, _⟩ => rfl
  rw [e_b]
  show _ = (Cert.ReferenceIdeal.Read.val_main_v256 (F := Ideal) x0 x1 x2 x3 x4 x5 x6 x7 x8 x9 x10 x12 x13 x14 x15 x16 x17 x18 x19 x20 x21 x22 x23 x24 x25 x26 x27) (ix2 p q) + (shapeCast Cert.KernelIdeal.S1x2 x11 Cert.KernelIdeal.Facts₀.shapeCasts_S2_S1x2) (ix2 (0 : Fin 1) q)
  rw [shapeCast_a_1a_apply x11]
  rfl

end Cert.Layers

end
-- ==== Proof.Chain1.lean ====
/-
  Layer 1 of the idealized kernel, boundary by boundary, in the reference's terms.

  At the layer's entry the node features hold the reference's value of the previous layer (the input array, for the
  first).  The tiled dense kernel leaves their product with the layer's weights; the stretch of host operations that
  follows gathers it along the edges, scales by the degrees' inverse square roots, scatter-adds at the destinations and
  adds the self-loop term — the very operations of the reference, applied to equal operands —, and reshapes the layer's
  rows; the second tiled kernel adds the bias, normalises and rectifies.  So each boundary's contents are the reference's stage values.
-/
import proofs.«108039_j29265907155154_1_alg».proof.Proof.Carry
import proofs.«108039_j29265907155154_1_alg».proof.Proof.Layers

set_option maxRecDepth 16384

noncomputable section

namespace Cert.KernelIdeal.Chain1

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the dense kernel: the product of the layer's input with its weights, the reference's `dot_general`. -/
theorem dense : W2 m ρ c (Proc.devRef .tc main_v12) = Cert.ReferenceIdeal.Read.val_main_v11 (F := Ideal) (Args.a0 m c) (Args.a2 m c) := by
  refine (W2_arr m ρ c 2).trans ?_
  rw [Dense0.product (V1 m ρ) c]
  show Dense0.rowsTimes (W1 m ρ c (Proc.devRef .tc main_arg0)) (W1 m ρ c (Proc.devRef .tc main_arg2)) = _
  rw [Carry.k1_main_arg0 m ρ c, Carry.k1_main_arg2 m ρ c]
  exact (Cert.Layers.dense1 _ _).symm

set_option maxHeartbeats 4000000 in
/-- After the host stretch: the aggregated features, the reference's. -/
theorem agg : W3 m ρ c (Proc.devRef .tc main_v44) = Cert.ReferenceIdeal.Read.val_main_v44 (F := Ideal) (Args.a0 m c) (Args.a1 m c) (Args.a2 m c) := by
  show after (hostOps1 (F := Ideal)) (W2 m ρ c) (Proc.devRef .tc main_v44) = _
  after_results_simp
  rw [dense m ρ c, Carry.k2_main_v1 m ρ c, Carry.k2_main_v3 m ρ c, Carry.k2_main_v10 m ρ c, Carry.k2_main_v11 m ρ c]
  rfl

/-- After the host stretch: the layer's row `b`, reshaped to one row. -/
theorem row_b : W3 m ρ c (Proc.devRef .tc main_v45) = (shapeCast S1x128 (Args.a3 m c) Facts₀.shapeCasts_S128_S1x128) := by
  show after (hostOps1 (F := Ideal)) (W2 m ρ c) (Proc.devRef .tc main_v45) = _
  after_results_simp
  rw [Carry.k2_main_arg3 m ρ c]
  rfl

/-- After the host stretch: the layer's row `g`, reshaped to one row. -/
theorem row_g : W3 m ρ c (Proc.devRef .tc main_v46) = (shapeCast S1x128 (Args.a12 m c) Facts₀.shapeCasts_S128_S1x128) := by
  show after (hostOps1 (F := Ideal)) (W2 m ρ c) (Proc.devRef .tc main_v46) = _
  after_results_simp
  rw [Carry.k2_main_arg12 m ρ c]
  rfl

/-- After the host stretch: the layer's row `be`, reshaped to one row. -/
theorem row_be : W3 m ρ c (Proc.devRef .tc main_v47) = (shapeCast S1x128 (Args.a13 m c) Facts₀.shapeCasts_S128_S1x128) := by
  show after (hostOps1 (F := Ideal)) (W2 m ρ c) (Proc.devRef .tc main_v47) = _
  after_results_simp
  rw [Carry.k2_main_arg13 m ρ c]
  rfl

/-- After the host stretch: the layer's row `rm`, reshaped to one row. -/
theorem row_rm : W3 m ρ c (Proc.devRef .tc main_v48) = (shapeCast S1x128 (Args.a14 m c) Facts₀.shapeCasts_S128_S1x128) := by
  show after (hostOps1 (F := Ideal)) (W2 m ρ c) (Proc.devRef .tc main_v48) = _
  after_results_simp
  rw [Carry.k2_main_arg14 m ρ c]
  rfl

/-- After the host stretch: the layer's row `rv`, reshaped to one row. -/
theorem row_rv : W3 m ρ c (Proc.devRef .tc main_v49) = (shapeCast S1x128 (Args.a15 m c) Facts₀.shapeCasts_S128_S1x128) := by
  show after (hostOps1 (F := Ideal)) (W2 m ρ c) (Proc.devRef .tc main_v49) = _
  after_results_simp
  rw [Carry.k2_main_arg15 m ρ c]
  rfl

/-- After the second kernel: the layer's output, the reference's rectified activation. -/
theorem out : W4 m ρ c (Proc.devRef .tc main_v50) = Cert.ReferenceIdeal.Read.val_main_v63 (F := Ideal) (Args.a0 m c) (Args.a1 m c) (Args.a2 m c) (Args.a3 m c) (Args.a12 m c) (Args.a13 m c) (Args.a14 m c) (Args.a15 m c) := by
  refine (W4_arr m ρ c 6).trans ?_
  rw [Norm1.activation (V3 m ρ) c]
  show Norm1.normRelu (W3 m ρ c (Proc.devRef .tc main_v44)) (W3 m ρ c (Proc.devRef .tc main_v45)) (W3 m ρ c (Proc.devRef .tc main_v46)) (W3 m ρ c (Proc.devRef .tc main_v47)) (W3 m ρ c (Proc.devRef .tc main_v48)) (W3 m ρ c (Proc.devRef .tc main_v49)) = _
  rw [agg m ρ c, row_b m ρ c, row_g m ρ c, row_be m ρ c, row_rm m ρ c, row_rv m ρ c]
  exact (Cert.Layers.norm1 _ _ _ _ _ _ _ _).symm

end Cert.KernelIdeal.Chain1

end
-- ==== Proof.Chain2.lean ====
/-
  Layer 2 of the idealized kernel, boundary by boundary, in the reference's terms.

  At the layer's entry the node features hold the reference's value of the previous layer (the input array, for the
  first).  The tiled dense kernel leaves their product with the layer's weights; the stretch of host operations that
  follows gathers it along the edges, scales by the degrees' inverse square roots, scatter-adds at the destinations and
  adds the self-loop term — the very operations of the reference, applied to equal operands —, and reshapes the layer's
  rows; the second tiled kernel adds the bias, normalises and rectifies.  So each boundary's contents are the reference's stage values.
-/
import proofs.«108039_j29265907155154_1_alg».proof.Proof.Carry
import proofs.«108039_j29265907155154_1_alg».proof.Proof.Layers
import proofs.«108039_j29265907155154_1_alg».proof.Proof.Chain1

set_option maxRecDepth 16384

noncomputable section

namespace Cert.KernelIdeal.Chain2

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the dense kernel: the product of the layer's input with its weights, the reference's `dot_general`. -/
theorem dense : W5 m ρ c (Proc.devRef .tc main_v51) = Cert.ReferenceIdeal.Read.val_main_v64 (F := Ideal) (Args.a0 m c) (Args.a1 m c) (Args.a2 m c) (Args.a3 m c) (Args.a4 m c) (Args.a12 m c) (Args.a13 m c) (Args.a14 m c) (Args.a15 m c) := by
  refine (W5_arr m ρ c 2).trans ?_
  rw [Dense2.product (V4 m ρ) c]
  show Dense2.rowsTimes (W4 m ρ c (Proc.devRef .tc main_v50)) (W4 m ρ c (Proc.devRef .tc main_arg4)) = _
  rw [Chain1.out m ρ c, Carry.k4_main_arg4 m ρ c]
  exact (Cert.Layers.dense2 _ _ _ _ _ _ _ _ _).symm

set_option maxHeartbeats 4000000 in
/-- After the host stretch: the aggregated features, the reference's. -/
theorem agg : W6 m ρ c (Proc.devRef .tc main_v83) = Cert.ReferenceIdeal.Read.val_main_v97 (F := Ideal) (Args.a0 m c) (Args.a1 m c) (Args.a2 m c) (Args.a3 m c) (Args.a4 m c) (Args.a12 m c) (Args.a13 m c) (Args.a14 m c) (Args.a15 m c) := by
  show after (hostOps3 (F := Ideal)) (W5 m ρ c) (Proc.devRef .tc main_v83) = _
  after_results_simp
  rw [dense m ρ c, Carry.k5_main_v1 m ρ c, Carry.k5_main_v3 m ρ c, Carry.k5_main_v10 m ρ c, Carry.k5_main_v11 m ρ c]
  rfl

/-- After the host stretch: the layer's row `b`, reshaped to one row. -/
theorem row_b : W6 m ρ c (Proc.devRef .tc main_v84) = (shapeCast S1x128 (Args.a5 m c) Facts₀.shapeCasts_S128_S1x128) := by
  show after (hostOps3 (F := Ideal)) (W5 m ρ c) (Proc.devRef .tc main_v84) = _
  after_results_simp
  rw [Carry.k5_main_arg5 m ρ c]
  rfl

/-- After the host stretch: the layer's row `g`, reshaped to one row. -/
theorem row_g : W6 m ρ c (Proc.devRef .tc main_v85) = (shapeCast S1x128 (Args.a16 m c) Facts₀.shapeCasts_S128_S1x128) := by
  show after (hostOps3 (F := Ideal)) (W5 m ρ c) (Proc.devRef .tc main_v85) = _
  after_results_simp
  rw [Carry.k5_main_arg16 m ρ c]
  rfl

/-- After the host stretch: the layer's row `be`, reshaped to one row. -/
theorem row_be : W6 m ρ c (Proc.devRef .tc main_v86) = (shapeCast S1x128 (Args.a17 m c) Facts₀.shapeCasts_S128_S1x128) := by
  show after (hostOps3 (F := Ideal)) (W5 m ρ c) (Proc.devRef .tc main_v86) = _
  after_results_simp
  rw [Carry.k5_main_arg17 m ρ c]
  rfl

/-- After the host stretch: the layer's row `rm`, reshaped to one row. -/
theorem row_rm : W6 m ρ c (Proc.devRef .tc main_v87) = (shapeCast S1x128 (Args.a18 m c) Facts₀.shapeCasts_S128_S1x128) := by
  show after (hostOps3 (F := Ideal)) (W5 m ρ c) (Proc.devRef .tc main_v87) = _
  after_results_simp
  rw [Carry.k5_main_arg18 m ρ c]
  rfl

/-- After the host stretch: the layer's row `rv`, reshaped to one row. -/
theorem row_rv : W6 m ρ c (Proc.devRef .tc main_v88) = (shapeCast S1x128 (Args.a19 m c) Facts₀.shapeCasts_S128_S1x128) := by
  show after (hostOps3 (F := Ideal)) (W5 m ρ c) (Proc.devRef .tc main_v88) = _
  after_results_simp
  rw [Carry.k5_main_arg19 m ρ c]
  rfl

/-- After the second kernel: the layer's output, the reference's rectified activation. -/
theorem out : W7 m ρ c (Proc.devRef .tc main_v89) = Cert.ReferenceIdeal.Read.val_main_v116 (F := Ideal) (Args.a0 m c) (Args.a1 m c) (Args.a2 m c) (Args.a3 m c) (Args.a4 m c) (Args.a5 m c) (Args.a12 m c) (Args.a13 m c) (Args.a14 m c) (Args.a15 m c) (Args.a16 m c) (Args.a17 m c) (Args.a18 m c) (Args.a19 m c) := by
  refine (W7_arr m ρ c 6).trans ?_
  rw [Norm3.activation (V6 m ρ) c]
  show Norm3.normRelu (W6 m ρ c (Proc.devRef .tc main_v83)) (W6 m ρ c (Proc.devRef .tc main_v84)) (W6 m ρ c (Proc.devRef .tc main_v85)) (W6 m ρ c (Proc.devRef .tc main_v86)) (W6 m ρ c (Proc.devRef .tc main_v87)) (W6 m ρ c (Proc.devRef .tc main_v88)) = _
  rw [agg m ρ c, row_b m ρ c, row_g m ρ c, row_be m ρ c, row_rm m ρ c, row_rv m ρ c]
  exact (Cert.Layers.norm2 _ _ _ _ _ _ _ _ _ _ _ _ _ _).symm

end Cert.KernelIdeal.Chain2

end
-- ==== Proof.Chain3.lean ====
/-
  Layer 3 of the idealized kernel, boundary by boundary, in the reference's terms.

  At the layer's entry the node features hold the reference's value of the previous layer (the input array, for the
  first).  The tiled dense kernel leaves their product with the layer's weights; the stretch of host operations that
  follows gathers it along the edges, scales by the degrees' inverse square roots, scatter-adds at the destinations and
  adds the self-loop term — the very operations of the reference, applied to equal operands —, and reshapes the layer's
  rows; the second tiled kernel adds the bias, normalises and rectifies.  So each boundary's contents are the reference's stage values.
-/
import proofs.«108039_j29265907155154_1_alg».proof.Proof.Carry
import proofs.«108039_j29265907155154_1_alg».proof.Proof.Layers
import proofs.«108039_j29265907155154_1_alg».proof.Proof.Chain2

set_option maxRecDepth 16384

noncomputable section

namespace Cert.KernelIdeal.Chain3

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the dense kernel: the product of the layer's input with its weights, the reference's `dot_general`. -/
theorem dense : W8 m ρ c (Proc.devRef .tc main_v90) = Cert.ReferenceIdeal.Read.val_main_v117 (F := Ideal) (Args.a0 m c) (Args.a1 m c) (Args.a2 m c) (Args.a3 m c) (Args.a4 m c) (Args.a5 m c) (Args.a6 m c) (Args.a12 m c) (Args.a13 m c) (Args.a14 m c) (Args.a15 m c) (Args.a16 m c) (Args.a17 m c) (Args.a18 m c) (Args.a19 m c) := by
  refine (W8_arr m ρ c 2).trans ?_
  rw [Dense4.product (V7 m ρ) c]
  show Dense4.rowsTimes (W7 m ρ c (Proc.devRef .tc main_v89)) (W7 m ρ c (Proc.devRef .tc main_arg6)) = _
  rw [Chain2.out m ρ c, Carry.k7_main_arg6 m ρ c]
  exact (Cert.Layers.dense3 _ _ _ _ _ _ _ _ _ _ _ _ _ _ _).symm

set_option maxHeartbeats 4000000 in
/-- After the host stretch: the aggregated features, the reference's. -/
theorem agg : W9 m ρ c (Proc.devRef .tc main_v122) = Cert.ReferenceIdeal.Read.val_main_v150 (F := Ideal) (Args.a0 m c) (Args.a1 m c) (Args.a2 m c) (Args.a3 m c) (Args.a4 m c) (Args.a5 m c) (Args.a6 m c) (Args.a12 m c) (Args.a13 m c) (Args.a14 m c) (Args.a15 m c) (Args.a16 m c) (Args.a17 m c) (Args.a18 m c) (Args.a19 m c) := by
  show after (hostOps5 (F := Ideal)) (W8 m ρ c) (Proc.devRef .tc main_v122) = _
  after_results_simp
  rw [dense m ρ c, Carry.k8_main_v1 m ρ c, Carry.k8_main_v3 m ρ c, Carry.k8_main_v10 m ρ c, Carry.k8_main_v11 m ρ c]
  rfl

/-- After the host stretch: the layer's row `b`, reshaped to one row. -/
theorem row_b : W9 m ρ c (Proc.devRef .tc main_v123) = (shapeCast S1x128 (Args.a7 m c) Facts₀.shapeCasts_S128_S1x128) := by
  show after (hostOps5 (F := Ideal)) (W8 m ρ c) (Proc.devRef .tc main_v123) = _
  after_results_simp
  rw [Carry.k8_main_arg7 m ρ c]
  rfl

/-- After the host stretch: the layer's row `g`, reshaped to one row. -/
theorem row_g : W9 m ρ c (Proc.devRef .tc main_v124) = (shapeCast S1x128 (Args.a20 m c) Facts₀.shapeCasts_S128_S1x128) := by
  show after (hostOps5 (F := Ideal)) (W8 m ρ c) (Proc.devRef .tc main_v124) = _
  after_results_simp
  rw [Carry.k8_main_arg20 m ρ c]
  rfl

/-- After the host stretch: the layer's row `be`, reshaped to one row. -/
theorem row_be : W9 m ρ c (Proc.devRef .tc main_v125) = (shapeCast S1x128 (Args.a21 m c) Facts₀.shapeCasts_S128_S1x128) := by
  show after (hostOps5 (F := Ideal)) (W8 m ρ c) (Proc.devRef .tc main_v125) = _
  after_results_simp
  rw [Carry.k8_main_arg21 m ρ c]
  rfl

/-- After the host stretch: the layer's row `rm`, reshaped to one row. -/
theorem row_rm : W9 m ρ c (Proc.devRef .tc main_v126) = (shapeCast S1x128 (Args.a22 m c) Facts₀.shapeCasts_S128_S1x128) := by
  show after (hostOps5 (F := Ideal)) (W8 m ρ c) (Proc.devRef .tc main_v126) = _
  after_results_simp
  rw [Carry.k8_main_arg22 m ρ c]
  rfl

/-- After the host stretch: the layer's row `rv`, reshaped to one row. -/
theorem row_rv : W9 m ρ c (Proc.devRef .tc main_v127) = (shapeCast S1x128 (Args.a23 m c) Facts₀.shapeCasts_S128_S1x128) := by
  show after (hostOps5 (F := Ideal)) (W8 m ρ c) (Proc.devRef .tc main_v127) = _
  after_results_simp
  rw [Carry.k8_main_arg23 m ρ c]
  rfl

/-- After the second kernel: the layer's output, the reference's rectified activation. -/
theorem out : W10 m ρ c (Proc.devRef .tc main_v128) = Cert.ReferenceIdeal.Read.val_main_v169 (F := Ideal) (Args.a0 m c) (Args.a1 m c) (Args.a2 m c) (Args.a3 m c) (Args.a4 m c) (Args.a5 m c) (Args.a6 m c) (Args.a7 m c) (Args.a12 m c) (Args.a13 m c) (Args.a14 m c) (Args.a15 m c) (Args.a16 m c) (Args.a17 m c) (Args.a18 m c) (Args.a19 m c) (Args.a20 m c) (Args.a21 m c) (Args.a22 m c) (Args.a23 m c) := by
  refine (W10_arr m ρ c 6).trans ?_
  rw [Norm5.activation (V9 m ρ) c]
  show Norm5.normRelu (W9 m ρ c (Proc.devRef .tc main_v122)) (W9 m ρ c (Proc.devRef .tc main_v123)) (W9 m ρ c (Proc.devRef .tc main_v124)) (W9 m ρ c (Proc.devRef .tc main_v125)) (W9 m ρ c (Proc.devRef .tc main_v126)) (W9 m ρ c (Proc.devRef .tc main_v127)) = _
  rw [agg m ρ c, row_b m ρ c, row_g m ρ c, row_be m ρ c, row_rm m ρ c, row_rv m ρ c]
  exact (Cert.Layers.norm3 _ _ _ _ _ _ _ _ _ _ _ _ _ _ _ _ _ _ _ _).symm

end Cert.KernelIdeal.Chain3

end
-- ==== Proof.Chain4.lean ====
/-
  Layer 4 of the idealized kernel, boundary by boundary, in the reference's terms.

  At the layer's entry the node features hold the reference's value of the previous layer (the input array, for the
  first).  The tiled dense kernel leaves their product with the layer's weights; the stretch of host operations that
  follows gathers it along the edges, scales by the degrees' inverse square roots, scatter-adds at the destinations and
  adds the self-loop term — the very operations of the reference, applied to equal operands —, and reshapes the layer's
  rows; the second tiled kernel adds the bias, normalises and rectifies.  So each boundary's contents are the reference's stage values.
-/
import proofs.«108039_j29265907155154_1_alg».proof.Proof.Carry
import proofs.«108039_j29265907155154_1_alg».proof.Proof.Layers
import proofs.«108039_j29265907155154_1_alg».proof.Proof.Chain3

set_option maxRecDepth 16384

noncomputable section

namespace Cert.KernelIdeal.Chain4

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the dense kernel: the product of the layer's input with its weights, the reference's `dot_general`. -/
theorem dense : W11 m ρ c (Proc.devRef .tc main_v129) = Cert.ReferenceIdeal.Read.val_main_v170 (F := Ideal) (Args.a0 m c) (Args.a1 m c) (Args.a2 m c) (Args.a3 m c) (Args.a4 m c) (Args.a5 m c) (Args.a6 m c) (Args.a7 m c) (Args.a8 m c) (Args.a12 m c) (Args.a13 m c) (Args.a14 m c) (Args.a15 m c) (Args.a16 m c) (Args.a17 m c) (Args.a18 m c) (Args.a19 m c) (Args.a20 m c) (Args.a21 m c) (Args.a22 m c) (Args.a23 m c) := by
  refine (W11_arr m ρ c 2).trans ?_
  rw [Dense6.product (V10 m ρ) c]
  show Dense6.rowsTimes (W10 m ρ c (Proc.devRef .tc main_v128)) (W10 m ρ c (Proc.devRef .tc main_arg8)) = _
  rw [Chain3.out m ρ c, Carry.k10_main_arg8 m ρ c]
  exact (Cert.Layers.dense4 _ _ _ _ _ _ _ _ _ _ _ _ _ _ _ _ _ _ _ _ _).symm

set_option maxHeartbeats 4000000 in
/-- After the host stretch: the aggregated features, the reference's. -/
theorem agg : W12 m ρ c (Proc.devRef .tc main_v161) = Cert.ReferenceIdeal.Read.val_main_v203 (F := Ideal) (Args.a0 m c) (Args.a1 m c) (Args.a2 m c) (Args.a3 m c) (Args.a4 m c) (Args.a5 m c) (Args.a6 m c) (Args.a7 m c) (Args.a8 m c) (Args.a12 m c) (Args.a13 m c) (Args.a14 m c) (Args.a15 m c) (Args.a16 m c) (Args.a17 m c) (Args.a18 m c) (Args.a19 m c) (Args.a20 m c) (Args.a21 m c) (Args.a22 m c) (Args.a23 m c) := by
  show after (hostOps7 (F := Ideal)) (W11 m ρ c) (Proc.devRef .tc main_v161) = _
  after_results_simp
  rw [dense m ρ c, Carry.k11_main_v1 m ρ c, Carry.k11_main_v3 m ρ c, Carry.k11_main_v10 m ρ c, Carry.k11_main_v11 m ρ c]
  rfl

/-- After the host stretch: the layer's row `b`, reshaped to one row. -/
theorem row_b : W12 m ρ c (Proc.devRef .tc main_v162) = (shapeCast S1x64 (Args.a9 m c) Facts₀.shapeCasts_S64_S1x64) := by
  show after (hostOps7 (F := Ideal)) (W11 m ρ c) (Proc.devRef .tc main_v162) = _
  after_results_simp
  rw [Carry.k11_main_arg9 m ρ c]
  rfl

/-- After the host stretch: the layer's row `g`, reshaped to one row. -/
theorem row_g : W12 m ρ c (Proc.devRef .tc main_v163) = (shapeCast S1x64 (Args.a24 m c) Facts₀.shapeCasts_S64_S1x64) := by
  show after (hostOps7 (F := Ideal)) (W11 m ρ c) (Proc.devRef .tc main_v163) = _
  after_results_simp
  rw [Carry.k11_main_arg24 m ρ c]
  rfl

/-- After the host stretch: the layer's row `be`, reshaped to one row. -/
theorem row_be : W12 m ρ c (Proc.devRef .tc main_v164) = (shapeCast S1x64 (Args.a25 m c) Facts₀.shapeCasts_S64_S1x64) := by
  show after (hostOps7 (F := Ideal)) (W11 m ρ c) (Proc.devRef .tc main_v164) = _
  after_results_simp
  rw [Carry.k11_main_arg25 m ρ c]
  rfl

/-- After the host stretch: the layer's row `rm`, reshaped to one row. -/
theorem row_rm : W12 m ρ c (Proc.devRef .tc main_v165) = (shapeCast S1x64 (Args.a26 m c) Facts₀.shapeCasts_S64_S1x64) := by
  show after (hostOps7 (F := Ideal)) (W11 m ρ c) (Proc.devRef .tc main_v165) = _
  after_results_simp
  rw [Carry.k11_main_arg26 m ρ c]
  rfl

/-- After the host stretch: the layer's row `rv`, reshaped to one row. -/
theorem row_rv : W12 m ρ c (Proc.devRef .tc main_v166) = (shapeCast S1x64 (Args.a27 m c) Facts₀.shapeCasts_S64_S1x64) := by
  show after (hostOps7 (F := Ideal)) (W11 m ρ c) (Proc.devRef .tc main_v166) = _
  after_results_simp
  rw [Carry.k11_main_arg27 m ρ c]
  rfl

/-- After the second kernel: the layer's output, the reference's rectified activation. -/
theorem out : W13 m ρ c (Proc.devRef .tc main_v167) = Cert.ReferenceIdeal.Read.val_main_v222 (F := Ideal) (Args.a0 m c) (Args.a1 m c) (Args.a2 m c) (Args.a3 m c) (Args.a4 m c) (Args.a5 m c) (Args.a6 m c) (Args.a7 m c) (Args.a8 m c) (Args.a9 m c) (Args.a12 m c) (Args.a13 m c) (Args.a14 m c) (Args.a15 m c) (Args.a16 m c) (Args.a17 m c) (Args.a18 m c) (Args.a19 m c) (Args.a20 m c) (Args.a21 m c) (Args.a22 m c) (Args.a23 m c) (Args.a24 m c) (Args.a25 m c) (Args.a26 m c) (Args.a27 m c) := by
  refine (W13_arr m ρ c 6).trans ?_
  rw [Norm7.activation (V12 m ρ) c]
  show Norm7.normRelu (W12 m ρ c (Proc.devRef .tc main_v161)) (W12 m ρ c (Proc.devRef .tc main_v162)) (W12 m ρ c (Proc.devRef .tc main_v163)) (W12 m ρ c (Proc.devRef .tc main_v164)) (W12 m ρ c (Proc.devRef .tc main_v165)) (W12 m ρ c (Proc.devRef .tc main_v166)) = _
  rw [agg m ρ c, row_b m ρ c, row_g m ρ c, row_be m ρ c, row_rm m ρ c, row_rv m ρ c]
  exact (Cert.Layers.norm4 _ _ _ _ _ _ _ _ _ _ _ _ _ _ _ _ _ _ _ _ _ _ _ _ _ _).symm

end Cert.KernelIdeal.Chain4

end
-- ==== Proof.Chain5.lean ====
/-
  Layer 5 of the idealized kernel, boundary by boundary, in the reference's terms.

  At the layer's entry the node features hold the reference's value of the previous layer (the input array, for the
  first).  The tiled dense kernel leaves their product with the layer's weights; the stretch of host operations that
  follows gathers it along the edges, scales by the degrees' inverse square roots, scatter-adds at the destinations and
  adds the self-loop term — the very operations of the reference, applied to equal operands —, and reshapes the layer's
  rows; the second tiled kernel adds the bias.  So each boundary's contents are the reference's stage values.
-/
import proofs.«108039_j29265907155154_1_alg».proof.Proof.Carry
import proofs.«108039_j29265907155154_1_alg».proof.Proof.Layers
import proofs.«108039_j29265907155154_1_alg».proof.Proof.Chain4

set_option maxRecDepth 16384

noncomputable section

namespace Cert.KernelIdeal.Chain5

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the dense kernel: the product of the layer's input with its weights, the reference's `dot_general`. -/
theorem dense : W14 m ρ c (Proc.devRef .tc main_v168) = Cert.ReferenceIdeal.Read.val_main_v223 (F := Ideal) (Args.a0 m c) (Args.a1 m c) (Args.a2 m c) (Args.a3 m c) (Args.a4 m c) (Args.a5 m c) (Args.a6 m c) (Args.a7 m c) (Args.a8 m c) (Args.a9 m c) (Args.a10 m c) (Args.a12 m c) (Args.a13 m c) (Args.a14 m c) (Args.a15 m c) (Args.a16 m c) (Args.a17 m c) (Args.a18 m c) (Args.a19 m c) (Args.a20 m c) (Args.a21 m c) (Args.a22 m c) (Args.a23 m c) (Args.a24 m c) (Args.a25 m c) (Args.a26 m c) (Args.a27 m c) := by
  refine (W14_arr m ρ c 2).trans ?_
  rw [Dense8.product (V13 m ρ) c]
  show Dense8.rowsTimes (W13 m ρ c (Proc.devRef .tc main_v167)) (W13 m ρ c (Proc.devRef .tc main_arg10)) = _
  rw [Chain4.out m ρ c, Carry.k13_main_arg10 m ρ c]
  exact (Cert.Layers.dense5 _ _ _ _ _ _ _ _ _ _ _ _ _ _ _ _ _ _ _ _ _ _ _ _ _ _ _).symm

set_option maxHeartbeats 4000000 in
/-- After the host stretch: the aggregated features, the reference's. -/
theorem agg : W15 m ρ c (Proc.devRef .tc main_v200) = Cert.ReferenceIdeal.Read.val_main_v256 (F := Ideal) (Args.a0 m c) (Args.a1 m c) (Args.a2 m c) (Args.a3 m c) (Args.a4 m c) (Args.a5 m c) (Args.a6 m c) (Args.a7 m c) (Args.a8 m c) (Args.a9 m c) (Args.a10 m c) (Args.a12 m c) (Args.a13 m c) (Args.a14 m c) (Args.a15 m c) (Args.a16 m c) (Args.a17 m c) (Args.a18 m c) (Args.a19 m c) (Args.a20 m c) (Args.a21 m c) (Args.a22 m c) (Args.a23 m c) (Args.a24 m c) (Args.a25 m c) (Args.a26 m c) (Args.a27 m c) := by
  show after (hostOps9 (F := Ideal)) (W14 m ρ c) (Proc.devRef .tc main_v200) = _
  after_results_simp
  rw [dense m ρ c, Carry.k14_main_v1 m ρ c, Carry.k14_main_v3 m ρ c, Carry.k14_main_v10 m ρ c, Carry.k14_main_v11 m ρ c]
  rfl

/-- After the host stretch: the layer's row `b`, reshaped to one row. -/
theorem row_b : W15 m ρ c (Proc.devRef .tc main_v201) = (shapeCast S1x2 (Args.a11 m c) Facts₀.shapeCasts_S2_S1x2) := by
  show after (hostOps9 (F := Ideal)) (W14 m ρ c) (Proc.devRef .tc main_v201) = _
  after_results_simp
  rw [Carry.k14_main_arg11 m ρ c]
  rfl

/-- After the last kernel: the program's result, the reference's. -/
theorem out : W16 m ρ c (Proc.devRef .tc main_v202) = Cert.ReferenceIdeal.Read.val_main_v259 (F := Ideal) (Args.a0 m c) (Args.a1 m c) (Args.a2 m c) (Args.a3 m c) (Args.a4 m c) (Args.a5 m c) (Args.a6 m c) (Args.a7 m c) (Args.a8 m c) (Args.a9 m c) (Args.a10 m c) (Args.a11 m c) (Args.a12 m c) (Args.a13 m c) (Args.a14 m c) (Args.a15 m c) (Args.a16 m c) (Args.a17 m c) (Args.a18 m c) (Args.a19 m c) (Args.a20 m c) (Args.a21 m c) (Args.a22 m c) (Args.a23 m c) (Args.a24 m c) (Args.a25 m c) (Args.a26 m c) (Args.a27 m c) := by
  refine (W16_arr m ρ c 2).trans ?_
  rw [Bias9.biased (V15 m ρ) c]
  show Bias9.plusRow (W15 m ρ c (Proc.devRef .tc main_v200)) (W15 m ρ c (Proc.devRef .tc main_v201)) = _
  rw [agg m ρ c, row_b m ρ c]
  exact (Cert.Layers.bias5 _ _ _ _ _ _ _ _ _ _ _ _ _ _ _ _ _ _ _ _ _ _ _ _ _ _ _ _).symm

end Cert.KernelIdeal.Chain5

end
-- ==== Proof.lean ====
/-
  A five-layer graph convolutional network on 100000 nodes and 1600000 edges: the tiled kernels' program against the
  whole-array reference, equal on the extended reals.

  Every layer is `out = Â (h W) + b` followed, in the first four layers, by batch normalisation with running statistics and
  a rectifier; `Â` is the edges' symmetric normalisation with self-loops, applied by gather, scale and scatter-add.
  The kernels' program keeps the sparse part as host operations — the same operations, in the same order, as the
  reference — and replaces the two dense parts of each layer by row-tiled kernels: `h W` in 20 tiles of 5000 rows, and
  the bias / normalisation / rectifier chain in 20 tiles of 5000 rows.

  On the extended reals a tile of the product is the rows' sums over the contracted axis (narrowing to bf16 is the
  identity there, and the accumulator starts at zero), so the tiles assemble the reference's `dot_general`; a tile of
  the elementwise chain is the reference's chain read at the tile's entries, the host's reciprocal square root and
  the vector unit's being one function.  No law beyond reading both sides at an index is needed: each side computes
  the same sums and the same elementwise expressions, so finiteness of the inputs is never used.

  Boundary by boundary (modules `Chain1` … `Chain5`) the kernels' buffers hold the reference's stage values; the last
  boundary's result buffer is the reference's result.  The three frames are the generated ones; the idealization
  rewrote nothing, so there is nothing to preserve.
-/
import proofs.«108039_j29265907155154_1_alg».proof.Defs
import proofs.«108039_j29265907155154_1_alg».proof.Proof.Gen.Kernel
import proofs.«108039_j29265907155154_1_alg».proof.Proof.Gen.Kernel.Frame
import proofs.«108039_j29265907155154_1_alg».proof.Proof.Gen.KernelIdeal
import proofs.«108039_j29265907155154_1_alg».proof.Proof.Gen.KernelIdeal.Frame
import proofs.«108039_j29265907155154_1_alg».proof.Proof.Gen.ReferenceIdeal
import proofs.«108039_j29265907155154_1_alg».proof.Proof.Gen.Pre_finite_inputs
import proofs.«108039_j29265907155154_1_alg».proof.Proof.Gen.ReferenceIdeal.Run
import proofs.«108039_j29265907155154_1_alg».proof.Proof.Gen.ReferenceIdeal.Read
import proofs.«108039_j29265907155154_1_alg».proof.Proof.Named
import proofs.«108039_j29265907155154_1_alg».proof.Proof.Chain5
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the reference's result term of the kernel's argument arrays: the kernels' program because
    its last boundary holds it, the reference because that is what it computes, of arguments that agree. -/
theorem algebraic : Cert.algebraic_KernelIdeal_ReferenceIdeal := by
  intro m ρ m' ρ' _ hagree
  refine ⟨fun c => Cert.ReferenceIdeal.Read.val_main_v259 (F := Ideal) (Cert.KernelIdeal.Args.a0 m c) (Cert.KernelIdeal.Args.a1 m c) (Cert.KernelIdeal.Args.a2 m c) (Cert.KernelIdeal.Args.a3 m c) (Cert.KernelIdeal.Args.a4 m c) (Cert.KernelIdeal.Args.a5 m c) (Cert.KernelIdeal.Args.a6 m c) (Cert.KernelIdeal.Args.a7 m c) (Cert.KernelIdeal.Args.a8 m c) (Cert.KernelIdeal.Args.a9 m c) (Cert.KernelIdeal.Args.a10 m c) (Cert.KernelIdeal.Args.a11 m c) (Cert.KernelIdeal.Args.a12 m c) (Cert.KernelIdeal.Args.a13 m c) (Cert.KernelIdeal.Args.a14 m c) (Cert.KernelIdeal.Args.a15 m c) (Cert.KernelIdeal.Args.a16 m c) (Cert.KernelIdeal.Args.a17 m c) (Cert.KernelIdeal.Args.a18 m c) (Cert.KernelIdeal.Args.a19 m c) (Cert.KernelIdeal.Args.a20 m c) (Cert.KernelIdeal.Args.a21 m c) (Cert.KernelIdeal.Args.a22 m c) (Cert.KernelIdeal.Args.a23 m c) (Cert.KernelIdeal.Args.a24 m c) (Cert.KernelIdeal.Args.a25 m c) (Cert.KernelIdeal.Args.a26 m c) (Cert.KernelIdeal.Args.a27 m c), ?_, ?_⟩
  · exact (θ_run Cert.KernelIdeal.defs _ _).mono
      (fun r h c => ⟨(h c).1.trans (Cert.KernelIdeal.Chain5.out m ρ c), (h c).2⟩)
      (Cert.KernelIdeal.Named.run_result (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24, e25, e26, e27⟩ := hagree c
    refine (h c).1.trans ((Cert.ReferenceIdeal.Read.val_main_v259_eq m' c).trans ?_)
    rw [e0, e1, e2, e3, e4, e5, e6, e7, e8, e9, e10, e11, e12, e13, e14, e15, e16, e17, e18, e19, e20, e21, e22, e23, e24, e25, e26, e27]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
